-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096 : Shape := ⟨2, ![64, 4096]⟩
abbrev S4096x4096 : Shape := ⟨2, ![4096, 4096]⟩
abbrev S4096 : Shape := ⟨1, ![4096]⟩
abbrev S4096x8192 : Shape := ⟨2, ![4096, 8192]⟩
abbrev S_ : Shape := ⟨0, ![]⟩

class Facts : Prop where
  bcast_S_S64x4096 : S_.BroadcastsInDim S64x4096 (![] : Fin 0 → Fin S64x4096.rank)
  reducesTo_S64x4096_S_d0_1 : S64x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S4096x8192 : S_.BroadcastsInDim S4096x8192 (![] : Fin 0 → Fin S4096x8192.rank)
  reducesTo_S4096x8192_S_d0_1 : S4096x8192.ReducesTo [0, 1] S_

variable [Facts]

def fn_part3 {F : FTy → Type} [FloatOps F] (main_arg11 : FVec F S4096 .f32) (main_arg12 : FVec F S4096x8192 .f32) (main_v48 : IVec S_ 1) (main_v49 : FVec F S4096x8192 .f32) (main_v50 : FVec F S4096x8192 .f32) : IVec S_ 1 :=
  let main_v51 : IVec S4096x8192 1 := cmpf .olt main_v49 main_v50
  let main_c_19 : IVec S_ 1 := constantI S_ 1 1#1
  let main_v52 : IVec S_ 1 := (fun x v => Host.reduce IntOp.andi x v reducesTo_S4096x8192_S_d0_1 h_S_) main_v51 main_c_19
  let main_v53 : IVec S_ 1 := andi main_v48 main_v52
  let main_v54 : FVec F S4096 .f32 := Host.absf main_arg11
  let main_cst_20 : FVec F S_ .f32 := constant S_ .f32 0x7F800000#32
  let main_v55 : FVec F S4096 .f32 := broadcastInDim S4096 ![] bcast_S_S4096 main_cst_20
  let main_v56 : IVec S4096 1 := cmpf .olt main_v54 main_v55
  let main_c_21 : IVec S_ 1 := constantI S_ 1 1#1
  let main_v57 : IVec S_ 1 := (fun x v => Host.reduce IntOp.andi x v reducesTo_S4096_S_d0 h_S_) main_v56 main_c_21
  let main_v58 : IVec S_ 1 := andi main_v53 main_v57
  let main_v59 : FVec F S4096x8192 .f32 := Host.absf main_arg12
  let main_cst_22 : FVec F S_ .f32 := constant S_ .f32 0x7F800000#32
  let main_v60 : FVec F S4096x8192 .f32 := broadcastInDim S4096x8192 ![] bcast_S_S4096x8192 main_cst_22
  let main_v61 : IVec S4096x8192 1 := cmpf .olt main_v59 main_v60
  let main_c_23 : IVec S_ 1 := constantI S_ 1 1#1
  let main_v62 : IVec S_ 1 := (fun x v => Host.reduce IntOp.andi x v reducesTo_S4096x8192_S_d0_1 h_S_) main_v61 main_c_23
  let main_v63 : IVec S_ 1 := andi main_v58 main_v62
  main_v63

def fn_part2 {F : FTy → Type} [FloatOps F] (main_arg7 : FVec F S4096x8192 .f32) (main_arg8 : FVec F S4096 .f32) (main_arg9 : FVec F S4096x8192 .f32) (main_arg10 : FVec F S4096x8192 .f32) (main_arg11 : FVec F S4096 .f32) (main_arg12 : FVec F S4096x8192 .f32) (main_v33 : IVec S_ 1) : IVec S_ 1 :=
  let main_v34 : FVec F S4096x8192 .f32 := Host.absf main_arg7
  let main_cst_12 : FVec F S_ .f32 := constant S_ .f32 0x7F800000#32
  let main_v35 : FVec F S4096x8192 .f32 := broadcastInDim S4096x8192 ![] bcast_S_S4096x8192 main_cst_12
  let main_v36 : IVec S4096x8192 1 := cmpf .olt main_v34 main_v35
  let main_c_13 : IVec S_ 1 := constantI S_ 1 1#1
  let main_v37 : IVec S_ 1 := (fun x v => Host.reduce IntOp.andi x v reducesTo_S4096x8192_S_d0_1 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  let main_v44 : FVec F S4096x8192 .f32 := Host.absf main_arg9
  let main_cst_16 : FVec F S_ .f32 := constant S_ .f32 0x7F800000#32
  let main_v45 : FVec F S4096x8192 .f32 := broadcastInDim S4096x8192 ![] bcast_S_S4096x8192 main_cst_16
  let main_v46 : IVec S4096x8192 1 := cmpf .olt main_v44 main_v45
  let main_c_17 : IVec S_ 1 := constantI S_ 1 1#1
  let main_v47 : IVec S_ 1 := (fun x v => Host.reduce IntOp.andi x v reducesTo_S4096x8192_S_d0_1 h_S_) main_v46 main_c_17
  let main_v48 : IVec S_ 1 := andi main_v43 main_v47
  let main_v49 : FVec F S4096x8192 .f32 := Host.absf main_arg10
  let main_cst_18 : FVec F S_ .f32 := constant S_ .f32 0x7F800000#32
  let main_v50 : FVec F S4096x8192 .f32 := broadcastInDim S4096x8192 ![] bcast_S_S4096x8192 main_cst_18
  fn_part3 (F := F) main_arg11 main_arg12 main_v48 main_v49 main_v50

def fn_part1 {F : FTy → Type} [FloatOps F] (main_arg4 : FVec F S4096x8192 .f32) (main_arg5 : FVec F S4096 .f32) (main_arg6 : FVec F S4096x8192 .f32) (main_arg7 : FVec F S4096x8192 .f32) (main_arg8 : FVec F S4096 .f32) (main_arg9 : FVec F S4096x8192 .f32) (main_arg10 : FVec F S4096x8192 .f32) (main_arg11 : FVec F S4096 .f32) (main_arg12 : FVec F S4096x8192 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096x8192 .f32 := Host.absf main_arg4
  let main_cst_6 : FVec F S_ .f32 := constant S_ .f32 0x7F800000#32
  let main_v20 : FVec F S4096x8192 .f32 := broadcastInDim S4096x8192 ![] bcast_S_S4096x8192 main_cst_6
  let main_v21 : IVec S4096x8192 1 := cmpf .olt main_v19 main_v20
  let main_c_7 : IVec S_ 1 := constantI S_ 1 1#1
  let main_v22 : IVec S_ 1 := (fun x v => Host.reduce IntOp.andi x v reducesTo_S4096x8192_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096x8192 .f32 := Host.absf main_arg6
  let main_cst_10 : FVec F S_ .f32 := constant S_ .f32 0x7F800000#32
  let main_v30 : FVec F S4096x8192 .f32 := broadcastInDim S4096x8192 ![] bcast_S_S4096x8192 main_cst_10
  let main_v31 : IVec S4096x8192 1 := cmpf .olt main_v29 main_v30
  let main_c_11 : IVec S_ 1 := constantI S_ 1 1#1
  let main_v32 : IVec S_ 1 := (fun x v => Host.reduce IntOp.andi x v reducesTo_S4096x8192_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S64x4096 .f32) (main_arg1 : FVec F S4096x4096 .f32) (main_arg2 : FVec F S4096 .f32) (main_arg3 : FVec F S4096x4096 .f32) (main_arg4 : FVec F S4096x8192 .f32) (main_arg5 : FVec F S4096 .f32) (main_arg6 : FVec F S4096x8192 .f32) (main_arg7 : FVec F S4096x8192 .f32) (main_arg8 : FVec F S4096 .f32) (main_arg9 : FVec F S4096x8192 .f32) (main_arg10 : FVec F S4096x8192 .f32) (main_arg11 : FVec F S4096 .f32) (main_arg12 : FVec F S4096x8192 .f32) : IVec S_ 1 :=
  let main_v0 : FVec F S64x4096 .f32 := Host.absf main_arg0
  let main_cst : FVec F S_ .f32 := constant S_ .f32 0x7F800000#32
  let main_v1 : FVec F S64x4096 .f32 := broadcastInDim S64x4096 ![] bcast_S_S64x4096 main_cst
  let main_v2 : IVec S64x4096 1 := cmpf .olt main_v0 main_v1
  let main_c : IVec S_ 1 := constantI S_ 1 1#1
  let main_v3 : IVec S_ 1 := (fun x v => Host.reduce IntOp.andi x v reducesTo_S64x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_arg7 main_arg8 main_arg9 main_arg10 main_arg11 main_arg12 main_v13 main_v16
-- ==== Kernel.lean ====
abbrev S64x4096 : Shape := ⟨2, ![64, 4096]⟩
abbrev S4096x4096 : Shape := ⟨2, ![4096, 4096]⟩
abbrev S4096 : Shape := ⟨1, ![4096]⟩
abbrev S4096x8192 : Shape := ⟨2, ![4096, 8192]⟩
abbrev S1x4096 : Shape := ⟨2, ![1, 4096]⟩
abbrev S512x4096 : Shape := ⟨2, ![512, 4096]⟩
abbrev S1x512 : Shape := ⟨2, ![1, 512]⟩
abbrev S64x512 : Shape := ⟨2, ![64, 512]⟩
abbrev S64x8192 : Shape := ⟨2, ![64, 8192]⟩

abbrev nBuf : Space → Nat
  | .hbm => 24
  | .vmem => 43
  | .smem => 0
  | _ => 0

abbrev bufTy : (tb : Table) → Fin (tcTables nBuf tb) → BufTy
  | .hbm, ⟨0, _⟩ => ⟨S64x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096x8192, .f32⟩
  | .hbm, ⟨5, _⟩ => ⟨S4096, .f32⟩
  | .hbm, ⟨6, _⟩ => ⟨S4096x8192, .f32⟩
  | .hbm, ⟨7, _⟩ => ⟨S4096x8192, .f32⟩
  | .hbm, ⟨8, _⟩ => ⟨S4096, .f32⟩
  | .hbm, ⟨9, _⟩ => ⟨S4096x8192, .f32⟩
  | .hbm, ⟨10, _⟩ => ⟨S4096x8192, .f32⟩
  | .hbm, ⟨11, _⟩ => ⟨S4096, .f32⟩
  | .hbm, ⟨12, _⟩ => ⟨S4096x8192, .f32⟩
  | .hbm, ⟨13, _⟩ => ⟨S1x4096, .f32⟩
  | .hbm, ⟨14, _⟩ => ⟨S64x4096, .f32⟩
  | .hbm, ⟨15, _⟩ => ⟨S64x8192, .f32⟩
  | .hbm, ⟨16, _⟩ => ⟨S1x4096, .f32⟩
  | .hbm, ⟨17, _⟩ => ⟨S64x4096, .f32⟩
  | .hbm, ⟨18, _⟩ => ⟨S64x8192, .f32⟩
  | .hbm, ⟨19, _⟩ => ⟨S1x4096, .f32⟩
  | .hbm, ⟨20, _⟩ => ⟨S64x4096, .f32⟩
  | .hbm, ⟨21, _⟩ => ⟨S64x8192, .f32⟩
  | .hbm, ⟨22, _⟩ => ⟨S1x4096, .f32⟩
  | .hbm, ⟨23, _⟩ => ⟨S64x4096, .f32⟩
  | .local _ .vmem, ⟨0, _⟩ => ⟨S64x4096, .f32⟩
  | .local _ .vmem, ⟨1, _⟩ => ⟨S512x4096, .f32⟩
  | .local _ .vmem, ⟨2, _⟩ => ⟨S512x4096, .f32⟩
  | .local _ .vmem, ⟨3, _⟩ => ⟨S512x4096, .f32⟩
  | .local _ .vmem, ⟨4, _⟩ => ⟨S512x4096, .f32⟩
  | .local _ .vmem, ⟨5, _⟩ => ⟨S1x512, .f32⟩
  | .local _ .vmem, ⟨6, _⟩ => ⟨S1x512, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | .local _ .vmem, ⟨10, _⟩ => ⟨S64x4096, .f32⟩
  | .local _ .vmem, ⟨11, _⟩ => ⟨S64x4096, .f32⟩
  | .local _ .vmem, ⟨12, _⟩ => ⟨S512x4096, .f32⟩
  | .local _ .vmem, ⟨13, _⟩ => ⟨S512x4096, .f32⟩
  | .local _ .vmem, ⟨14, _⟩ => ⟨S512x4096, .f32⟩
  | .local _ .vmem, ⟨15, _⟩ => ⟨S512x4096, .f32⟩
  | .local _ .vmem, ⟨16, _⟩ => ⟨S1x512, .f32⟩
  | .local _ .vmem, ⟨17, _⟩ => ⟨S1x512, .f32⟩
  | .local _ .vmem, ⟨18, _⟩ => ⟨S64x512, .f32⟩
  | .local _ .vmem, ⟨19, _⟩ => ⟨S64x512, .f32⟩
  | .local _ .vmem, ⟨20, _⟩ => ⟨S64x512, .f32⟩
  | .local _ .vmem, ⟨21, _⟩ => ⟨S64x4096, .f32⟩
  | .local _ .vmem, ⟨22, _⟩ => ⟨S64x4096, .f32⟩
  | .local _ .vmem, ⟨23, _⟩ => ⟨S512x4096, .f32⟩
  | .local _ .vmem, ⟨24, _⟩ => ⟨S512x4096, .f32⟩
  | .local _ .vmem, ⟨25, _⟩ => ⟨S512x4096, .f32⟩
  | .local _ .vmem, ⟨26, _⟩ => ⟨S512x4096, .f32⟩
  | .local _ .vmem, ⟨27, _⟩ => ⟨S1x512, .f32⟩
  | .local _ .vmem, ⟨28, _⟩ => ⟨S1x512, .f32⟩
  | .local _ .vmem, ⟨29, _⟩ => ⟨S64x512, .f32⟩
  | .local _ .vmem, ⟨30, _⟩ => ⟨S64x512, .f32⟩
  | .local _ .vmem, ⟨31, _⟩ => ⟨S64x512, .f32⟩
  | .local _ .vmem, ⟨32, _⟩ => ⟨S64x4096, .f32⟩
  | .local _ .vmem, ⟨33, _⟩ => ⟨S64x4096, .f32⟩
  | .local _ .vmem, ⟨34, _⟩ => ⟨S512x4096, .f32⟩
  | .local _ .vmem, ⟨35, _⟩ => ⟨S512x4096, .f32⟩
  | .local _ .vmem, ⟨36, _⟩ => ⟨S512x4096, .f32⟩
  | .local _ .vmem, ⟨37, _⟩ => ⟨S512x4096, .f32⟩
  | .local _ .vmem, ⟨38, _⟩ => ⟨S1x512, .f32⟩
  | .local _ .vmem, ⟨39, _⟩ => ⟨S1x512, .f32⟩
  | .local _ .vmem, ⟨40, _⟩ => ⟨S64x512, .f32⟩
  | .local _ .vmem, ⟨41, _⟩ => ⟨S64x512, .f32⟩
  | .local _ .vmem, ⟨42, _⟩ => ⟨S64x512, .f32⟩
  | _, _ => ⟨S64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_scratch0 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg3_1 : Ref sig .tc := ⟨.vmem, 28, rfl⟩
abbrev cc2_stg4_0 : Ref sig .tc := ⟨.vmem, 29, rfl⟩
abbrev cc2_stg4_1 : Ref sig .tc := ⟨.vmem, 30, rfl⟩
abbrev cc2_scratch0 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg1_1 : Ref sig .tc := ⟨.vmem, 35, rfl⟩
abbrev cc3_stg2_0 : Ref sig .tc := ⟨.vmem, 36, rfl⟩
abbrev cc3_stg2_1 : Ref sig .tc := ⟨.vmem, 37, rfl⟩
abbrev cc3_stg3_0 : Ref sig .tc := ⟨.vmem, 38, rfl⟩
abbrev cc3_stg3_1 : Ref sig .tc := ⟨.vmem, 39, rfl⟩
abbrev cc3_stg4_0 : Ref sig .tc := ⟨.vmem, 40, rfl⟩
abbrev cc3_stg4_1 : Ref sig .tc := ⟨.vmem, 41, rfl⟩
abbrev cc3_scratch0 : Ref sig .tc := ⟨.vmem, 42, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem3_1 : DmaSem sig := 26
abbrev cc2_sem4_0 : DmaSem sig := 27
abbrev cc2_sem4_1 : DmaSem sig := 28
abbrev cc3_sem0_0 : DmaSem sig := 29
abbrev cc3_sem0_1 : DmaSem sig := 30
abbrev cc3_sem1_0 : DmaSem sig := 31
abbrev cc3_sem1_1 : DmaSem sig := 32
abbrev cc3_sem2_0 : DmaSem sig := 33
abbrev cc3_sem2_1 : DmaSem sig := 34
abbrev cc3_sem3_0 : DmaSem sig := 35
abbrev cc3_sem3_1 : DmaSem sig := 36
abbrev cc3_sem4_0 : DmaSem sig := 37
abbrev cc3_sem4_1 : DmaSem sig := 38

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg1 : BitVec 32 := BitVec.ofNat 32 (i 1).val
  let c0_i32_10 : BitVec 32 := 0#32
  let v15 : BitVec 1 := Scalar.cmpi .eq arg1 c0_i32_10
  let v16 : BitVec 32 := Scalar.extui v15
  let c0_i32_11 : BitVec 32 := 0#32
  let v17 : BitVec 1 := Scalar.cmpi .ne v16 c0_i32_11
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S64x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![8, 2], ![false, false]⟩

def k1_cond2 (i : grid1.Coords) : BitVec 1 :=
  let arg1 : BitVec 32 := BitVec.ofNat 32 (i 1).val
  let c1_i32 : BitVec 32 := 1#32
  let v16 : BitVec 1 := Scalar.cmpi .eq arg1 c1_i32
  let v17 : BitVec 32 := Scalar.extui v16
  let c0_i32_10 : BitVec 32 := 0#32
  let v18 : BitVec 1 := Scalar.cmpi .ne v17 c0_i32_10
  v18

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S64x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S512x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S512x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S64x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![8, 2], ![false, false]⟩

def k2_cond2 (i : grid2.Coords) : BitVec 1 :=
  let arg1 : BitVec 32 := BitVec.ofNat 32 (i 1).val
  let c1_i32 : BitVec 32 := 1#32
  let v16 : BitVec 1 := Scalar.cmpi .eq arg1 c1_i32
  let v17 : BitVec 32 := Scalar.extui v16
  let c0_i32_10 : BitVec 32 := 0#32
  let v18 : BitVec 1 := Scalar.cmpi .ne v17 c0_i32_10
  v18

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 2 → Memref sig .tc .vmem S64x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S512x4096 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S512x4096 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S64x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev grid3 : Pipeline.Grid := ⟨2, ![8, 2], ![false, false]⟩

def k3_cond2 (i : grid3.Coords) : BitVec 1 :=
  let arg1 : BitVec 32 := BitVec.ofNat 32 (i 1).val
  let c1_i32 : BitVec 32 := 1#32
  let v16 : BitVec 1 := Scalar.cmpi .eq arg1 c1_i32
  let v17 : BitVec 32 := Scalar.extui v16
  let c0_i32_10 : BitVec 32 := 0#32
  let v18 : BitVec 1 := Scalar.cmpi .ne v17 c0_i32_10
  v18

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage3_0 : Fin 2 → Memref sig .tc .vmem S64x4096 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S512x4096 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S512x4096 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S64x512 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

class Facts₀ : Prop where
  shapeCasts_S4096_S1x4096 : S4096.ShapeCasts S1x4096
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  inb_S64x4096_S64x4096_0_0 : ∀ a, (![0, 0] : Fin 2 → Nat) a + S64x4096.size a ≤ S64x4096.size a
  h_S64x4096 : 0 < S64x4096.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S64x512 : S1x512.Broadcasts S64x512
  concatenates_S64x4096_S64x4096_S64x8192_d1 : Shape.Concatenates [S64x4096, S64x4096] S64x8192 1
  shapeCasts_S64x4096_S64x4096 : S64x4096.ShapeCasts S64x4096
  dot_S64x4096_S512x4096_S64x512_1_1_0_0_n_n_wf : DotDims.WF S64x4096 S512x4096 S64x512 [1] [1] [0] [0] [] []
  hrank0 : 0 < grid0.rank
  hstage0_0 : ∀ j, (stage0_0 j).IsWhole
  nbuf0_0 : grid0.bufCount reads0_0 false = 1
  hreads0_0 : ∀ i i' : grid0.Coords, (∀ a, reads0_0 a = true → i a = i' a) → cc0_transform_0 i = cc0_transform_0 i'
  hinb0_0 : ∀ (i : grid0.Coords) a, (cc0_transform_0 i a + 1) * S64x4096.size a ≤ S64x4096.size a
  hwx0_0 : ∀ i : grid0.Coords, EltTy.bits .f32 = 32 ∨ (Rect.block (s := S64x4096) S64x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .f32 = 32 ∨ (Rect.block (s := S4096x4096) S512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S4096x4096.size a
  hwx0_2 : ∀ i : grid0.Coords, EltTy.bits .f32 = 32 ∨ (Rect.block (s := S4096x4096) S512x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .f32 = 32 ∨ (Rect.block (s := S1x4096) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x512.size a ≤ S64x4096.size a
  hwx0_4 : ∀ i : grid0.Coords, EltTy.bits .f32 = 32 ∨ (Rect.block (s := S64x4096) S64x512.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x4096.size a ≤ S64x8192.size a
  hwx1_0 : ∀ i : grid1.Coords, EltTy.bits .f32 = 32 ∨ (Rect.block (s := S64x8192) S64x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S4096x8192.size a
  hwx1_1 : ∀ i : grid1.Coords, EltTy.bits .f32 = 32 ∨ (Rect.block (s := S4096x8192) S512x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x4096.size a ≤ S4096x8192.size a
  hwx1_2 : ∀ i : grid1.Coords, EltTy.bits .f32 = 32 ∨ (Rect.block (s := S4096x8192) S512x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x4096.size a
  hwx1_3 : ∀ i : grid1.Coords, EltTy.bits .f32 = 32 ∨ (Rect.block (s := S1x4096) S1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S64x512.size a ≤ S64x4096.size a
  hwx1_4 : ∀ i : grid1.Coords, EltTy.bits .f32 = 32 ∨ (Rect.block (s := S64x4096) S64x512.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S64x4096.size a ≤ S64x8192.size a
  hwx2_0 : ∀ i : grid2.Coords, EltTy.bits .f32 = 32 ∨ (Rect.block (s := S64x8192) S64x4096.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x4096.size a ≤ S4096x8192.size a
  hwx2_1 : ∀ i : grid2.Coords, EltTy.bits .f32 = 32 ∨ (Rect.block (s := S4096x8192) S512x4096.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x4096.size a ≤ S4096x8192.size a
  hwx2_2 : ∀ i : grid2.Coords, EltTy.bits .f32 = 32 ∨ (Rect.block (s := S4096x8192) S512x4096.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x512.size a ≤ S1x4096.size a
  hwx2_3 : ∀ i : grid2.Coords, EltTy.bits .f32 = 32 ∨ (Rect.block (s := S1x4096) S1x512.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S64x512.size a ≤ S64x4096.size a
  hwx2_4 : ∀ i : grid2.Coords, EltTy.bits .f32 = 32 ∨ (Rect.block (s := S64x4096) S64x512.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S64x4096.size a ≤ S64x8192.size a
  hwx3_0 : ∀ i : grid3.Coords, EltTy.bits .f32 = 32 ∨ (Rect.block (s := S64x8192) S64x4096.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S512x4096.size a ≤ S4096x8192.size a
  hwx3_1 : ∀ i : grid3.Coords, EltTy.bits .f32 = 32 ∨ (Rect.block (s := S4096x8192) S512x4096.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S512x4096.size a ≤ S4096x8192.size a
  hwx3_2 : ∀ i : grid3.Coords, EltTy.bits .f32 = 32 ∨ (Rect.block (s := S4096x8192) S512x4096.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x512.size a ≤ S1x4096.size a
  hwx3_3 : ∀ i : grid3.Coords, EltTy.bits .f32 = 32 ∨ (Rect.block (s := S1x4096) S1x512.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S64x512.size a ≤ S64x4096.size a
  hwx3_4 : ∀ i : grid3.Coords, EltTy.bits .f32 = 32 ∨ (Rect.block (s := S64x4096) S64x512.size (cc3_transform_4 i) (hinb3_4 i)).WholeWords (EltTy.packing .f32)

variable [Facts₀]

def dot_S64x4096_S512x4096_S64x512_1_1_0_0_n_n : DotDims S64x4096 S512x4096 S64x512 where
  lhsContracting := [1]
  rhsContracting := [1]
  lhsNonContracting := [0]
  rhsNonContracting := [0]
  lhsBatch := []
  rhsBatch := []
  wf := dot_S64x4096_S512x4096_S64x512_1_1_0_0_n_n_wf

abbrev win0_0 : Pipeline.Window sig grid0 :=
  Pipeline.Window.ofSpec (Memref.whole main_arg0) S64x4096.size cc0_transform_0 reads0_0 false false 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S64x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v2) S64x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S512x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S512x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4) S64x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v5) S64x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S512x4096.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S512x4096.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v6) S1x512.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v7) S64x512.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

abbrev win3_0 : Pipeline.Window sig grid3 :=
  Pipeline.Window.ofSpec (Memref.whole main_v8) S64x4096.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg10) S512x4096.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg12) S512x4096.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v9) S1x512.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v10) S64x512.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun _ => false | 4 => fun i => !(k3_cond2 i == 1#1) | ⟨_ + 5, h⟩ => absurd h (Nat.not_lt.2 (Nat.le_add_left _ _))

class Facts : Prop extends Facts₀ where

variable [Facts]
-- ==== ReferenceIdeal.lean ====
abbrev S64x4096 : Shape := ⟨2, ![64, 4096]⟩
abbrev S4096x4096 : Shape := ⟨2, ![4096, 4096]⟩
abbrev S4096 : Shape := ⟨1, ![4096]⟩
abbrev S4096x8192 : Shape := ⟨2, ![4096, 8192]⟩
abbrev S1x4096 : Shape := ⟨2, ![1, 4096]⟩
abbrev S_ : Shape := ⟨0, ![]⟩
abbrev S64x8192 : Shape := ⟨2, ![64, 8192]⟩

abbrev nBuf : Space → Nat
  | .hbm => 48
  | .vmem => 0
  | .smem => 0
  | _ => 0

abbrev bufTy : (tb : Table) → Fin (tcTables nBuf tb) → BufTy
  | .hbm, ⟨0, _⟩ => ⟨S64x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096x8192, .f32⟩
  | .hbm, ⟨5, _⟩ => ⟨S4096, .f32⟩
  | .hbm, ⟨6, _⟩ => ⟨S4096x8192, .f32⟩
  | .hbm, ⟨7, _⟩ => ⟨S4096x8192, .f32⟩
  | .hbm, ⟨8, _⟩ => ⟨S4096, .f32⟩
  | .hbm, ⟨9, _⟩ => ⟨S4096x8192, .f32⟩
  | .hbm, ⟨10, _⟩ => ⟨S4096x8192, .f32⟩
  | .hbm, ⟨11, _⟩ => ⟨S4096, .f32⟩
  | .hbm, ⟨12, _⟩ => ⟨S4096x8192, .f32⟩
  | .hbm, ⟨13, _⟩ => ⟨S4096x4096, .f32⟩
  | .hbm, ⟨14, _⟩ => ⟨S64x4096, .f32⟩
  | .hbm, ⟨15, _⟩ => ⟨S1x4096, .f32⟩
  | .hbm, ⟨16, _⟩ => ⟨S64x4096, .f32⟩
  | .hbm, ⟨17, _⟩ => ⟨S64x4096, .f32⟩
  | .hbm, ⟨18, _⟩ => ⟨S_, .f32⟩
  | .hbm, ⟨19, _⟩ => ⟨S64x4096, .f32⟩
  | .hbm, ⟨20, _⟩ => ⟨S64x4096, .f32⟩
  | .hbm, ⟨21, _⟩ => ⟨S64x8192, .f32⟩
  | .hbm, ⟨22, _⟩ => ⟨S4096x8192, .f32⟩
  | .hbm, ⟨23, _⟩ => ⟨S64x4096, .f32⟩
  | .hbm, ⟨24, _⟩ => ⟨S1x4096, .f32⟩
  | .hbm, ⟨25, _⟩ => ⟨S64x4096, .f32⟩
  | .hbm, ⟨26, _⟩ => ⟨S64x4096, .f32⟩
  | .hbm, ⟨27, _⟩ => ⟨S_, .f32⟩
  | .hbm, ⟨28, _⟩ => ⟨S64x4096, .f32⟩
  | .hbm, ⟨29, _⟩ => ⟨S64x4096, .f32⟩
  | .hbm, ⟨30, _⟩ => ⟨S64x8192, .f32⟩
  | .hbm, ⟨31, _⟩ => ⟨S4096x8192, .f32⟩
  | .hbm, ⟨32, _⟩ => ⟨S64x4096, .f32⟩
  | .hbm, ⟨33, _⟩ => ⟨S1x4096, .f32⟩
  | .hbm, ⟨34, _⟩ => ⟨S64x4096, .f32⟩
  | .hbm, ⟨35, _⟩ => ⟨S64x4096, .f32⟩
  | .hbm, ⟨36, _⟩ => ⟨S_, .f32⟩
  | .hbm, ⟨37, _⟩ => ⟨S64x4096, .f32⟩
  | .hbm, ⟨38, _⟩ => ⟨S64x4096, .f32⟩
  | .hbm, ⟨39, _⟩ => ⟨S64x8192, .f32⟩
  | .hbm, ⟨40, _⟩ => ⟨S4096x8192, .f32⟩
  | .hbm, ⟨41, _⟩ => ⟨S64x4096, .f32⟩
  | .hbm, ⟨42, _⟩ => ⟨S1x4096, .f32⟩
  | .hbm, ⟨43, _⟩ => ⟨S64x4096, .f32⟩
  | .hbm, ⟨44, _⟩ => ⟨S64x4096, .f32⟩
  | .hbm, ⟨45, _⟩ => ⟨S_, .f32⟩
  | .hbm, ⟨46, _⟩ => ⟨S64x4096, .f32⟩
  | .hbm, ⟨47, _⟩ => ⟨S64x4096, .f32⟩
  | _, _ => ⟨S64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_call0_cst : Ref sig .tc := ⟨.hbm, 18, rfl⟩
abbrev main_call0_v0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_call1_cst : Ref sig .tc := ⟨.hbm, 27, rfl⟩
abbrev main_call1_v0 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_call2_cst : Ref sig .tc := ⟨.hbm, 36, rfl⟩
abbrev main_call2_v0 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_call3_cst : Ref sig .tc := ⟨.hbm, 45, rfl⟩
abbrev main_call3_v0 : Ref sig .tc := ⟨.hbm, 46, rfl⟩
abbrev main_v26 : Ref sig .tc := ⟨.hbm, 47, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S64x4096_0_1 : S1x4096.BroadcastsInDim S64x4096 (![0, 1] : Fin 2 → Fin S64x4096.rank)
  bcast_S_S64x4096 : S_.BroadcastsInDim S64x4096 (![] : Fin 0 → Fin S64x4096.rank)
  concatenates_S64x4096_S64x4096_S64x8192_d1 : Shape.Concatenates [S64x4096, S64x4096] S64x8192 1
  dot_S64x4096_S4096x4096_S64x4096_1_1_0_0_n_n_wf : DotDims.WF S64x4096 S4096x4096 S64x4096 [1] [1] [0] [0] [] []
  dot_S64x8192_S4096x8192_S64x4096_1_1_0_0_n_n_wf : DotDims.WF S64x8192 S4096x8192 S64x4096 [1] [1] [0] [0] [] []

variable [Facts₀]

def dot_S64x4096_S4096x4096_S64x4096_1_1_0_0_n_n : DotDims S64x4096 S4096x4096 S64x4096 where
  lhsContracting := [1]
  rhsContracting := [1]
  lhsNonContracting := [0]
  rhsNonContracting := [0]
  lhsBatch := []
  rhsBatch := []
  wf := dot_S64x4096_S4096x4096_S64x4096_1_1_0_0_n_n_wf
def dot_S64x8192_S4096x8192_S64x4096_1_1_0_0_n_n : DotDims S64x8192 S4096x8192 S64x4096 where
  lhsContracting := [1]
  rhsContracting := [1]
  lhsNonContracting := [0]
  rhsNonContracting := [0]
  lhsBatch := []
  rhsBatch := []
  wf := dot_S64x8192_S4096x8192_S64x4096_1_1_0_0_n_n_wf

class Facts : Prop extends Facts₀ where

variable [Facts]
-- ==== Proof.K.Base.lean ====
/-
  Three facts about reading a buffer back after stores that fill it whole, shared by the four kernel regions' bodies.
-/
import proofs.«108305_j59700045414953_1_alg».proof.Proof.Gen.Kernel.Launch
import proofs.«108305_j59700045414953_1_alg».proof.Proof.Gen.Kernel.Skeleton
import proofs.«108305_j59700045414953_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a buffer reads after a list of stores whose LAST one fills the whole shape from offset zero: that store's value. -/
theorem read_writes_last_unit {κ : Kind} {sp : Space} {S : Shape} {e : EltTy} (v : View sig κ sp S e) (f : v.ty.Contents (Elt F))
    {off : Fin S.rank → ℕ} (h : off = fun _ => 0) (inb : ∀ a, off a + S.size a ≤ S.size a) (W : S.Idx → Elt F e)
    (L : List (View.Piece (Elt F) S e)) :
    v.read (Elt F) (v.writes (Elt F) f (⟨Rect.unit off S.size inb, W⟩ :: L)) = W :=
  (View.read_writes_eq_canon v f _ (fun y => ⟨_, List.mem_cons_self, View.mem_set_unit_zero h inb y⟩)).trans
    (View.canon_cons_unit_zero h inb W L)

/-- A load of the whole shape from offset zero through a whole memref holding `X` reads `X`. -/
theorem readAt_whole_unread {sp : Space} {S : Shape} {e : EltTy} (m : Memref sig .tc sp S e) (h : m.IsWhole) (X : S.Idx → Elt F e)
    {off : Fin S.rank → ℕ} (hz : off = fun _ => 0) (inb : ∀ a, off a + S.size a ≤ S.size a) :
    View.readAt (Elt F) m.view (Rect.unit off S.size inb).toLoadRect (h.unread X) = X := by
  rw [View.readAt_eq_ld, h.read_unread]; exact View.ld_unit_zero hz inb X

/-- A load of the whole shape from offset zero after stores whose LAST one fills the whole shape from offset zero reads
    that store's value. -/
theorem readCov_cons_unit_zero {κ : Kind} {sp : Space} {S : Shape} {e : EltTy} (v : View sig κ sp S e)
    {off : Fin S.rank → ℕ} (h : off = fun _ => 0) (inb : ∀ a, off a + S.size a ≤ S.size a) (W : S.Idx → Elt F e)
    (L : List (View.Piece (Elt F) S e)) :
    v.readCov ((⟨Rect.unit off S.size inb, W⟩ : View.Piece (Elt F) S e) :: L) (Rect.unit off S.size inb).toLoadRect = W := by
  rw [View.readCov_eq_canon_ld _ _ _ (fun y => ⟨_, List.mem_cons_self, View.mem_set_unit_zero h inb y⟩),
    View.canon_cons_unit_zero h, View.ld_unit_zero h]

end Cert.Kernel.Hand

end
-- ==== Proof.K.R0.lean ====
/-
  Region 0 (the first layer: 4096 input features, one contraction block). Each of its 8 grid points stages the whole
  input, a 512-row block of the weight and of the mask, and 512 bias entries; the body zeroes the scratch accumulator,
  adds the product of the input with the masked weight block (contracting the feature axis of both), and stores the
  accumulator plus the bias row, clamped below at zero, into the output's 512-column block.
-/
import proofs.«108305_j59700045414953_1_alg».proof.Proof.K.Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The all-zero offsets of a two-axis rectangle, however spelt. -/
theorem hz0 : (![0, 0] : Fin 2 → ℕ) = fun _ => 0 := funext fun a => by fin_cases a <;> rfl

/-- The first conditional of the body: the reduction coordinate is zero. -/
abbrev cond0_1 (i : grid0.Coords) : Prop := (Scalar.cmpi .ne (Scalar.extui (Scalar.cmpi .eq (BitVec.ofNat 32 (i 1).val) 0#32)) 0#32) = 1#1

set_option maxHeartbeats 1000000 in
/-- At a point that both opens and closes a block's run (the contraction is one block): the accumulator is zeroed, the
    point's product added, and the output's staging buffer receives the accumulator plus the bias row, clamped below at zero. -/
theorem sound_kernel0_C (c : Dev nD) (E : Set ℕ) (i : grid0.Coords)
    (arg2 : Memref sig .tc .vmem S64x4096 .f32) (harg2 : arg2.IsWhole) (arg3 : Memref sig .tc .vmem S512x4096 .f32) (harg3 : arg3.IsWhole)
    (arg4 : Memref sig .tc .vmem S512x4096 .f32) (harg4 : arg4.IsWhole) (arg5 : Memref sig .tc .vmem S1x512 .f32) (harg5 : arg5.IsWhole)
    (arg6 : Memref sig .tc .vmem S64x512 .f32) (harg6 : arg6.IsWhole) (arg7 : Memref sig .tc .vmem S64x512 .f32) (harg7 : arg7.IsWhole)
    (hc1 : cond0_1 i) (hc2 : k0_cond2 i = 1#1)
    (x0 : Vec F S64x4096 .f32) (x1 x2 : Vec F S512x4096 .f32) (x3 : Vec F S1x512 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k0_pay3 (k0_pay2 x1 x2 x0 (k0_pay1 (F := F))) x3)
            ∗ owns (c : Thread nD τ) arg7 fullShare (k0_pay2 x1 x2 x0 (k0_pay1 (F := F)))) -∗ K ⟨⟩))
      ⊢ wp frame (wpE (defs₀ (F := F)) Variants.none c none) E (cc0__masked_linear_relu_kernel i arg2 harg2 arg3 harg3 arg4 harg4 arg5 harg5 arg6 harg6 arg7 harg7) K := by
  simp only [cc0__masked_linear_relu_kernel_eq_skeleton]; unfold cc0__masked_linear_relu_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  obtain rfl := harg2.eq_unread hf0
  obtain rfl := harg3.eq_unread hf1
  obtain rfl := harg4.eq_unread hf2
  obtain rfl := harg5.eq_unread hf3
  sl_exec (disch := first | exact hc1 | exact hc2)
  sl_step
  iapply Hk
  isplitl [H0]; · iexists _; isplitr; (· ipureintro; exact hf0); iexact H0
  isplitl [H1]; · iexists _; isplitr; (· ipureintro; exact hf1); iexact H1
  isplitl [H2]; · iexists _; isplitr; (· ipureintro; exact hf2); iexact H2
  isplitl [H3]; · iexists _; isplitr; (· ipureintro; exact hf3); iexact H3
  isplitl [H4]
  · iexists _; isplitr
    swap; · iexact H4
    ipureintro
    refine (read_writes_last_unit _ _ hz0 _ _ _).trans ?_
    sl_unfold_run_names
    rw [readCov_cons_unit_zero _ hz0, View.readCov_unit_zero _ hz0, readAt_whole_unread arg3 harg3 x1 hz0, readAt_whole_unread arg4 harg4 x2 hz0,
      readAt_whole_unread arg2 harg2 x0 hz0, readAt_whole_unread arg5 harg5 x3 hz0]
  iexists _; isplitr
  swap; · iexact H5
  ipureintro
  refine (read_writes_last_unit _ _ hz0 _ _ _).trans ?_
  sl_unfold_run_names
  rw [readAt_whole_unread arg3 harg3 x1 hz0, readAt_whole_unread arg4 harg4 x2 hz0, readAt_whole_unread arg2 harg2 x0 hz0,
    View.readCov_unit_zero _ hz0]

/-! # Region 0: the blocks, the proof data and the body obligation, at entry contents `V` (the contraction is one block:
    every point zeroes the scratch accumulator, adds its product and stores the output) -/

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: unfetched, its block
    index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: unfetched, its block
    index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: unfetched, its block
    index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not: unfetched, its block
    index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The accumulator after the body at point `t`: the point's product added to zero. -/
def acc0 (c : Dev nD) (t : Fin cfg0.N) : Vec F S64x512 .f32 :=
  k0_pay2 (iblk0 V c 1 t) (iblk0 V c 2 t) (iblk0 V c 0 t) (k0_pay1 (F := F))

/-- What a point leaves in the output's staging buffer: the accumulator plus the bias row, clamped below at zero. -/
def out0 (c : Dev nD) (t : Fin cfg0.N) : Vec F S64x512 .f32 := k0_pay3 (acc0 V c t) (iblk0 V c 3 t)

/-- The invariant between points: the scratch accumulator whole at some contents, beside every other scoped buffer no
    window of this call stages. -/
def Φ0 (c : Dev nD) (n : Fin (cfg0.N + 1)) : sProp 𝕄 :=
  iprop((∃ s, owns (c : Thread nD τ) (Memref.whole cc0_scratch0 : Memref sig .tc .vmem S64x512 .f32) fullShare s)
    ∗ Pipeline.scopedRestBut (Ix := Unit) (Name := ℕ) (U := UR sig nD τ) (Lvl := ℕ) (Val := Elt F) spec0 c [cc0_scratch0])

/-- The proof data: the arrays as the region finds them; after the body each input's buffer at its block and the output's
    at `out0`; the invariant `Φ0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0 V c t
  Φ n := Φ0 c n
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0 V c t := by dsimp only [dat0]
theorem Φ_eq0 (c : Dev nD) (n : Fin (cfg0.N + 1)) : (dat0 V c).Φ n = Φ0 (F := F) c n := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- Both conditionals of the body hold at every point of the grid (its reduction axis has one position). -/
theorem hcond0_1 : ∀ t : Fin cfg0.N, cond0_1 (grid0.coords t) :=
  (by decide +kernel : ∀ t : Fin grid0.N, cond0_1 (grid0.coords t))
theorem hcond0_2 : ∀ t : Fin cfg0.N, k0_cond2 (grid0.coords t) = 1#1 :=
  (by decide +kernel : ∀ t : Fin grid0.N, k0_cond2 (grid0.coords t) = 1#1)
/-- The output window is idle nowhere. -/
theorem idle0_4 : ∀ t : Fin cfg0.N, cfg0.idle 4 (cfg0.grid.coords t) = false :=
  (by decide +kernel : ∀ t : Fin grid0.N, idle0 4 (grid0.coords t) = false)

set_option maxHeartbeats 1000000 in
/-- The body at any point: the inputs' buffers hold their blocks; the scratch ends at the point's accumulator and the
    output's buffer at `out0`. -/
theorem sound_body0 (c : Dev nD) (t : Fin cfg0.N) :
    iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d))
        ∗ (∃ d, owns (c : Thread nD τ) (st0_2 t) fullShare ((dat0 V c).before 2 t d))
        ∗ (∃ d, owns (c : Thread nD τ) (st0_3 t) fullShare ((dat0 V c).before 3 t d))
        ∗ (∃ d, owns (c : Thread nD τ) (st0_4 t) fullShare ((dat0 V c).before 4 t d)))
      ⊢ wp frame (wpE (defs₀ (F := F)) Variants.none c none) Set.univ (bodyAt0 t) (fun _ =>
        iprop((dat0 V c).Φ t.succ ∗ (dat0 V c).owesAt () t.succ
          ∗ owns (c : Thread nD τ) (st0_0 t) fullShare ((dat0 V c).after 0 t)
          ∗ owns (c : Thread nD τ) (st0_1 t) fullShare ((dat0 V c).after 1 t)
          ∗ owns (c : Thread nD τ) (st0_2 t) fullShare ((dat0 V c).after 2 t)
          ∗ owns (c : Thread nD τ) (st0_3 t) fullShare ((dat0 V c).after 3 t)
          ∗ owns (c : Thread nD τ) (st0_4 t) fullShare ((dat0 V c).after 4 t))) := by
  unfold bodyAt0
  simp only [before0_0, before0_1, before0_2, before0_3]
  rw [show (dat0 V c).owesAt () t.succ = (dat0 V c).owesAt () t.castSucc from rfl,
    after0_0, after0_1, after0_2, after0_3, after0_4, Φ_eq0, Φ_eq0]
  unfold Φ0
  iintro ⟨⟨⟨%s, Hs⟩, Hrest⟩, Ho, ⟨%d0, H0⟩, ⟨%d1, H1⟩, ⟨%d2, H2⟩, ⟨%d3, H3⟩, ⟨%d4, H4⟩⟩
  iapply (sound_kernel0_C c Set.univ (grid0.coords t) _ _ _ _ _ _ _ _ _ _ _ _ (hcond0_1 t) (hcond0_2 t)
    (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [Hs]; · iexists s; iexact Hs
  iintro ⟨H0, H1, H2, H3, H4, H7⟩
  isplitl [H7 Hrest]
  · isplitl [H7]
    · iexists _; iexact H7
    · iexact Hrest
  isplitl [Ho]; · iexact Ho
  isplitl [H0]; · iexact H0
  isplitl [H1]; · iexact H1
  isplitl [H2]; · iexact H2
  isplitl [H3]; · iexact H3
  unfold out0 acc0; iexact H4

/-- The body obligation at every point: no window is idle anywhere. -/
theorem body_obligation0 (c : Dev nD) : BodyObligation (dat0 (F := F) V c) (defs₀ (F := F)) Variants.none () Set.univ := fun t => by
  rw [bigSep_W0, bigSep_W0]
  have hi : cfg0.idle 4 (cfg0.grid.coords t) = false := idle0_4 t
  refine (sound_body0 V c t).trans (wp_mono _ _ _ fun _ => ?_)
  refine sep_mono .rfl (sep_mono .rfl (sep_mono .rfl (sep_mono .rfl (sep_mono .rfl (sep_mono .rfl ?_)))))
  have e : (dat0 V c).leavesExact 4 t = owns (c : Thread nD τ) (st0_4 t) fullShare ((dat0 V c).after 4 t) := by
    unfold Dat.leavesExact; rw [hi]
  exact Entails.of_eq e.symm

end Region0

end Cert.Kernel.Hand

end
-- ==== Proof.K.R1.lean ====
/-
  Region 1 (layer 2: 8192 input features in two contraction blocks of 4096). Its 16 grid points run in pairs: the
  even point of a pair zeroes the scratch accumulator and adds the first feature block's product; the odd point adds the
  second block's product to what it finds and stores the accumulator plus the bias row, clamped below at zero, into the
  output's 512-column block. The accumulator is carried between the two points in the invariant.
-/
import proofs.«108305_j59700045414953_1_alg».proof.Proof.K.Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The all-zero offsets of a two-axis rectangle, however spelt. -/
theorem hz1 : (![0, 0] : Fin 2 → ℕ) = fun _ => 0 := funext fun a => by fin_cases a <;> rfl

/-- The first conditional of the body: the reduction coordinate is zero. -/
abbrev cond1_1 (i : grid1.Coords) : Prop := (Scalar.cmpi .ne (Scalar.extui (Scalar.cmpi .eq (BitVec.ofNat 32 (i 1).val) 0#32)) 0#32) = 1#1

set_option maxHeartbeats 1000000 in
/-- At a point that opens a block's run and does not close it: the accumulator is zeroed and the point's product added;
    the output's staging buffer is not touched. -/
theorem sound_kernel1_A (c : Dev nD) (E : Set ℕ) (i : grid1.Coords)
    (arg2 : Memref sig .tc .vmem S64x4096 .f32) (harg2 : arg2.IsWhole) (arg3 : Memref sig .tc .vmem S512x4096 .f32) (harg3 : arg3.IsWhole)
    (arg4 : Memref sig .tc .vmem S512x4096 .f32) (harg4 : arg4.IsWhole) (arg5 : Memref sig .tc .vmem S1x512 .f32) (harg5 : arg5.IsWhole)
    (arg6 : Memref sig .tc .vmem S64x512 .f32) (harg6 : arg6.IsWhole) (arg7 : Memref sig .tc .vmem S64x512 .f32) (harg7 : arg7.IsWhole)
    (hc1 : cond1_1 i) (hc2 : ¬ k1_cond2 i = 1#1)
    (x0 : Vec F S64x4096 .f32) (x1 x2 : Vec F S512x4096 .f32) (x3 : Vec F S1x512 .f32) (xo : Vec F S64x512 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xo
            ∗ owns (c : Thread nD τ) arg7 fullShare (k1_pay2 x1 x2 x0 (k1_pay1 (F := F)))) -∗ K ⟨⟩))
      ⊢ wp frame (wpE (defs₀ (F := F)) Variants.none c none) E (cc1__masked_linear_relu_kernel i arg2 harg2 arg3 harg3 arg4 harg4 arg5 harg5 arg6 harg6 arg7 harg7) K := by
  simp only [cc1__masked_linear_relu_kernel_eq_skeleton]; unfold cc1__masked_linear_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := harg2.eq_unread hf0
  obtain rfl := harg3.eq_unread hf1
  obtain rfl := harg4.eq_unread hf2
  obtain rfl := harg5.eq_unread hf3
  obtain rfl := harg6.eq_unread hf4
  sl_exec (disch := first | exact hc1 | exact hc2)
  sl_step
  iapply Hk
  isplitl [H0]; · iexists _; isplitr; (· ipureintro; exact hf0); iexact H0
  isplitl [H1]; · iexists _; isplitr; (· ipureintro; exact hf1); iexact H1
  isplitl [H2]; · iexists _; isplitr; (· ipureintro; exact hf2); iexact H2
  isplitl [H3]; · iexists _; isplitr; (· ipureintro; exact hf3); iexact H3
  isplitl [H4]; · iexists _; isplitr; (· ipureintro; exact hf4); iexact H4
  iexists _; isplitr
  swap; · iexact H5
  ipureintro
  refine (read_writes_last_unit _ _ hz1 _ _ _).trans ?_
  sl_unfold_run_names
  rw [readAt_whole_unread arg3 harg3 x1 hz1, readAt_whole_unread arg4 harg4 x2 hz1, readAt_whole_unread arg2 harg2 x0 hz1,
    View.readCov_unit_zero _ hz1]

set_option maxHeartbeats 1000000 in
/-- At a point that continues a block's run and closes it: the point's product is added to the accumulator as found,
    and the output's staging buffer receives the accumulator plus the bias row, clamped below at zero. -/
theorem sound_kernel1_B (c : Dev nD) (E : Set ℕ) (i : grid1.Coords)
    (arg2 : Memref sig .tc .vmem S64x4096 .f32) (harg2 : arg2.IsWhole) (arg3 : Memref sig .tc .vmem S512x4096 .f32) (harg3 : arg3.IsWhole)
    (arg4 : Memref sig .tc .vmem S512x4096 .f32) (harg4 : arg4.IsWhole) (arg5 : Memref sig .tc .vmem S1x512 .f32) (harg5 : arg5.IsWhole)
    (arg6 : Memref sig .tc .vmem S64x512 .f32) (harg6 : arg6.IsWhole) (arg7 : Memref sig .tc .vmem S64x512 .f32) (harg7 : arg7.IsWhole)
    (hc1 : ¬ cond1_1 i) (hc2 : k1_cond2 i = 1#1)
    (x0 : Vec F S64x4096 .f32) (x1 x2 : Vec F S512x4096 .f32) (x3 : Vec F S1x512 .f32) (s : Vec F S64x512 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare s
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k1_pay3 (k1_pay2 x1 x2 x0 s) x3)
            ∗ owns (c : Thread nD τ) arg7 fullShare (k1_pay2 x1 x2 x0 s)) -∗ K ⟨⟩))
      ⊢ wp frame (wpE (defs₀ (F := F)) Variants.none c none) E (cc1__masked_linear_relu_kernel i arg2 harg2 arg3 harg3 arg4 harg4 arg5 harg5 arg6 harg6 arg7 harg7) K := by
  simp only [cc1__masked_linear_relu_kernel_eq_skeleton]; unfold cc1__masked_linear_relu_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  obtain rfl := harg2.eq_unread hf0
  obtain rfl := harg3.eq_unread hf1
  obtain rfl := harg4.eq_unread hf2
  obtain rfl := harg5.eq_unread hf3
  obtain rfl := harg7.eq_unread hf5
  sl_exec (disch := first | exact hc1 | exact hc2)
  sl_step
  iapply Hk
  isplitl [H0]; · iexists _; isplitr; (· ipureintro; exact hf0); iexact H0
  isplitl [H1]; · iexists _; isplitr; (· ipureintro; exact hf1); iexact H1
  isplitl [H2]; · iexists _; isplitr; (· ipureintro; exact hf2); iexact H2
  isplitl [H3]; · iexists _; isplitr; (· ipureintro; exact hf3); iexact H3
  isplitl [H4]
  · iexists _; isplitr
    swap; · iexact H4
    ipureintro
    refine (read_writes_last_unit _ _ hz1 _ _ _).trans ?_
    sl_unfold_run_names
    rw [View.readCov_unit_zero _ hz1, readAt_whole_unread arg3 harg3 x1 hz1, readAt_whole_unread arg4 harg4 x2 hz1,
      readAt_whole_unread arg2 harg2 x0 hz1, readAt_whole_unread arg7 harg7 s hz1, readAt_whole_unread arg5 harg5 x3 hz1]
  iexists _; isplitr
  swap; · iexact H5
  ipureintro
  refine (read_writes_last_unit _ _ hz1 _ _ _).trans ?_
  sl_unfold_run_names
  rw [readAt_whole_unread arg3 harg3 x1 hz1, readAt_whole_unread arg4 harg4 x2 hz1, readAt_whole_unread arg2 harg2 x0 hz1,
    readAt_whole_unread arg7 harg7 s hz1]

/-! # Region 1: the blocks, the accumulator carried in scratch, the proof data and the body obligation, at entry contents `V` -/

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: unfetched, its block
    index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: unfetched, its block
    index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: unfetched, its block
    index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not: unfetched, its block
    index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The point before `t` (the point itself at the first one). -/
def prev1 (t : Fin cfg1.N) : Fin cfg1.N := ⟨t.val - 1, Nat.lt_of_le_of_lt (Nat.sub_le _ _) t.isLt⟩

/-- The accumulator after the body at point `t`: the point's product added to zero when the point opens a block's run
    (even position), else to the product of the point before, itself added to zero. -/
def acc1 (c : Dev nD) (t : Fin cfg1.N) : Vec F S64x512 .f32 :=
  k1_pay2 (iblk1 V c 1 t) (iblk1 V c 2 t) (iblk1 V c 0 t)
    (if t.val % 2 = 0 then k1_pay1 (F := F)
     else k1_pay2 (iblk1 V c 1 (prev1 t)) (iblk1 V c 2 (prev1 t)) (iblk1 V c 0 (prev1 t)) (k1_pay1 (F := F)))

/-- What a closing point leaves in the output's staging buffer: the accumulator plus the bias row, clamped below at zero. -/
def out1 (c : Dev nD) (t : Fin cfg1.N) : Vec F S64x512 .f32 := k1_pay3 (acc1 V c t) (iblk1 V c 3 t)

/-- What is known of the scratch contents `s` before position `n`: after an opening point, the accumulator it left. -/
def Inv1 (c : Dev nD) (n : Fin (cfg1.N + 1)) (s : Vec F S64x512 .f32) : Prop :=
  ∀ (hlt : n.val - 1 < cfg1.N), 0 < n.val → (n.val - 1) % 2 = 0 → s = acc1 V c ⟨n.val - 1, hlt⟩

/-- The invariant between points: the scratch accumulator whole at contents satisfying `Inv1`, beside every other
    scoped buffer no window of this call stages. -/
def Φ1 (c : Dev nD) (n : Fin (cfg1.N + 1)) : sProp 𝕄 :=
  iprop((∃ s, ⌜Inv1 V c n s⌝ ∗ owns (c : Thread nD τ) (Memref.whole cc1_scratch0 : Memref sig .tc .vmem S64x512 .f32) fullShare s)
    ∗ Pipeline.scopedRestBut (Ix := Unit) (Name := ℕ) (U := UR sig nD τ) (Lvl := ℕ) (Val := Elt F) spec1 c [cc1_scratch0])

/-- The proof data: the arrays as the region finds them; after the body each input's buffer at its block and the output's
    at `out1`; the invariant `Φ1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 V c t
  Φ n := Φ1 V c n
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1 V c t := by dsimp only [dat1]
theorem Φ_eq1 (c : Dev nD) (n : Fin (cfg1.N + 1)) : (dat1 V c).Φ n = Φ1 V c n := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- The body's two conditionals in closed form over the grid: the first holds at the even positions, the second at the odd. -/
theorem hcond1_1 : ∀ t : Fin cfg1.N, cond1_1 (grid1.coords t) ↔ t.val % 2 = 0 :=
  (by decide +kernel : ∀ t : Fin grid1.N, cond1_1 (grid1.coords t) ↔ t.val % 2 = 0)
theorem hcond1_2 : ∀ t : Fin cfg1.N, k1_cond2 (grid1.coords t) = 1#1 ↔ t.val % 2 = 1 :=
  (by decide +kernel : ∀ t : Fin grid1.N, k1_cond2 (grid1.coords t) = 1#1 ↔ t.val % 2 = 1)
/-- The output window is idle exactly at the even positions. -/
theorem idle1_4 : ∀ t : Fin cfg1.N, cfg1.idle 4 (cfg1.grid.coords t) = true ↔ t.val % 2 = 0 :=
  (by decide +kernel : ∀ t : Fin grid1.N, idle1 4 (grid1.coords t) = true ↔ t.val % 2 = 0)

set_option maxHeartbeats 1000000 in
/-- The body at an opening point (even position): the inputs' buffers hold their blocks; the scratch ends at the point's
    accumulator; the output's buffer is handed back as found. -/
theorem sound_body1_A (c : Dev nD) (t : Fin cfg1.N) (h : t.val % 2 = 0) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d))
        ∗ (∃ d, owns (c : Thread nD τ) (st1_3 t) fullShare ((dat1 V c).before 3 t d))
        ∗ (∃ d, owns (c : Thread nD τ) (st1_4 t) fullShare ((dat1 V c).before 4 t d)))
      ⊢ wp frame (wpE (defs₀ (F := F)) Variants.none c none) Set.univ (bodyAt1 t) (fun _ =>
        iprop((dat1 V c).Φ t.succ ∗ (dat1 V c).owesAt () t.succ
          ∗ owns (c : Thread nD τ) (st1_0 t) fullShare ((dat1 V c).after 0 t)
          ∗ owns (c : Thread nD τ) (st1_1 t) fullShare ((dat1 V c).after 1 t)
          ∗ owns (c : Thread nD τ) (st1_2 t) fullShare ((dat1 V c).after 2 t)
          ∗ owns (c : Thread nD τ) (st1_3 t) fullShare ((dat1 V c).after 3 t)
          ∗ (∃ d, owns (c : Thread nD τ) (st1_4 t) fullShare ((dat1 V c).before 4 t d)))) := by
  unfold bodyAt1
  simp only [before1_0, before1_1, before1_2, before1_3]
  rw [show (dat1 V c).owesAt () t.succ = (dat1 V c).owesAt () t.castSucc from rfl,
    after1_0, after1_1, after1_2, after1_3, Φ_eq1, Φ_eq1]
  unfold Φ1
  iintro ⟨⟨⟨%s, -, Hs⟩, Hrest⟩, Ho, ⟨%d0, H0⟩, ⟨%d1, H1⟩, ⟨%d2, H2⟩, ⟨%d3, H3⟩, ⟨%d4, H4⟩⟩
  iapply (sound_kernel1_A c Set.univ (grid1.coords t) _ _ _ _ _ _ _ _ _ _ _ _ ((hcond1_1 t).mpr h)
    (fun hh => by have := (hcond1_2 t).mp hh; omega)
    (iblk1 V c 0 t) (iblk1 V c 1 t) (iblk1 V c 2 t) (iblk1 V c 3 t) ((dat1 V c).before 4 t d4) _)
  isplitl [H0]; · iexact H0
  isplitl [H1]; · iexact H1
  isplitl [H2]; · iexact H2
  isplitl [H3]; · iexact H3
  isplitl [H4]; · iexact H4
  isplitl [Hs]; · iexists s; iexact Hs
  iintro ⟨H0, H1, H2, H3, H4, H7⟩
  isplitl [H7 Hrest]
  · isplitl [H7]
    · iexists _; isplitr
      swap; · iexact H7
      ipureintro
      intro hlt _ _
      have e : (⟨t.succ.val - 1, hlt⟩ : Fin cfg1.N) = t := Fin.ext (by show t.val + 1 - 1 = t.val; omega)
      rw [e]; unfold acc1; rw [if_pos h]
    · iexact Hrest
  isplitl [Ho]; · iexact Ho
  isplitl [H0]; · iexact H0
  isplitl [H1]; · iexact H1
  isplitl [H2]; · iexact H2
  isplitl [H3]; · iexact H3
  iexists d4; iexact H4

set_option maxHeartbeats 1000000 in
/-- The body at a closing point (odd position): the scratch holds the accumulator the point before left, the point's
    product is added to it, and the output's buffer receives `out1`. -/
theorem sound_body1_B (c : Dev nD) (t : Fin cfg1.N) (h : ¬ t.val % 2 = 0) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d))
        ∗ (∃ d, owns (c : Thread nD τ) (st1_3 t) fullShare ((dat1 V c).before 3 t d))
        ∗ (∃ d, owns (c : Thread nD τ) (st1_4 t) fullShare ((dat1 V c).before 4 t d)))
      ⊢ wp frame (wpE (defs₀ (F := F)) Variants.none c none) Set.univ (bodyAt1 t) (fun _ =>
        iprop((dat1 V c).Φ t.succ ∗ (dat1 V c).owesAt () t.succ
          ∗ owns (c : Thread nD τ) (st1_0 t) fullShare ((dat1 V c).after 0 t)
          ∗ owns (c : Thread nD τ) (st1_1 t) fullShare ((dat1 V c).after 1 t)
          ∗ owns (c : Thread nD τ) (st1_2 t) fullShare ((dat1 V c).after 2 t)
          ∗ owns (c : Thread nD τ) (st1_3 t) fullShare ((dat1 V c).after 3 t)
          ∗ owns (c : Thread nD τ) (st1_4 t) fullShare ((dat1 V c).after 4 t))) := by
  unfold bodyAt1
  simp only [before1_0, before1_1, before1_2, before1_3]
  rw [show (dat1 V c).owesAt () t.succ = (dat1 V c).owesAt () t.castSucc from rfl,
    after1_0, after1_1, after1_2, after1_3, after1_4, Φ_eq1, Φ_eq1]
  unfold Φ1
  iintro ⟨⟨⟨%s, %hs, Hs⟩, Hrest⟩, Ho, ⟨%d0, H0⟩, ⟨%d1, H1⟩, ⟨%d2, H2⟩, ⟨%d3, H3⟩, ⟨%d4, H4⟩⟩
  have hN : t.val < 16 := lt_of_lt_of_eq t.isLt (show cfg1.N = 16 from N_1)
  have hs' : s = acc1 V c (prev1 t) := hs (Nat.lt_of_le_of_lt (Nat.sub_le _ _) t.isLt) (by show 0 < t.val; omega) (by show (t.val - 1) % 2 = 0; omega)
  have hp : (prev1 t).val % 2 = 0 := by show (t.val - 1) % 2 = 0; omega
  iapply (sound_kernel1_B c Set.univ (grid1.coords t) _ _ _ _ _ _ _ _ _ _ _ _ (fun hh => h ((hcond1_1 t).mp hh))
    ((hcond1_2 t).mpr (by omega))
    (iblk1 V c 0 t) (iblk1 V c 1 t) (iblk1 V c 2 t) (iblk1 V c 3 t) s _)
  isplitl [H0]; · iexact H0
  isplitl [H1]; · iexact H1
  isplitl [H2]; · iexact H2
  isplitl [H3]; · iexact H3
  isplitl [H4]; · iexists _; iexact H4
  isplitl [Hs]; · iexact Hs
  iintro ⟨H0, H1, H2, H3, H4, H7⟩
  have eacc : k1_pay2 (iblk1 V c 1 t) (iblk1 V c 2 t) (iblk1 V c 0 t) s = acc1 V c t := by
    rw [hs']; conv_rhs => unfold acc1; rw [if_neg h]
    unfold acc1; rw [if_pos hp]
  rw [eacc]
  isplitl [H7 Hrest]
  · isplitl [H7]
    · iexists _; isplitr
      swap; · iexact H7
      ipureintro
      intro hlt _ hm
      exfalso; have e : t.succ.val - 1 = t.val := by show t.val + 1 - 1 = t.val; omega
      omega
    · iexact Hrest
  isplitl [Ho]; · iexact Ho
  isplitl [H0]; · iexact H0
  isplitl [H1]; · iexact H1
  isplitl [H2]; · iexact H2
  isplitl [H3]; · iexact H3
  unfold out1; iexact H4

/-- The body obligation at every point: the output window is idle and not written back at the even positions, live at the odd. -/
theorem body_obligation1 (c : Dev nD) : BodyObligation (dat1 (F := F) V c) (defs₀ (F := F)) Variants.none () Set.univ := fun t => by
  rw [bigSep_W1, bigSep_W1]
  by_cases h : t.val % 2 = 0
  · have hi : cfg1.idle 4 (cfg1.grid.coords t) = true := (idle1_4 t).mpr h
    have hf : (cfg1.win 4).flush t = false := Bool.eq_false_iff.mpr fun hh => by have := (flush1_4 t).mp hh; omega
    refine (sound_body1_A V c t h).trans (wp_mono _ _ _ fun _ => ?_)
    refine sep_mono .rfl (sep_mono .rfl (sep_mono .rfl (sep_mono .rfl (sep_mono .rfl (sep_mono .rfl ?_)))))
    exact Entails.of_eq ((dat1 V c).leavesExact_idle 4 t hi hf).symm
  · have hi : cfg1.idle 4 (cfg1.grid.coords t) = false := Bool.eq_false_iff.mpr fun hh => h ((idle1_4 t).mp hh)
    refine (sound_body1_B V c t h).trans (wp_mono _ _ _ fun _ => ?_)
    refine sep_mono .rfl (sep_mono .rfl (sep_mono .rfl (sep_mono .rfl (sep_mono .rfl (sep_mono .rfl ?_)))))
    have e : (dat1 V c).leavesExact 4 t = owns (c : Thread nD τ) (st1_4 t) fullShare ((dat1 V c).after 4 t) := by
      unfold Dat.leavesExact; rw [hi]
    exact Entails.of_eq e.symm

end Region1

end Cert.Kernel.Hand

end
-- ==== Proof.K.R2.lean ====
/-
  Region 2 (layer 3: 8192 input features in two contraction blocks of 4096). Its 16 grid points run in pairs: the
  even point of a pair zeroes the scratch accumulator and adds the first feature block's product; the odd point adds the
  second block's product to what it finds and stores the accumulator plus the bias row, clamped below at zero, into the
  output's 512-column block. The accumulator is carried between the two points in the invariant.
-/
import proofs.«108305_j59700045414953_1_alg».proof.Proof.K.Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The all-zero offsets of a two-axis rectangle, however spelt. -/
theorem hz2 : (![0, 0] : Fin 2 → ℕ) = fun _ => 0 := funext fun a => by fin_cases a <;> rfl

/-- The first conditional of the body: the reduction coordinate is zero. -/
abbrev cond2_1 (i : grid2.Coords) : Prop := (Scalar.cmpi .ne (Scalar.extui (Scalar.cmpi .eq (BitVec.ofNat 32 (i 1).val) 0#32)) 0#32) = 1#1

set_option maxHeartbeats 1000000 in
/-- At a point that opens a block's run and does not close it: the accumulator is zeroed and the point's product added;
    the output's staging buffer is not touched. -/
theorem sound_kernel2_A (c : Dev nD) (E : Set ℕ) (i : grid2.Coords)
    (arg2 : Memref sig .tc .vmem S64x4096 .f32) (harg2 : arg2.IsWhole) (arg3 : Memref sig .tc .vmem S512x4096 .f32) (harg3 : arg3.IsWhole)
    (arg4 : Memref sig .tc .vmem S512x4096 .f32) (harg4 : arg4.IsWhole) (arg5 : Memref sig .tc .vmem S1x512 .f32) (harg5 : arg5.IsWhole)
    (arg6 : Memref sig .tc .vmem S64x512 .f32) (harg6 : arg6.IsWhole) (arg7 : Memref sig .tc .vmem S64x512 .f32) (harg7 : arg7.IsWhole)
    (hc1 : cond2_1 i) (hc2 : ¬ k2_cond2 i = 1#1)
    (x0 : Vec F S64x4096 .f32) (x1 x2 : Vec F S512x4096 .f32) (x3 : Vec F S1x512 .f32) (xo : Vec F S64x512 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xo
            ∗ owns (c : Thread nD τ) arg7 fullShare (k2_pay2 x1 x2 x0 (k2_pay1 (F := F)))) -∗ K ⟨⟩))
      ⊢ wp frame (wpE (defs₀ (F := F)) Variants.none c none) E (cc2__masked_linear_relu_kernel i arg2 harg2 arg3 harg3 arg4 harg4 arg5 harg5 arg6 harg6 arg7 harg7) K := by
  simp only [cc2__masked_linear_relu_kernel_eq_skeleton]; unfold cc2__masked_linear_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := harg2.eq_unread hf0
  obtain rfl := harg3.eq_unread hf1
  obtain rfl := harg4.eq_unread hf2
  obtain rfl := harg5.eq_unread hf3
  obtain rfl := harg6.eq_unread hf4
  sl_exec (disch := first | exact hc1 | exact hc2)
  sl_step
  iapply Hk
  isplitl [H0]; · iexists _; isplitr; (· ipureintro; exact hf0); iexact H0
  isplitl [H1]; · iexists _; isplitr; (· ipureintro; exact hf1); iexact H1
  isplitl [H2]; · iexists _; isplitr; (· ipureintro; exact hf2); iexact H2
  isplitl [H3]; · iexists _; isplitr; (· ipureintro; exact hf3); iexact H3
  isplitl [H4]; · iexists _; isplitr; (· ipureintro; exact hf4); iexact H4
  iexists _; isplitr
  swap; · iexact H5
  ipureintro
  refine (read_writes_last_unit _ _ hz2 _ _ _).trans ?_
  sl_unfold_run_names
  rw [readAt_whole_unread arg3 harg3 x1 hz2, readAt_whole_unread arg4 harg4 x2 hz2, readAt_whole_unread arg2 harg2 x0 hz2,
    View.readCov_unit_zero _ hz2]

set_option maxHeartbeats 1000000 in
/-- At a point that continues a block's run and closes it: the point's product is added to the accumulator as found,
    and the output's staging buffer receives the accumulator plus the bias row, clamped below at zero. -/
theorem sound_kernel2_B (c : Dev nD) (E : Set ℕ) (i : grid2.Coords)
    (arg2 : Memref sig .tc .vmem S64x4096 .f32) (harg2 : arg2.IsWhole) (arg3 : Memref sig .tc .vmem S512x4096 .f32) (harg3 : arg3.IsWhole)
    (arg4 : Memref sig .tc .vmem S512x4096 .f32) (harg4 : arg4.IsWhole) (arg5 : Memref sig .tc .vmem S1x512 .f32) (harg5 : arg5.IsWhole)
    (arg6 : Memref sig .tc .vmem S64x512 .f32) (harg6 : arg6.IsWhole) (arg7 : Memref sig .tc .vmem S64x512 .f32) (harg7 : arg7.IsWhole)
    (hc1 : ¬ cond2_1 i) (hc2 : k2_cond2 i = 1#1)
    (x0 : Vec F S64x4096 .f32) (x1 x2 : Vec F S512x4096 .f32) (x3 : Vec F S1x512 .f32) (s : Vec F S64x512 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare s
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k2_pay3 (k2_pay2 x1 x2 x0 s) x3)
            ∗ owns (c : Thread nD τ) arg7 fullShare (k2_pay2 x1 x2 x0 s)) -∗ K ⟨⟩))
      ⊢ wp frame (wpE (defs₀ (F := F)) Variants.none c none) E (cc2__masked_linear_relu_kernel i arg2 harg2 arg3 harg3 arg4 harg4 arg5 harg5 arg6 harg6 arg7 harg7) K := by
  simp only [cc2__masked_linear_relu_kernel_eq_skeleton]; unfold cc2__masked_linear_relu_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  obtain rfl := harg2.eq_unread hf0
  obtain rfl := harg3.eq_unread hf1
  obtain rfl := harg4.eq_unread hf2
  obtain rfl := harg5.eq_unread hf3
  obtain rfl := harg7.eq_unread hf5
  sl_exec (disch := first | exact hc1 | exact hc2)
  sl_step
  iapply Hk
  isplitl [H0]; · iexists _; isplitr; (· ipureintro; exact hf0); iexact H0
  isplitl [H1]; · iexists _; isplitr; (· ipureintro; exact hf1); iexact H1
  isplitl [H2]; · iexists _; isplitr; (· ipureintro; exact hf2); iexact H2
  isplitl [H3]; · iexists _; isplitr; (· ipureintro; exact hf3); iexact H3
  isplitl [H4]
  · iexists _; isplitr
    swap; · iexact H4
    ipureintro
    refine (read_writes_last_unit _ _ hz2 _ _ _).trans ?_
    sl_unfold_run_names
    rw [View.readCov_unit_zero _ hz2, readAt_whole_unread arg3 harg3 x1 hz2, readAt_whole_unread arg4 harg4 x2 hz2,
      readAt_whole_unread arg2 harg2 x0 hz2, readAt_whole_unread arg7 harg7 s hz2, readAt_whole_unread arg5 harg5 x3 hz2]
  iexists _; isplitr
  swap; · iexact H5
  ipureintro
  refine (read_writes_last_unit _ _ hz2 _ _ _).trans ?_
  sl_unfold_run_names
  rw [readAt_whole_unread arg3 harg3 x1 hz2, readAt_whole_unread arg4 harg4 x2 hz2, readAt_whole_unread arg2 harg2 x0 hz2,
    readAt_whole_unread arg7 harg7 s hz2]

/-! # Region 2: the blocks, the accumulator carried in scratch, the proof data and the body obligation, at entry contents `V` -/

section Region2
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not: unfetched, its block
    index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not: unfetched, its block
    index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not: unfetched, its block
    index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not: unfetched, its block
    index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The point before `t` (the point itself at the first one). -/
def prev2 (t : Fin cfg2.N) : Fin cfg2.N := ⟨t.val - 1, Nat.lt_of_le_of_lt (Nat.sub_le _ _) t.isLt⟩

/-- The accumulator after the body at point `t`: the point's product added to zero when the point opens a block's run
    (even position), else to the product of the point before, itself added to zero. -/
def acc2 (c : Dev nD) (t : Fin cfg2.N) : Vec F S64x512 .f32 :=
  k2_pay2 (iblk2 V c 1 t) (iblk2 V c 2 t) (iblk2 V c 0 t)
    (if t.val % 2 = 0 then k2_pay1 (F := F)
     else k2_pay2 (iblk2 V c 1 (prev2 t)) (iblk2 V c 2 (prev2 t)) (iblk2 V c 0 (prev2 t)) (k2_pay1 (F := F)))

/-- What a closing point leaves in the output's staging buffer: the accumulator plus the bias row, clamped below at zero. -/
def out2 (c : Dev nD) (t : Fin cfg2.N) : Vec F S64x512 .f32 := k2_pay3 (acc2 V c t) (iblk2 V c 3 t)

/-- What is known of the scratch contents `s` before position `n`: after an opening point, the accumulator it left. -/
def Inv2 (c : Dev nD) (n : Fin (cfg2.N + 1)) (s : Vec F S64x512 .f32) : Prop :=
  ∀ (hlt : n.val - 1 < cfg2.N), 0 < n.val → (n.val - 1) % 2 = 0 → s = acc2 V c ⟨n.val - 1, hlt⟩

/-- The invariant between points: the scratch accumulator whole at contents satisfying `Inv2`, beside every other
    scoped buffer no window of this call stages. -/
def Φ2 (c : Dev nD) (n : Fin (cfg2.N + 1)) : sProp 𝕄 :=
  iprop((∃ s, ⌜Inv2 V c n s⌝ ∗ owns (c : Thread nD τ) (Memref.whole cc2_scratch0 : Memref sig .tc .vmem S64x512 .f32) fullShare s)
    ∗ Pipeline.scopedRestBut (Ix := Unit) (Name := ℕ) (U := UR sig nD τ) (Lvl := ℕ) (Val := Elt F) spec2 c [cc2_scratch0])

/-- The proof data: the arrays as the region finds them; after the body each input's buffer at its block and the output's
    at `out2`; the invariant `Φ2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2 V c t
  Φ n := Φ2 V c n
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2 V c t := by dsimp only [dat2]
theorem Φ_eq2 (c : Dev nD) (n : Fin (cfg2.N + 1)) : (dat2 V c).Φ n = Φ2 V c n := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- The body's two conditionals in closed form over the grid: the first holds at the even positions, the second at the odd. -/
theorem hcond2_1 : ∀ t : Fin cfg2.N, cond2_1 (grid2.coords t) ↔ t.val % 2 = 0 :=
  (by decide +kernel : ∀ t : Fin grid2.N, cond2_1 (grid2.coords t) ↔ t.val % 2 = 0)
theorem hcond2_2 : ∀ t : Fin cfg2.N, k2_cond2 (grid2.coords t) = 1#1 ↔ t.val % 2 = 1 :=
  (by decide +kernel : ∀ t : Fin grid2.N, k2_cond2 (grid2.coords t) = 1#1 ↔ t.val % 2 = 1)
/-- The output window is idle exactly at the even positions. -/
theorem idle2_4 : ∀ t : Fin cfg2.N, cfg2.idle 4 (cfg2.grid.coords t) = true ↔ t.val % 2 = 0 :=
  (by decide +kernel : ∀ t : Fin grid2.N, idle2 4 (grid2.coords t) = true ↔ t.val % 2 = 0)

set_option maxHeartbeats 1000000 in
/-- The body at an opening point (even position): the inputs' buffers hold their blocks; the scratch ends at the point's
    accumulator; the output's buffer is handed back as found. -/
theorem sound_body2_A (c : Dev nD) (t : Fin cfg2.N) (h : t.val % 2 = 0) :
    iprop((dat2 V c).Φ t.castSucc ∗ (dat2 V c).owesAt () t.castSucc
        ∗ (∃ d, owns (c : Thread nD τ) (st2_0 t) fullShare ((dat2 V c).before 0 t d))
        ∗ (∃ d, owns (c : Thread nD τ) (st2_1 t) fullShare ((dat2 V c).before 1 t d))
        ∗ (∃ d, owns (c : Thread nD τ) (st2_2 t) fullShare ((dat2 V c).before 2 t d))
        ∗ (∃ d, owns (c : Thread nD τ) (st2_3 t) fullShare ((dat2 V c).before 3 t d))
        ∗ (∃ d, owns (c : Thread nD τ) (st2_4 t) fullShare ((dat2 V c).before 4 t d)))
      ⊢ wp frame (wpE (defs₀ (F := F)) Variants.none c none) Set.univ (bodyAt2 t) (fun _ =>
        iprop((dat2 V c).Φ t.succ ∗ (dat2 V c).owesAt () t.succ
          ∗ owns (c : Thread nD τ) (st2_0 t) fullShare ((dat2 V c).after 0 t)
          ∗ owns (c : Thread nD τ) (st2_1 t) fullShare ((dat2 V c).after 1 t)
          ∗ owns (c : Thread nD τ) (st2_2 t) fullShare ((dat2 V c).after 2 t)
          ∗ owns (c : Thread nD τ) (st2_3 t) fullShare ((dat2 V c).after 3 t)
          ∗ (∃ d, owns (c : Thread nD τ) (st2_4 t) fullShare ((dat2 V c).before 4 t d)))) := by
  unfold bodyAt2
  simp only [before2_0, before2_1, before2_2, before2_3]
  rw [show (dat2 V c).owesAt () t.succ = (dat2 V c).owesAt () t.castSucc from rfl,
    after2_0, after2_1, after2_2, after2_3, Φ_eq2, Φ_eq2]
  unfold Φ2
  iintro ⟨⟨⟨%s, -, Hs⟩, Hrest⟩, Ho, ⟨%d0, H0⟩, ⟨%d1, H1⟩, ⟨%d2, H2⟩, ⟨%d3, H3⟩, ⟨%d4, H4⟩⟩
  iapply (sound_kernel2_A c Set.univ (grid2.coords t) _ _ _ _ _ _ _ _ _ _ _ _ ((hcond2_1 t).mpr h)
    (fun hh => by have := (hcond2_2 t).mp hh; omega)
    (iblk2 V c 0 t) (iblk2 V c 1 t) (iblk2 V c 2 t) (iblk2 V c 3 t) ((dat2 V c).before 4 t d4) _)
  isplitl [H0]; · iexact H0
  isplitl [H1]; · iexact H1
  isplitl [H2]; · iexact H2
  isplitl [H3]; · iexact H3
  isplitl [H4]; · iexact H4
  isplitl [Hs]; · iexists s; iexact Hs
  iintro ⟨H0, H1, H2, H3, H4, H7⟩
  isplitl [H7 Hrest]
  · isplitl [H7]
    · iexists _; isplitr
      swap; · iexact H7
      ipureintro
      intro hlt _ _
      have e : (⟨t.succ.val - 1, hlt⟩ : Fin cfg2.N) = t := Fin.ext (by show t.val + 1 - 1 = t.val; omega)
      rw [e]; unfold acc2; rw [if_pos h]
    · iexact Hrest
  isplitl [Ho]; · iexact Ho
  isplitl [H0]; · iexact H0
  isplitl [H1]; · iexact H1
  isplitl [H2]; · iexact H2
  isplitl [H3]; · iexact H3
  iexists d4; iexact H4

set_option maxHeartbeats 1000000 in
/-- The body at a closing point (odd position): the scratch holds the accumulator the point before left, the point's
    product is added to it, and the output's buffer receives `out2`. -/
theorem sound_body2_B (c : Dev nD) (t : Fin cfg2.N) (h : ¬ t.val % 2 = 0) :
    iprop((dat2 V c).Φ t.castSucc ∗ (dat2 V c).owesAt () t.castSucc
        ∗ (∃ d, owns (c : Thread nD τ) (st2_0 t) fullShare ((dat2 V c).before 0 t d))
        ∗ (∃ d, owns (c : Thread nD τ) (st2_1 t) fullShare ((dat2 V c).before 1 t d))
        ∗ (∃ d, owns (c : Thread nD τ) (st2_2 t) fullShare ((dat2 V c).before 2 t d))
        ∗ (∃ d, owns (c : Thread nD τ) (st2_3 t) fullShare ((dat2 V c).before 3 t d))
        ∗ (∃ d, owns (c : Thread nD τ) (st2_4 t) fullShare ((dat2 V c).before 4 t d)))
      ⊢ wp frame (wpE (defs₀ (F := F)) Variants.none c none) Set.univ (bodyAt2 t) (fun _ =>
        iprop((dat2 V c).Φ t.succ ∗ (dat2 V c).owesAt () t.succ
          ∗ owns (c : Thread nD τ) (st2_0 t) fullShare ((dat2 V c).after 0 t)
          ∗ owns (c : Thread nD τ) (st2_1 t) fullShare ((dat2 V c).after 1 t)
          ∗ owns (c : Thread nD τ) (st2_2 t) fullShare ((dat2 V c).after 2 t)
          ∗ owns (c : Thread nD τ) (st2_3 t) fullShare ((dat2 V c).after 3 t)
          ∗ owns (c : Thread nD τ) (st2_4 t) fullShare ((dat2 V c).after 4 t))) := by
  unfold bodyAt2
  simp only [before2_0, before2_1, before2_2, before2_3]
  rw [show (dat2 V c).owesAt () t.succ = (dat2 V c).owesAt () t.castSucc from rfl,
    after2_0, after2_1, after2_2, after2_3, after2_4, Φ_eq2, Φ_eq2]
  unfold Φ2
  iintro ⟨⟨⟨%s, %hs, Hs⟩, Hrest⟩, Ho, ⟨%d0, H0⟩, ⟨%d1, H1⟩, ⟨%d2, H2⟩, ⟨%d3, H3⟩, ⟨%d4, H4⟩⟩
  have hN : t.val < 16 := lt_of_lt_of_eq t.isLt (show cfg2.N = 16 from N_2)
  have hs' : s = acc2 V c (prev2 t) := hs (Nat.lt_of_le_of_lt (Nat.sub_le _ _) t.isLt) (by show 0 < t.val; omega) (by show (t.val - 1) % 2 = 0; omega)
  have hp : (prev2 t).val % 2 = 0 := by show (t.val - 1) % 2 = 0; omega
  iapply (sound_kernel2_B c Set.univ (grid2.coords t) _ _ _ _ _ _ _ _ _ _ _ _ (fun hh => h ((hcond2_1 t).mp hh))
    ((hcond2_2 t).mpr (by omega))
    (iblk2 V c 0 t) (iblk2 V c 1 t) (iblk2 V c 2 t) (iblk2 V c 3 t) s _)
  isplitl [H0]; · iexact H0
  isplitl [H1]; · iexact H1
  isplitl [H2]; · iexact H2
  isplitl [H3]; · iexact H3
  isplitl [H4]; · iexists _; iexact H4
  isplitl [Hs]; · iexact Hs
  iintro ⟨H0, H1, H2, H3, H4, H7⟩
  have eacc : k2_pay2 (iblk2 V c 1 t) (iblk2 V c 2 t) (iblk2 V c 0 t) s = acc2 V c t := by
    rw [hs']; conv_rhs => unfold acc2; rw [if_neg h]
    unfold acc2; rw [if_pos hp]
  rw [eacc]
  isplitl [H7 Hrest]
  · isplitl [H7]
    · iexists _; isplitr
      swap; · iexact H7
      ipureintro
      intro hlt _ hm
      exfalso; have e : t.succ.val - 1 = t.val := by show t.val + 1 - 1 = t.val; omega
      omega
    · iexact Hrest
  isplitl [Ho]; · iexact Ho
  isplitl [H0]; · iexact H0
  isplitl [H1]; · iexact H1
  isplitl [H2]; · iexact H2
  isplitl [H3]; · iexact H3
  unfold out2; iexact H4

/-- The body obligation at every point: the output window is idle and not written back at the even positions, live at the odd. -/
theorem body_obligation2 (c : Dev nD) : BodyObligation (dat2 (F := F) V c) (defs₀ (F := F)) Variants.none () Set.univ := fun t => by
  rw [bigSep_W2, bigSep_W2]
  by_cases h : t.val % 2 = 0
  · have hi : cfg2.idle 4 (cfg2.grid.coords t) = true := (idle2_4 t).mpr h
    have hf : (cfg2.win 4).flush t = false := Bool.eq_false_iff.mpr fun hh => by have := (flush2_4 t).mp hh; omega
    refine (sound_body2_A V c t h).trans (wp_mono _ _ _ fun _ => ?_)
    refine sep_mono .rfl (sep_mono .rfl (sep_mono .rfl (sep_mono .rfl (sep_mono .rfl (sep_mono .rfl ?_)))))
    exact Entails.of_eq ((dat2 V c).leavesExact_idle 4 t hi hf).symm
  · have hi : cfg2.idle 4 (cfg2.grid.coords t) = false := Bool.eq_false_iff.mpr fun hh => h ((idle2_4 t).mp hh)
    refine (sound_body2_B V c t h).trans (wp_mono _ _ _ fun _ => ?_)
    refine sep_mono .rfl (sep_mono .rfl (sep_mono .rfl (sep_mono .rfl (sep_mono .rfl (sep_mono .rfl ?_)))))
    have e : (dat2 V c).leavesExact 4 t = owns (c : Thread nD τ) (st2_4 t) fullShare ((dat2 V c).after 4 t) := by
      unfold Dat.leavesExact; rw [hi]
    exact Entails.of_eq e.symm

end Region2

end Cert.Kernel.Hand

end
-- ==== Proof.K.R3.lean ====
/-
  Region 3 (layer 4: 8192 input features in two contraction blocks of 4096). Its 16 grid points run in pairs: the
  even point of a pair zeroes the scratch accumulator and adds the first feature block's product; the odd point adds the
  second block's product to what it finds and stores the accumulator plus the bias row, clamped below at zero, into the
  output's 512-column block. The accumulator is carried between the two points in the invariant.
-/
import proofs.«108305_j59700045414953_1_alg».proof.Proof.K.Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The all-zero offsets of a two-axis rectangle, however spelt. -/
theorem hz3 : (![0, 0] : Fin 2 → ℕ) = fun _ => 0 := funext fun a => by fin_cases a <;> rfl

/-- The first conditional of the body: the reduction coordinate is zero. -/
abbrev cond3_1 (i : grid3.Coords) : Prop := (Scalar.cmpi .ne (Scalar.extui (Scalar.cmpi .eq (BitVec.ofNat 32 (i 1).val) 0#32)) 0#32) = 1#1

set_option maxHeartbeats 1000000 in
/-- At a point that opens a block's run and does not close it: the accumulator is zeroed and the point's product added;
    the output's staging buffer is not touched. -/
theorem sound_kernel3_A (c : Dev nD) (E : Set ℕ) (i : grid3.Coords)
    (arg2 : Memref sig .tc .vmem S64x4096 .f32) (harg2 : arg2.IsWhole) (arg3 : Memref sig .tc .vmem S512x4096 .f32) (harg3 : arg3.IsWhole)
    (arg4 : Memref sig .tc .vmem S512x4096 .f32) (harg4 : arg4.IsWhole) (arg5 : Memref sig .tc .vmem S1x512 .f32) (harg5 : arg5.IsWhole)
    (arg6 : Memref sig .tc .vmem S64x512 .f32) (harg6 : arg6.IsWhole) (arg7 : Memref sig .tc .vmem S64x512 .f32) (harg7 : arg7.IsWhole)
    (hc1 : cond3_1 i) (hc2 : ¬ k3_cond2 i = 1#1)
    (x0 : Vec F S64x4096 .f32) (x1 x2 : Vec F S512x4096 .f32) (x3 : Vec F S1x512 .f32) (xo : Vec F S64x512 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xo
            ∗ owns (c : Thread nD τ) arg7 fullShare (k3_pay2 x1 x2 x0 (k3_pay1 (F := F)))) -∗ K ⟨⟩))
      ⊢ wp frame (wpE (defs₀ (F := F)) Variants.none c none) E (cc3__masked_linear_relu_kernel i arg2 harg2 arg3 harg3 arg4 harg4 arg5 harg5 arg6 harg6 arg7 harg7) K := by
  simp only [cc3__masked_linear_relu_kernel_eq_skeleton]; unfold cc3__masked_linear_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := harg2.eq_unread hf0
  obtain rfl := harg3.eq_unread hf1
  obtain rfl := harg4.eq_unread hf2
  obtain rfl := harg5.eq_unread hf3
  obtain rfl := harg6.eq_unread hf4
  sl_exec (disch := first | exact hc1 | exact hc2)
  sl_step
  iapply Hk
  isplitl [H0]; · iexists _; isplitr; (· ipureintro; exact hf0); iexact H0
  isplitl [H1]; · iexists _; isplitr; (· ipureintro; exact hf1); iexact H1
  isplitl [H2]; · iexists _; isplitr; (· ipureintro; exact hf2); iexact H2
  isplitl [H3]; · iexists _; isplitr; (· ipureintro; exact hf3); iexact H3
  isplitl [H4]; · iexists _; isplitr; (· ipureintro; exact hf4); iexact H4
  iexists _; isplitr
  swap; · iexact H5
  ipureintro
  refine (read_writes_last_unit _ _ hz3 _ _ _).trans ?_
  sl_unfold_run_names
  rw [readAt_whole_unread arg3 harg3 x1 hz3, readAt_whole_unread arg4 harg4 x2 hz3, readAt_whole_unread arg2 harg2 x0 hz3,
    View.readCov_unit_zero _ hz3]

set_option maxHeartbeats 1000000 in
/-- At a point that continues a block's run and closes it: the point's product is added to the accumulator as found,
    and the output's staging buffer receives the accumulator plus the bias row, clamped below at zero. -/
theorem sound_kernel3_B (c : Dev nD) (E : Set ℕ) (i : grid3.Coords)
    (arg2 : Memref sig .tc .vmem S64x4096 .f32) (harg2 : arg2.IsWhole) (arg3 : Memref sig .tc .vmem S512x4096 .f32) (harg3 : arg3.IsWhole)
    (arg4 : Memref sig .tc .vmem S512x4096 .f32) (harg4 : arg4.IsWhole) (arg5 : Memref sig .tc .vmem S1x512 .f32) (harg5 : arg5.IsWhole)
    (arg6 : Memref sig .tc .vmem S64x512 .f32) (harg6 : arg6.IsWhole) (arg7 : Memref sig .tc .vmem S64x512 .f32) (harg7 : arg7.IsWhole)
    (hc1 : ¬ cond3_1 i) (hc2 : k3_cond2 i = 1#1)
    (x0 : Vec F S64x4096 .f32) (x1 x2 : Vec F S512x4096 .f32) (x3 : Vec F S1x512 .f32) (s : Vec F S64x512 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare s
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k3_pay3 (k3_pay2 x1 x2 x0 s) x3)
            ∗ owns (c : Thread nD τ) arg7 fullShare (k3_pay2 x1 x2 x0 s)) -∗ K ⟨⟩))
      ⊢ wp frame (wpE (defs₀ (F := F)) Variants.none c none) E (cc3__masked_linear_relu_kernel i arg2 harg2 arg3 harg3 arg4 harg4 arg5 harg5 arg6 harg6 arg7 harg7) K := by
  simp only [cc3__masked_linear_relu_kernel_eq_skeleton]; unfold cc3__masked_linear_relu_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  obtain rfl := harg2.eq_unread hf0
  obtain rfl := harg3.eq_unread hf1
  obtain rfl := harg4.eq_unread hf2
  obtain rfl := harg5.eq_unread hf3
  obtain rfl := harg7.eq_unread hf5
  sl_exec (disch := first | exact hc1 | exact hc2)
  sl_step
  iapply Hk
  isplitl [H0]; · iexists _; isplitr; (· ipureintro; exact hf0); iexact H0
  isplitl [H1]; · iexists _; isplitr; (· ipureintro; exact hf1); iexact H1
  isplitl [H2]; · iexists _; isplitr; (· ipureintro; exact hf2); iexact H2
  isplitl [H3]; · iexists _; isplitr; (· ipureintro; exact hf3); iexact H3
  isplitl [H4]
  · iexists _; isplitr
    swap; · iexact H4
    ipureintro
    refine (read_writes_last_unit _ _ hz3 _ _ _).trans ?_
    sl_unfold_run_names
    rw [View.readCov_unit_zero _ hz3, readAt_whole_unread arg3 harg3 x1 hz3, readAt_whole_unread arg4 harg4 x2 hz3,
      readAt_whole_unread arg2 harg2 x0 hz3, readAt_whole_unread arg7 harg7 s hz3, readAt_whole_unread arg5 harg5 x3 hz3]
  iexists _; isplitr
  swap; · iexact H5
  ipureintro
  refine (read_writes_last_unit _ _ hz3 _ _ _).trans ?_
  sl_unfold_run_names
  rw [readAt_whole_unread arg3 harg3 x1 hz3, readAt_whole_unread arg4 harg4 x2 hz3, readAt_whole_unread arg2 harg2 x0 hz3,
    readAt_whole_unread arg7 harg7 s hz3]

/-! # Region 3: the blocks, the accumulator carried in scratch, the proof data and the body obligation, at entry contents `V` -/

section Region3
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not: unfetched, its block
    index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not: unfetched, its block
    index has not moved. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not: unfetched, its block
    index has not moved. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not: unfetched, its block
    index has not moved. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- The point before `t` (the point itself at the first one). -/
def prev3 (t : Fin cfg3.N) : Fin cfg3.N := ⟨t.val - 1, Nat.lt_of_le_of_lt (Nat.sub_le _ _) t.isLt⟩

/-- The accumulator after the body at point `t`: the point's product added to zero when the point opens a block's run
    (even position), else to the product of the point before, itself added to zero. -/
def acc3 (c : Dev nD) (t : Fin cfg3.N) : Vec F S64x512 .f32 :=
  k3_pay2 (iblk3 V c 1 t) (iblk3 V c 2 t) (iblk3 V c 0 t)
    (if t.val % 2 = 0 then k3_pay1 (F := F)
     else k3_pay2 (iblk3 V c 1 (prev3 t)) (iblk3 V c 2 (prev3 t)) (iblk3 V c 0 (prev3 t)) (k3_pay1 (F := F)))

/-- What a closing point leaves in the output's staging buffer: the accumulator plus the bias row, clamped below at zero. -/
def out3 (c : Dev nD) (t : Fin cfg3.N) : Vec F S64x512 .f32 := k3_pay3 (acc3 V c t) (iblk3 V c 3 t)

/-- What is known of the scratch contents `s` before position `n`: after an opening point, the accumulator it left. -/
def Inv3 (c : Dev nD) (n : Fin (cfg3.N + 1)) (s : Vec F S64x512 .f32) : Prop :=
  ∀ (hlt : n.val - 1 < cfg3.N), 0 < n.val → (n.val - 1) % 2 = 0 → s = acc3 V c ⟨n.val - 1, hlt⟩

/-- The invariant between points: the scratch accumulator whole at contents satisfying `Inv3`, beside every other
    scoped buffer no window of this call stages. -/
def Φ3 (c : Dev nD) (n : Fin (cfg3.N + 1)) : sProp 𝕄 :=
  iprop((∃ s, ⌜Inv3 V c n s⌝ ∗ owns (c : Thread nD τ) (Memref.whole cc3_scratch0 : Memref sig .tc .vmem S64x512 .f32) fullShare s)
    ∗ Pipeline.scopedRestBut (Ix := Unit) (Name := ℕ) (U := UR sig nD τ) (Lvl := ℕ) (Val := Elt F) spec3 c [cc3_scratch0])

/-- The proof data: the arrays as the region finds them; after the body each input's buffer at its block and the output's
    at `out3`; the invariant `Φ3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3 V c t
  Φ n := Φ3 V c n
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3 V c t := by dsimp only [dat3]
theorem Φ_eq3 (c : Dev nD) (n : Fin (cfg3.N + 1)) : (dat3 V c).Φ n = Φ3 V c n := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-- The body's two conditionals in closed form over the grid: the first holds at the even positions, the second at the odd. -/
theorem hcond3_1 : ∀ t : Fin cfg3.N, cond3_1 (grid3.coords t) ↔ t.val % 2 = 0 :=
  (by decide +kernel : ∀ t : Fin grid3.N, cond3_1 (grid3.coords t) ↔ t.val % 2 = 0)
theorem hcond3_2 : ∀ t : Fin cfg3.N, k3_cond2 (grid3.coords t) = 1#1 ↔ t.val % 2 = 1 :=
  (by decide +kernel : ∀ t : Fin grid3.N, k3_cond2 (grid3.coords t) = 1#1 ↔ t.val % 2 = 1)
/-- The output window is idle exactly at the even positions. -/
theorem idle3_4 : ∀ t : Fin cfg3.N, cfg3.idle 4 (cfg3.grid.coords t) = true ↔ t.val % 2 = 0 :=
  (by decide +kernel : ∀ t : Fin grid3.N, idle3 4 (grid3.coords t) = true ↔ t.val % 2 = 0)

set_option maxHeartbeats 1000000 in
/-- The body at an opening point (even position): the inputs' buffers hold their blocks; the scratch ends at the point's
    accumulator; the output's buffer is handed back as found. -/
theorem sound_body3_A (c : Dev nD) (t : Fin cfg3.N) (h : t.val % 2 = 0) :
    iprop((dat3 V c).Φ t.castSucc ∗ (dat3 V c).owesAt () t.castSucc
        ∗ (∃ d, owns (c : Thread nD τ) (st3_0 t) fullShare ((dat3 V c).before 0 t d))
        ∗ (∃ d, owns (c : Thread nD τ) (st3_1 t) fullShare ((dat3 V c).before 1 t d))
        ∗ (∃ d, owns (c : Thread nD τ) (st3_2 t) fullShare ((dat3 V c).before 2 t d))
        ∗ (∃ d, owns (c : Thread nD τ) (st3_3 t) fullShare ((dat3 V c).before 3 t d))
        ∗ (∃ d, owns (c : Thread nD τ) (st3_4 t) fullShare ((dat3 V c).before 4 t d)))
      ⊢ wp frame (wpE (defs₀ (F := F)) Variants.none c none) Set.univ (bodyAt3 t) (fun _ =>
        iprop((dat3 V c).Φ t.succ ∗ (dat3 V c).owesAt () t.succ
          ∗ owns (c : Thread nD τ) (st3_0 t) fullShare ((dat3 V c).after 0 t)
          ∗ owns (c : Thread nD τ) (st3_1 t) fullShare ((dat3 V c).after 1 t)
          ∗ owns (c : Thread nD τ) (st3_2 t) fullShare ((dat3 V c).after 2 t)
          ∗ owns (c : Thread nD τ) (st3_3 t) fullShare ((dat3 V c).after 3 t)
          ∗ (∃ d, owns (c : Thread nD τ) (st3_4 t) fullShare ((dat3 V c).before 4 t d)))) := by
  unfold bodyAt3
  simp only [before3_0, before3_1, before3_2, before3_3]
  rw [show (dat3 V c).owesAt () t.succ = (dat3 V c).owesAt () t.castSucc from rfl,
    after3_0, after3_1, after3_2, after3_3, Φ_eq3, Φ_eq3]
  unfold Φ3
  iintro ⟨⟨⟨%s, -, Hs⟩, Hrest⟩, Ho, ⟨%d0, H0⟩, ⟨%d1, H1⟩, ⟨%d2, H2⟩, ⟨%d3, H3⟩, ⟨%d4, H4⟩⟩
  iapply (sound_kernel3_A c Set.univ (grid3.coords t) _ _ _ _ _ _ _ _ _ _ _ _ ((hcond3_1 t).mpr h)
    (fun hh => by have := (hcond3_2 t).mp hh; omega)
    (iblk3 V c 0 t) (iblk3 V c 1 t) (iblk3 V c 2 t) (iblk3 V c 3 t) ((dat3 V c).before 4 t d4) _)
  isplitl [H0]; · iexact H0
  isplitl [H1]; · iexact H1
  isplitl [H2]; · iexact H2
  isplitl [H3]; · iexact H3
  isplitl [H4]; · iexact H4
  isplitl [Hs]; · iexists s; iexact Hs
  iintro ⟨H0, H1, H2, H3, H4, H7⟩
  isplitl [H7 Hrest]
  · isplitl [H7]
    · iexists _; isplitr
      swap; · iexact H7
      ipureintro
      intro hlt _ _
      have e : (⟨t.succ.val - 1, hlt⟩ : Fin cfg3.N) = t := Fin.ext (by show t.val + 1 - 1 = t.val; omega)
      rw [e]; unfold acc3; rw [if_pos h]
    · iexact Hrest
  isplitl [Ho]; · iexact Ho
  isplitl [H0]; · iexact H0
  isplitl [H1]; · iexact H1
  isplitl [H2]; · iexact H2
  isplitl [H3]; · iexact H3
  iexists d4; iexact H4

set_option maxHeartbeats 1000000 in
/-- The body at a closing point (odd position): the scratch holds the accumulator the point before left, the point's
    product is added to it, and the output's buffer receives `out3`. -/
theorem sound_body3_B (c : Dev nD) (t : Fin cfg3.N) (h : ¬ t.val % 2 = 0) :
    iprop((dat3 V c).Φ t.castSucc ∗ (dat3 V c).owesAt () t.castSucc
        ∗ (∃ d, owns (c : Thread nD τ) (st3_0 t) fullShare ((dat3 V c).before 0 t d))
        ∗ (∃ d, owns (c : Thread nD τ) (st3_1 t) fullShare ((dat3 V c).before 1 t d))
        ∗ (∃ d, owns (c : Thread nD τ) (st3_2 t) fullShare ((dat3 V c).before 2 t d))
        ∗ (∃ d, owns (c : Thread nD τ) (st3_3 t) fullShare ((dat3 V c).before 3 t d))
        ∗ (∃ d, owns (c : Thread nD τ) (st3_4 t) fullShare ((dat3 V c).before 4 t d)))
      ⊢ wp frame (wpE (defs₀ (F := F)) Variants.none c none) Set.univ (bodyAt3 t) (fun _ =>
        iprop((dat3 V c).Φ t.succ ∗ (dat3 V c).owesAt () t.succ
          ∗ owns (c : Thread nD τ) (st3_0 t) fullShare ((dat3 V c).after 0 t)
          ∗ owns (c : Thread nD τ) (st3_1 t) fullShare ((dat3 V c).after 1 t)
          ∗ owns (c : Thread nD τ) (st3_2 t) fullShare ((dat3 V c).after 2 t)
          ∗ owns (c : Thread nD τ) (st3_3 t) fullShare ((dat3 V c).after 3 t)
          ∗ owns (c : Thread nD τ) (st3_4 t) fullShare ((dat3 V c).after 4 t))) := by
  unfold bodyAt3
  simp only [before3_0, before3_1, before3_2, before3_3]
  rw [show (dat3 V c).owesAt () t.succ = (dat3 V c).owesAt () t.castSucc from rfl,
    after3_0, after3_1, after3_2, after3_3, after3_4, Φ_eq3, Φ_eq3]
  unfold Φ3
  iintro ⟨⟨⟨%s, %hs, Hs⟩, Hrest⟩, Ho, ⟨%d0, H0⟩, ⟨%d1, H1⟩, ⟨%d2, H2⟩, ⟨%d3, H3⟩, ⟨%d4, H4⟩⟩
  have hN : t.val < 16 := lt_of_lt_of_eq t.isLt (show cfg3.N = 16 from N_3)
  have hs' : s = acc3 V c (prev3 t) := hs (Nat.lt_of_le_of_lt (Nat.sub_le _ _) t.isLt) (by show 0 < t.val; omega) (by show (t.val - 1) % 2 = 0; omega)
  have hp : (prev3 t).val % 2 = 0 := by show (t.val - 1) % 2 = 0; omega
  iapply (sound_kernel3_B c Set.univ (grid3.coords t) _ _ _ _ _ _ _ _ _ _ _ _ (fun hh => h ((hcond3_1 t).mp hh))
    ((hcond3_2 t).mpr (by omega))
    (iblk3 V c 0 t) (iblk3 V c 1 t) (iblk3 V c 2 t) (iblk3 V c 3 t) s _)
  isplitl [H0]; · iexact H0
  isplitl [H1]; · iexact H1
  isplitl [H2]; · iexact H2
  isplitl [H3]; · iexact H3
  isplitl [H4]; · iexists _; iexact H4
  isplitl [Hs]; · iexact Hs
  iintro ⟨H0, H1, H2, H3, H4, H7⟩
  have eacc : k3_pay2 (iblk3 V c 1 t) (iblk3 V c 2 t) (iblk3 V c 0 t) s = acc3 V c t := by
    rw [hs']; conv_rhs => unfold acc3; rw [if_neg h]
    unfold acc3; rw [if_pos hp]
  rw [eacc]
  isplitl [H7 Hrest]
  · isplitl [H7]
    · iexists _; isplitr
      swap; · iexact H7
      ipureintro
      intro hlt _ hm
      exfalso; have e : t.succ.val - 1 = t.val := by show t.val + 1 - 1 = t.val; omega
      omega
    · iexact Hrest
  isplitl [Ho]; · iexact Ho
  isplitl [H0]; · iexact H0
  isplitl [H1]; · iexact H1
  isplitl [H2]; · iexact H2
  isplitl [H3]; · iexact H3
  unfold out3; iexact H4

/-- The body obligation at every point: the output window is idle and not written back at the even positions, live at the odd. -/
theorem body_obligation3 (c : Dev nD) : BodyObligation (dat3 (F := F) V c) (defs₀ (F := F)) Variants.none () Set.univ := fun t => by
  rw [bigSep_W3, bigSep_W3]
  by_cases h : t.val % 2 = 0
  · have hi : cfg3.idle 4 (cfg3.grid.coords t) = true := (idle3_4 t).mpr h
    have hf : (cfg3.win 4).flush t = false := Bool.eq_false_iff.mpr fun hh => by have := (flush3_4 t).mp hh; omega
    refine (sound_body3_A V c t h).trans (wp_mono _ _ _ fun _ => ?_)
    refine sep_mono .rfl (sep_mono .rfl (sep_mono .rfl (sep_mono .rfl (sep_mono .rfl (sep_mono .rfl ?_)))))
    exact Entails.of_eq ((dat3 V c).leavesExact_idle 4 t hi hf).symm
  · have hi : cfg3.idle 4 (cfg3.grid.coords t) = false := Bool.eq_false_iff.mpr fun hh => h ((idle3_4 t).mp hh)
    refine (sound_body3_B V c t h).trans (wp_mono _ _ _ fun _ => ?_)
    refine sep_mono .rfl (sep_mono .rfl (sep_mono .rfl (sep_mono .rfl (sep_mono .rfl (sep_mono .rfl ?_)))))
    have e : (dat3 V c).leavesExact 4 t = owns (c : Thread nD τ) (st3_4 t) fullShare ((dat3 V c).after 4 t) := by
      unfold Dat.leavesExact; rw [hi]
    exact Entails.of_eq e.symm

end Region3

end Cert.Kernel.Hand

end
-- ==== Proof.K.Run.lean ====
/-
  The run of @main: four host stretches (a reshape of the bias; the side-by-side joins feeding the later layers) and four
  kernel regions, from the launch to the return. Between segments every unscoped buffer is held at a named valuation;
  a region changes only its result's array (to what its write-backs leave) and a host stretch only what it computes, so
  every argument array ends as launched and the result array ends at what the last region's write-backs leave.
-/
import proofs.«108305_j59700045414953_1_alg».proof.Proof.K.R0
import proofs.«108305_j59700045414953_1_alg».proof.Proof.K.R1
import proofs.«108305_j59700045414953_1_alg».proof.Proof.K.R2
import proofs.«108305_j59700045414953_1_alg».proof.Proof.K.R3
import proofs.«108305_j59700045414953_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (RegionSeg)

variable (m : (ℓ : Loc nD τ sig) → Buf (Elt F) ℓ)

/-! # The run: @main's eight segments from the launch to the return

## The buffer contents at each segment boundary: a fold through @main -/

/-- Core `c`'s buffers at launch. -/
abbrev W0 : Dev nD → Valuation τ sig (Elt F) := fun c b => m (c, b)

/-- After the host stretch before region 0 (region 0's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- Region 0 changes only its result's buffer: an input window's array is never written, every other buffer bypasses it. -/
theorem W2_keep (c : Dev nD) (b : Ref sig .tc) (hb : b ≠ main_v1) :
    W2 m c (Proc.devRef .tc b) = W1 m c (Proc.devRef .tc b) := by
  by_cases h : ∃ w, Pipeline.arrRef spec0 w = b
  · obtain ⟨w, rfl⟩ := h
    have hw : (cfg0.win w).isOut = false := by
      fin_cases w
      · rfl
      · rfl
      · rfl
      · rfl
      · exact absurd rfl hb
    exact (W2_arr m c w).trans (((dat0 (V1 m) c).arrAt_in w hw _).trans (A_eq0 (V1 m) c w))
  · exact W2_of_ne m c b fun w e => h ⟨w, e⟩

/-- After the host stretch before region 1 (region 1's entry). -/
abbrev W3 : Dev nD → Valuation τ sig (Elt F) := fun c => StableHlo.after hostOps1 (W2 m c)
/-- The same read at the TensorCore's references. -/
abbrev V3 : (c : Dev nD) → (b : Ref sig .tc) → Buf (Elt F) ((c : Thread nD τ).loc b) := fun c b => W3 m c b
/-- At region 1's exit: its arrays at what the pipeline leaves, every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- Region 1 changes only its result's buffer: an input window's array is never written, every other buffer bypasses it. -/
theorem W4_keep (c : Dev nD) (b : Ref sig .tc) (hb : b ≠ main_v4) :
    W4 m c (Proc.devRef .tc b) = W3 m c (Proc.devRef .tc b) := by
  by_cases h : ∃ w, Pipeline.arrRef spec1 w = b
  · obtain ⟨w, rfl⟩ := h
    have hw : (cfg1.win w).isOut = false := by
      fin_cases w
      · rfl
      · rfl
      · rfl
      · rfl
      · exact absurd rfl hb
    exact (W4_arr m c w).trans (((dat1 (V3 m) c).arrAt_in w hw _).trans (A_eq1 (V3 m) c w))
  · exact W4_of_ne m c b fun w e => h ⟨w, e⟩

/-- After the host stretch before region 2 (region 2's entry). -/
abbrev W5 : Dev nD → Valuation τ sig (Elt F) := fun c => StableHlo.after hostOps2 (W4 m c)
/-- The same read at the TensorCore's references. -/
abbrev V5 : (c : Dev nD) → (b : Ref sig .tc) → Buf (Elt F) ((c : Thread nD τ).loc b) := fun c b => W5 m c b
/-- At region 2's exit: its arrays at what the pipeline leaves, every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)
/-- Region 2 changes only its result's buffer: an input window's array is never written, every other buffer bypasses it. -/
theorem W6_keep (c : Dev nD) (b : Ref sig .tc) (hb : b ≠ main_v7) :
    W6 m c (Proc.devRef .tc b) = W5 m c (Proc.devRef .tc b) := by
  by_cases h : ∃ w, Pipeline.arrRef spec2 w = b
  · obtain ⟨w, rfl⟩ := h
    have hw : (cfg2.win w).isOut = false := by
      fin_cases w
      · rfl
      · rfl
      · rfl
      · rfl
      · exact absurd rfl hb
    exact (W6_arr m c w).trans (((dat2 (V5 m) c).arrAt_in w hw _).trans (A_eq2 (V5 m) c w))
  · exact W6_of_ne m c b fun w e => h ⟨w, e⟩

/-- After the host stretch before region 3 (region 3's entry). -/
abbrev W7 : Dev nD → Valuation τ sig (Elt F) := fun c => StableHlo.after hostOps3 (W6 m c)
/-- The same read at the TensorCore's references. -/
abbrev V7 : (c : Dev nD) → (b : Ref sig .tc) → Buf (Elt F) ((c : Thread nD τ).loc b) := fun c b => W7 m c b
/-- At region 3's exit: its arrays at what the pipeline leaves, every other buffer as entered. -/
def W8 (c : Dev nD) : Valuation τ sig (Elt F) :=
  Pipeline.withArrays spec3 c (W7 m c) fun w => (dat3 (V7 m) c).arrAt w cfg3.N
theorem W8_arr (c : Dev nD) (w : Fin cfg3.W) :
    W8 m c (Proc.devRef .tc (Pipeline.arrRef spec3 w)) = (dat3 (V7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev V8 : (c : Dev nD) → (b : Ref sig .tc) → Buf (Elt F) ((c : Thread nD τ).loc b) := fun c b => W8 m c b
theorem hF3 (c : Dev nD) (w : Fin cfg3.W) : (dat3 (V7 m) c).arrAt w cfg3.N = V8 m c (Pipeline.arrRef spec3 w) :=
  (W8_arr m c w).symm
theorem hrest3 (c : Dev nD) : ∀ b, b ∉ Finset.univ.image (Pipeline.arrRef spec3) → V8 m c b = V7 m c b :=
  fun b hb => W8_of_ne m c b fun w e => hb (Finset.mem_image.mpr ⟨w, Finset.mem_univ _, e⟩)
/-- Region 3 changes only its result's buffer: an input window's array is never written, every other buffer bypasses it. -/
theorem W8_keep (c : Dev nD) (b : Ref sig .tc) (hb : b ≠ main_v10) :
    W8 m c (Proc.devRef .tc b) = W7 m c (Proc.devRef .tc b) := by
  by_cases h : ∃ w, Pipeline.arrRef spec3 w = b
  · obtain ⟨w, rfl⟩ := h
    have hw : (cfg3.win w).isOut = false := by
      fin_cases w
      · rfl
      · rfl
      · rfl
      · rfl
      · exact absurd rfl hb
    exact (W8_arr m c w).trans (((dat3 (V7 m) c).arrAt_in w hw _).trans (A_eq3 (V7 m) c w))
  · exact W8_of_ne m c b fun w e => h ⟨w, e⟩

/-- A buffer no host stretch writes and no region produces reaches the end as launched. -/
theorem W8_kept (c : Dev nD) (b : Ref sig .tc)
    (hb : b ∉ ([main_v0, main_v1, main_v2, main_v3, main_v4, main_v5, main_v6, main_v7, main_v8, main_v9, main_v10] : List (Ref sig .tc))) :
    W8 m c (Proc.devRef .tc b) = m ((c : Thread nD τ).loc b) := by
  simp only [List.mem_cons, List.mem_nil_iff, not_or, or_false] at hb
  obtain ⟨h0, h1, h2, h3, h4, h5, h6, h7, h8, h9, h10⟩ := hb
  calc W8 m c (Proc.devRef .tc b)
    _ = W7 m c (Proc.devRef .tc b) := W8_keep m c b h10
    _ = W6 m c (Proc.devRef .tc b) := StableHlo.after_of_writes_sub hostOps3 _ hostOps3_writes (by simp only [hostOps3_W, List.mem_cons, List.mem_nil_iff, not_or, or_false]; exact ⟨h8, h9⟩)
    _ = W5 m c (Proc.devRef .tc b) := W6_keep m c b h7
    _ = W4 m c (Proc.devRef .tc b) := StableHlo.after_of_writes_sub hostOps2 _ hostOps2_writes (by simp only [hostOps2_W, List.mem_cons, List.mem_nil_iff, not_or, or_false]; exact ⟨h5, h6⟩)
    _ = W3 m c (Proc.devRef .tc b) := W4_keep m c b h4
    _ = W2 m c (Proc.devRef .tc b) := StableHlo.after_of_writes_sub hostOps1 _ hostOps1_writes (by simp only [hostOps1_W, List.mem_cons, List.mem_nil_iff, not_or, or_false]; exact ⟨h2, h3⟩)
    _ = W1 m c (Proc.devRef .tc b) := W2_keep m c b h1
    _ = W0 m c (Proc.devRef .tc b) := StableHlo.after_of_writes_sub hostOps0 _ hostOps0_writes (by simp only [hostOps0_W, List.mem_cons, List.mem_nil_iff, not_or, or_false]; exact h0)
    _ = m ((c : Thread nD τ).loc b) := rfl

/-! ## The proof data family and the thread state -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register at some state. -/
abbrev Tₙ (c : Dev nD) : sProp 𝕄 := iprop(StableHlo.held (c : Thread nD τ) (Pipeline.ucRefs τ sig) (W8 m c) ∗ ∃ r, prngReg c r)

/-! ## The regions as segments -/

set_option backward.isDefEq.respectTransparency.types false in
/-- Region 0 over the thread state: entered from every unscoped buffer at `W1`, left at `W2`. Its arrays are
    split out of the unscoped buffers and put back at the exit contents; the scratch accumulator goes into the invariant
    out of the scoped rest and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X _ := BI.emp
  Y _ := BI.emp
  Z c := iprop(Pipeline.unscopedRest (Ix := Unit) (Name := ℕ) (U := UR sig nD τ) (Lvl := ℕ) spec0 c (V1 m c) ∗ ∃ r, prngReg c r)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 0 c).Φ 0 = Φ0 c 0 from rfl]; unfold Φ0
    have hs : (Pipeline.scopedRest (Ix := Unit) (Name := ℕ) (U := UR sig nD τ) (Lvl := ℕ) (Val := Elt F) (Pipeline.pin (pcfgs (F := F)) adm 0).spec c : sProp 𝕄) = _ :=
      scopedRest0_split c
    rw [hs]
    iintro ⟨-, -, ⟨%f, Hf⟩, Hr⟩
    isplitl [Hf]
    · iexists f; rw [owns_whole]; iexact Hf
    iexact Hr
  hout c := by
    rw [Pipeline.ownSems0_none, show (pdats m 0 c).Φ (Fin.last _) = Φ0 c (Fin.last _) from rfl]; unfold Φ0
    have hs : (Pipeline.scopedRest (Ix := Unit) (Name := ℕ) (U := UR sig nD τ) (Lvl := ℕ) (Val := Elt F) (Pipeline.pin (pcfgs (F := F)) adm 0).spec c : sProp 𝕄) = _ :=
      scopedRest0_split c
    rw [hs]
    iintro ⟨⟨%s, Hs⟩, Hr⟩
    isplitr; · iempintro
    isplitr; · iempintro
    isplitl [Hs]
    · iexists s; rw [← owns_whole]; iexact Hs
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are
    split out of the unscoped buffers and put back at the exit contents; the scratch accumulator goes into the invariant
    out of the scoped rest and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X _ := BI.emp
  Y _ := BI.emp
  Z c := iprop(Pipeline.unscopedRest (Ix := Unit) (Name := ℕ) (U := UR sig nD τ) (Lvl := ℕ) spec1 c (V3 m c) ∗ ∃ r, prngReg c r)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 1 c).Φ 0 = Φ1 (V3 m) c 0 from rfl]; unfold Φ1
    have hs : (Pipeline.scopedRest (Ix := Unit) (Name := ℕ) (U := UR sig nD τ) (Lvl := ℕ) (Val := Elt F) (Pipeline.pin (pcfgs (F := F)) adm 1).spec c : sProp 𝕄) = _ :=
      scopedRest1_split c
    rw [hs]
    iintro ⟨-, -, ⟨%f, Hf⟩, Hr⟩
    isplitl [Hf]
    · iexists f; isplitr; · ipureintro; exact fun _ h => absurd h (lt_irrefl 0)
      rw [owns_whole]; iexact Hf
    iexact Hr
  hout c := by
    rw [Pipeline.ownSems0_none, show (pdats m 1 c).Φ (Fin.last _) = Φ1 (V3 m) c (Fin.last _) from rfl]; unfold Φ1
    have hs : (Pipeline.scopedRest (Ix := Unit) (Name := ℕ) (U := UR sig nD τ) (Lvl := ℕ) (Val := Elt F) (Pipeline.pin (pcfgs (F := F)) adm 1).spec c : sProp 𝕄) = _ :=
      scopedRest1_split c
    rw [hs]
    iintro ⟨⟨%s, -, Hs⟩, Hr⟩
    isplitr; · iempintro
    isplitr; · iempintro
    isplitl [Hs]
    · iexists s; rw [← owns_whole]; iexact Hs
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are
    split out of the unscoped buffers and put back at the exit contents; the scratch accumulator goes into the invariant
    out of the scoped rest and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X _ := BI.emp
  Y _ := BI.emp
  Z c := iprop(Pipeline.unscopedRest (Ix := Unit) (Name := ℕ) (U := UR sig nD τ) (Lvl := ℕ) spec2 c (V5 m c) ∗ ∃ r, prngReg c r)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 2 c).Φ 0 = Φ2 (V5 m) c 0 from rfl]; unfold Φ2
    have hs : (Pipeline.scopedRest (Ix := Unit) (Name := ℕ) (U := UR sig nD τ) (Lvl := ℕ) (Val := Elt F) (Pipeline.pin (pcfgs (F := F)) adm 2).spec c : sProp 𝕄) = _ :=
      scopedRest2_split c
    rw [hs]
    iintro ⟨-, -, ⟨%f, Hf⟩, Hr⟩
    isplitl [Hf]
    · iexists f; isplitr; · ipureintro; exact fun _ h => absurd h (lt_irrefl 0)
      rw [owns_whole]; iexact Hf
    iexact Hr
  hout c := by
    rw [Pipeline.ownSems0_none, show (pdats m 2 c).Φ (Fin.last _) = Φ2 (V5 m) c (Fin.last _) from rfl]; unfold Φ2
    have hs : (Pipeline.scopedRest (Ix := Unit) (Name := ℕ) (U := UR sig nD τ) (Lvl := ℕ) (Val := Elt F) (Pipeline.pin (pcfgs (F := F)) adm 2).spec c : sProp 𝕄) = _ :=
      scopedRest2_split c
    rw [hs]
    iintro ⟨⟨%s, -, Hs⟩, Hr⟩
    isplitr; · iempintro
    isplitr; · iempintro
    isplitl [Hs]
    · iexists s; rw [← owns_whole]; iexact Hs
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

set_option backward.isDefEq.respectTransparency.types false in
/-- Region 3 over the thread state: entered from every unscoped buffer at `W7`, left at `W8`. Its arrays are
    split out of the unscoped buffers and put back at the exit contents; the scratch accumulator goes into the invariant
    out of the scoped rest and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(Tₙ m c ∗ ∃ W, owes (c : Thread nD τ) (0 : CellTallies nD τ sig Unit) W)
  X _ := BI.emp
  Y _ := BI.emp
  Z c := iprop(Pipeline.unscopedRest (Ix := Unit) (Name := ℕ) (U := UR sig nD τ) (Lvl := ℕ) spec3 c (V7 m c) ∗ ∃ r, prngReg c r)
  hentry c := by
    rw [Pipeline.ownSems0_none]
    have hsplit := Pipeline.arrays_of_unscopedBufs (p := 3) (pcfgs (F := F)) adm (pdats m) launch3.win launch3.arr_whole c
      ((pdats m 3 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 3 c).Φ 0 = Φ3 (V7 m) c 0 from rfl]; unfold Φ3
    have hs : (Pipeline.scopedRest (Ix := Unit) (Name := ℕ) (U := UR sig nD τ) (Lvl := ℕ) (Val := Elt F) (Pipeline.pin (pcfgs (F := F)) adm 3).spec c : sProp 𝕄) = _ :=
      scopedRest3_split c
    rw [hs]
    iintro ⟨-, -, ⟨%f, Hf⟩, Hr⟩
    isplitl [Hf]
    · iexists f; isplitr; · ipureintro; exact fun _ h => absurd h (lt_irrefl 0)
      rw [owns_whole]; iexact Hf
    iexact Hr
  hout c := by
    rw [Pipeline.ownSems0_none, show (pdats m 3 c).Φ (Fin.last _) = Φ3 (V7 m) c (Fin.last _) from rfl]; unfold Φ3
    have hs : (Pipeline.scopedRest (Ix := Unit) (Name := ℕ) (U := UR sig nD τ) (Lvl := ℕ) (Val := Elt F) (Pipeline.pin (pcfgs (F := F)) adm 3).spec c : sProp 𝕄) = _ :=
      scopedRest3_split c
    rw [hs]
    iintro ⟨⟨%s, -, Hs⟩, Hr⟩
    isplitr; · iempintro
    isplitr; · iempintro
    isplitl [Hs]
    · iexists s; rw [← owns_whole]; iexact Hs
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V7 m c) (V8 m c) ((pdats m 3 c).arrAt · cfg3.N) (hF3 m c) (hrest3 m c)
    rw [Pipeline.unscopedBufs_held] at hjoin
    iintro ⟨Ha, HO, -, Hrest, Hp⟩
    imodintro
    isplitl [Ha Hrest Hp]
    · isplitl [Ha Hrest]
      · iapply hjoin; isplitl [Ha] <;> iassumption
      iexact Hp
    unfold Pipeline.Dat.owesAt Pipeline.owesWithin
    icases HO with ⟨%W, -, HO⟩; iexists W; iexact HO

/-! ## @main as segments, and the launch -/

/-- @main's eight segments in order: a host segment per stretch from its boundary's contents, a region per pallas_call. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m) ]
/-- @main is the run of the segments. -/
theorem main_run (c : Dev nD) : main (F := F) c = Pipeline.Seg.run (segs m) := (main_chain c).trans (by chain_rfl)

set_option backward.isDefEq.respectTransparency.types false in
/-- THE RUN. At the compiled mesh, from any memory with zero counters, every weakly fair execution of @main terminates,
    nothing faulting, and every final state has every unscoped buffer at the last boundary's contents `W8`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

/-- The frame: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(h c _ (mem_uc main_arg0 (by decide))).trans (W8_kept m c main_arg0 (by decide)),
    (h c _ (mem_uc main_arg1 (by decide))).trans (W8_kept m c main_arg1 (by decide)),
    (h c _ (mem_uc main_arg2 (by decide))).trans (W8_kept m c main_arg2 (by decide)),
    (h c _ (mem_uc main_arg3 (by decide))).trans (W8_kept m c main_arg3 (by decide)),
    (h c _ (mem_uc main_arg4 (by decide))).trans (W8_kept m c main_arg4 (by decide)),
    (h c _ (mem_uc main_arg5 (by decide))).trans (W8_kept m c main_arg5 (by decide)),
    (h c _ (mem_uc main_arg6 (by decide))).trans (W8_kept m c main_arg6 (by decide)),
    (h c _ (mem_uc main_arg7 (by decide))).trans (W8_kept m c main_arg7 (by decide)),
    (h c _ (mem_uc main_arg8 (by decide))).trans (W8_kept m c main_arg8 (by decide)),
    (h c _ (mem_uc main_arg9 (by decide))).trans (W8_kept m c main_arg9 (by decide)),
    (h c _ (mem_uc main_arg10 (by decide))).trans (W8_kept m c main_arg10 (by decide)),
    (h c _ (mem_uc main_arg11 (by decide))).trans (W8_kept m c main_arg11 (by decide)),
    (h c _ (mem_uc main_arg12 (by decide))).trans (W8_kept m c main_arg12 (by decide))⟩) (run_all m ρ)

/-- The run with the result named: the result array ends at what region 3's write-backs leave, the arguments as launched. -/
theorem run_result (ρ : Dev nD → PrngReg) : θ_run defs (onTc (τ := τ) (main (F := F))) ⟨m, fun _ => 0, ρ⟩ (fun r => ∀ c : Dev nD,
      r.2.mem ((c.tc : Thread nD τ).loc main_v10) = (dat3 (V7 m) c).arrAt 4 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(h c _ (mem_uc main_v10 (by decide))).trans (W8_arr m c 4),
    (h c _ (mem_uc main_arg0 (by decide))).trans (W8_kept m c main_arg0 (by decide)),
    (h c _ (mem_uc main_arg1 (by decide))).trans (W8_kept m c main_arg1 (by decide)),
    (h c _ (mem_uc main_arg2 (by decide))).trans (W8_kept m c main_arg2 (by decide)),
    (h c _ (mem_uc main_arg3 (by decide))).trans (W8_kept m c main_arg3 (by decide)),
    (h c _ (mem_uc main_arg4 (by decide))).trans (W8_kept m c main_arg4 (by decide)),
    (h c _ (mem_uc main_arg5 (by decide))).trans (W8_kept m c main_arg5 (by decide)),
    (h c _ (mem_uc main_arg6 (by decide))).trans (W8_kept m c main_arg6 (by decide)),
    (h c _ (mem_uc main_arg7 (by decide))).trans (W8_kept m c main_arg7 (by decide)),
    (h c _ (mem_uc main_arg8 (by decide))).trans (W8_kept m c main_arg8 (by decide)),
    (h c _ (mem_uc main_arg9 (by decide))).trans (W8_kept m c main_arg9 (by decide)),
    (h c _ (mem_uc main_arg10 (by decide))).trans (W8_kept m c main_arg10 (by decide)),
    (h c _ (mem_uc main_arg11 (by decide))).trans (W8_kept m c main_arg11 (by decide)),
    (h c _ (mem_uc main_arg12 (by decide))).trans (W8_kept m c main_arg12 (by decide))⟩) (run_all m ρ)

end Cert.Kernel.Hand

end
-- ==== Proof.KI.Base.lean ====
/-
  Three facts about reading a buffer back after stores that fill it whole, shared by the four kernel regions' bodies.
-/
import proofs.«108305_j59700045414953_1_alg».proof.Proof.Gen.KernelIdeal.Launch
import proofs.«108305_j59700045414953_1_alg».proof.Proof.Gen.KernelIdeal.Skeleton
import proofs.«108305_j59700045414953_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a buffer reads after a list of stores whose LAST one fills the whole shape from offset zero: that store's value. -/
theorem read_writes_last_unit {κ : Kind} {sp : Space} {S : Shape} {e : EltTy} (v : View sig κ sp S e) (f : v.ty.Contents (Elt F))
    {off : Fin S.rank → ℕ} (h : off = fun _ => 0) (inb : ∀ a, off a + S.size a ≤ S.size a) (W : S.Idx → Elt F e)
    (L : List (View.Piece (Elt F) S e)) :
    v.read (Elt F) (v.writes (Elt F) f (⟨Rect.unit off S.size inb, W⟩ :: L)) = W :=
  (View.read_writes_eq_canon v f _ (fun y => ⟨_, List.mem_cons_self, View.mem_set_unit_zero h inb y⟩)).trans
    (View.canon_cons_unit_zero h inb W L)

/-- A load of the whole shape from offset zero through a whole memref holding `X` reads `X`. -/
theorem readAt_whole_unread {sp : Space} {S : Shape} {e : EltTy} (m : Memref sig .tc sp S e) (h : m.IsWhole) (X : S.Idx → Elt F e)
    {off : Fin S.rank → ℕ} (hz : off = fun _ => 0) (inb : ∀ a, off a + S.size a ≤ S.size a) :
    View.readAt (Elt F) m.view (Rect.unit off S.size inb).toLoadRect (h.unread X) = X := by
  rw [View.readAt_eq_ld, h.read_unread]; exact View.ld_unit_zero hz inb X

/-- A load of the whole shape from offset zero after stores whose LAST one fills the whole shape from offset zero reads
    that store's value. -/
theorem readCov_cons_unit_zero {κ : Kind} {sp : Space} {S : Shape} {e : EltTy} (v : View sig κ sp S e)
    {off : Fin S.rank → ℕ} (h : off = fun _ => 0) (inb : ∀ a, off a + S.size a ≤ S.size a) (W : S.Idx → Elt F e)
    (L : List (View.Piece (Elt F) S e)) :
    v.readCov ((⟨Rect.unit off S.size inb, W⟩ : View.Piece (Elt F) S e) :: L) (Rect.unit off S.size inb).toLoadRect = W := by
  rw [View.readCov_eq_canon_ld _ _ _ (fun y => ⟨_, List.mem_cons_self, View.mem_set_unit_zero h inb y⟩),
    View.canon_cons_unit_zero h, View.ld_unit_zero h]

end Cert.KernelIdeal.Hand

end
-- ==== Proof.KI.R0.lean ====
/-
  Region 0 (the first layer: 4096 input features, one contraction block). Each of its 8 grid points stages the whole
  input, a 512-row block of the weight and of the mask, and 512 bias entries; the body zeroes the scratch accumulator,
  adds the product of the input with the masked weight block (contracting the feature axis of both), and stores the
  accumulator plus the bias row, clamped below at zero, into the output's 512-column block.
-/
import proofs.«108305_j59700045414953_1_alg».proof.Proof.KI.Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The all-zero offsets of a two-axis rectangle, however spelt. -/
theorem hz0 : (![0, 0] : Fin 2 → ℕ) = fun _ => 0 := funext fun a => by fin_cases a <;> rfl

/-- The first conditional of the body: the reduction coordinate is zero. -/
abbrev cond0_1 (i : grid0.Coords) : Prop := (Scalar.cmpi .ne (Scalar.extui (Scalar.cmpi .eq (BitVec.ofNat 32 (i 1).val) 0#32)) 0#32) = 1#1

set_option maxHeartbeats 1000000 in
/-- At a point that both opens and closes a block's run (the contraction is one block): the accumulator is zeroed, the
    point's product added, and the output's staging buffer receives the accumulator plus the bias row, clamped below at zero. -/
theorem sound_kernel0_C (c : Dev nD) (E : Set ℕ) (i : grid0.Coords)
    (arg2 : Memref sig .tc .vmem S64x4096 .f32) (harg2 : arg2.IsWhole) (arg3 : Memref sig .tc .vmem S512x4096 .f32) (harg3 : arg3.IsWhole)
    (arg4 : Memref sig .tc .vmem S512x4096 .f32) (harg4 : arg4.IsWhole) (arg5 : Memref sig .tc .vmem S1x512 .f32) (harg5 : arg5.IsWhole)
    (arg6 : Memref sig .tc .vmem S64x512 .f32) (harg6 : arg6.IsWhole) (arg7 : Memref sig .tc .vmem S64x512 .f32) (harg7 : arg7.IsWhole)
    (hc1 : cond0_1 i) (hc2 : k0_cond2 i = 1#1)
    (x0 : Vec F S64x4096 .f32) (x1 x2 : Vec F S512x4096 .f32) (x3 : Vec F S1x512 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k0_pay3 (k0_pay2 x1 x2 x0 (k0_pay1 (F := F))) x3)
            ∗ owns (c : Thread nD τ) arg7 fullShare (k0_pay2 x1 x2 x0 (k0_pay1 (F := F)))) -∗ K ⟨⟩))
      ⊢ wp frame (wpE (defs₀ (F := F)) Variants.none c none) E (cc0__masked_linear_relu_kernel i arg2 harg2 arg3 harg3 arg4 harg4 arg5 harg5 arg6 harg6 arg7 harg7) K := by
  simp only [cc0__masked_linear_relu_kernel_eq_skeleton]; unfold cc0__masked_linear_relu_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  obtain rfl := harg2.eq_unread hf0
  obtain rfl := harg3.eq_unread hf1
  obtain rfl := harg4.eq_unread hf2
  obtain rfl := harg5.eq_unread hf3
  sl_exec (disch := first | exact hc1 | exact hc2)
  sl_step
  iapply Hk
  isplitl [H0]; · iexists _; isplitr; (· ipureintro; exact hf0); iexact H0
  isplitl [H1]; · iexists _; isplitr; (· ipureintro; exact hf1); iexact H1
  isplitl [H2]; · iexists _; isplitr; (· ipureintro; exact hf2); iexact H2
  isplitl [H3]; · iexists _; isplitr; (· ipureintro; exact hf3); iexact H3
  isplitl [H4]
  · iexists _; isplitr
    swap; · iexact H4
    ipureintro
    refine (read_writes_last_unit _ _ hz0 _ _ _).trans ?_
    sl_unfold_run_names
    rw [readCov_cons_unit_zero _ hz0, View.readCov_unit_zero _ hz0, readAt_whole_unread arg3 harg3 x1 hz0, readAt_whole_unread arg4 harg4 x2 hz0,
      readAt_whole_unread arg2 harg2 x0 hz0, readAt_whole_unread arg5 harg5 x3 hz0]
  iexists _; isplitr
  swap; · iexact H5
  ipureintro
  refine (read_writes_last_unit _ _ hz0 _ _ _).trans ?_
  sl_unfold_run_names
  rw [readAt_whole_unread arg3 harg3 x1 hz0, readAt_whole_unread arg4 harg4 x2 hz0, readAt_whole_unread arg2 harg2 x0 hz0,
    View.readCov_unit_zero _ hz0]

/-! # Region 0: the blocks, the proof data and the body obligation, at entry contents `V` (the contraction is one block:
    every point zeroes the scratch accumulator, adds its product and stores the output) -/

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: unfetched, its block
    index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: unfetched, its block
    index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: unfetched, its block
    index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not: unfetched, its block
    index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The accumulator after the body at point `t`: the point's product added to zero. -/
def acc0 (c : Dev nD) (t : Fin cfg0.N) : Vec F S64x512 .f32 :=
  k0_pay2 (iblk0 V c 1 t) (iblk0 V c 2 t) (iblk0 V c 0 t) (k0_pay1 (F := F))

/-- What a point leaves in the output's staging buffer: the accumulator plus the bias row, clamped below at zero. -/
def out0 (c : Dev nD) (t : Fin cfg0.N) : Vec F S64x512 .f32 := k0_pay3 (acc0 V c t) (iblk0 V c 3 t)

/-- The invariant between points: the scratch accumulator whole at some contents, beside every other scoped buffer no
    window of this call stages. -/
def Φ0 (c : Dev nD) (n : Fin (cfg0.N + 1)) : sProp 𝕄 :=
  iprop((∃ s, owns (c : Thread nD τ) (Memref.whole cc0_scratch0 : Memref sig .tc .vmem S64x512 .f32) fullShare s)
    ∗ Pipeline.scopedRestBut (Ix := Unit) (Name := ℕ) (U := UR sig nD τ) (Lvl := ℕ) (Val := Elt F) spec0 c [cc0_scratch0])

/-- The proof data: the arrays as the region finds them; after the body each input's buffer at its block and the output's
    at `out0`; the invariant `Φ0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0 V c t
  Φ n := Φ0 c n
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0 V c t := by dsimp only [dat0]
theorem Φ_eq0 (c : Dev nD) (n : Fin (cfg0.N + 1)) : (dat0 V c).Φ n = Φ0 (F := F) c n := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- Both conditionals of the body hold at every point of the grid (its reduction axis has one position). -/
theorem hcond0_1 : ∀ t : Fin cfg0.N, cond0_1 (grid0.coords t) :=
  (by decide +kernel : ∀ t : Fin grid0.N, cond0_1 (grid0.coords t))
theorem hcond0_2 : ∀ t : Fin cfg0.N, k0_cond2 (grid0.coords t) = 1#1 :=
  (by decide +kernel : ∀ t : Fin grid0.N, k0_cond2 (grid0.coords t) = 1#1)
/-- The output window is idle nowhere. -/
theorem idle0_4 : ∀ t : Fin cfg0.N, cfg0.idle 4 (cfg0.grid.coords t) = false :=
  (by decide +kernel : ∀ t : Fin grid0.N, idle0 4 (grid0.coords t) = false)

set_option maxHeartbeats 1000000 in
/-- The body at any point: the inputs' buffers hold their blocks; the scratch ends at the point's accumulator and the
    output's buffer at `out0`. -/
theorem sound_body0 (c : Dev nD) (t : Fin cfg0.N) :
    iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d))
        ∗ (∃ d, owns (c : Thread nD τ) (st0_2 t) fullShare ((dat0 V c).before 2 t d))
        ∗ (∃ d, owns (c : Thread nD τ) (st0_3 t) fullShare ((dat0 V c).before 3 t d))
        ∗ (∃ d, owns (c : Thread nD τ) (st0_4 t) fullShare ((dat0 V c).before 4 t d)))
      ⊢ wp frame (wpE (defs₀ (F := F)) Variants.none c none) Set.univ (bodyAt0 t) (fun _ =>
        iprop((dat0 V c).Φ t.succ ∗ (dat0 V c).owesAt () t.succ
          ∗ owns (c : Thread nD τ) (st0_0 t) fullShare ((dat0 V c).after 0 t)
          ∗ owns (c : Thread nD τ) (st0_1 t) fullShare ((dat0 V c).after 1 t)
          ∗ owns (c : Thread nD τ) (st0_2 t) fullShare ((dat0 V c).after 2 t)
          ∗ owns (c : Thread nD τ) (st0_3 t) fullShare ((dat0 V c).after 3 t)
          ∗ owns (c : Thread nD τ) (st0_4 t) fullShare ((dat0 V c).after 4 t))) := by
  unfold bodyAt0
  simp only [before0_0, before0_1, before0_2, before0_3]
  rw [show (dat0 V c).owesAt () t.succ = (dat0 V c).owesAt () t.castSucc from rfl,
    after0_0, after0_1, after0_2, after0_3, after0_4, Φ_eq0, Φ_eq0]
  unfold Φ0
  iintro ⟨⟨⟨%s, Hs⟩, Hrest⟩, Ho, ⟨%d0, H0⟩, ⟨%d1, H1⟩, ⟨%d2, H2⟩, ⟨%d3, H3⟩, ⟨%d4, H4⟩⟩
  iapply (sound_kernel0_C c Set.univ (grid0.coords t) _ _ _ _ _ _ _ _ _ _ _ _ (hcond0_1 t) (hcond0_2 t)
    (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [Hs]; · iexists s; iexact Hs
  iintro ⟨H0, H1, H2, H3, H4, H7⟩
  isplitl [H7 Hrest]
  · isplitl [H7]
    · iexists _; iexact H7
    · iexact Hrest
  isplitl [Ho]; · iexact Ho
  isplitl [H0]; · iexact H0
  isplitl [H1]; · iexact H1
  isplitl [H2]; · iexact H2
  isplitl [H3]; · iexact H3
  unfold out0 acc0; iexact H4

/-- The body obligation at every point: no window is idle anywhere. -/
theorem body_obligation0 (c : Dev nD) : BodyObligation (dat0 (F := F) V c) (defs₀ (F := F)) Variants.none () Set.univ := fun t => by
  rw [bigSep_W0, bigSep_W0]
  have hi : cfg0.idle 4 (cfg0.grid.coords t) = false := idle0_4 t
  refine (sound_body0 V c t).trans (wp_mono _ _ _ fun _ => ?_)
  refine sep_mono .rfl (sep_mono .rfl (sep_mono .rfl (sep_mono .rfl (sep_mono .rfl (sep_mono .rfl ?_)))))
  have e : (dat0 V c).leavesExact 4 t = owns (c : Thread nD τ) (st0_4 t) fullShare ((dat0 V c).after 4 t) := by
    unfold Dat.leavesExact; rw [hi]
  exact Entails.of_eq e.symm

end Region0

end Cert.KernelIdeal.Hand

end
-- ==== Proof.KI.R1.lean ====
/-
  Region 1 (layer 2: 8192 input features in two contraction blocks of 4096). Its 16 grid points run in pairs: the
  even point of a pair zeroes the scratch accumulator and adds the first feature block's product; the odd point adds the
  second block's product to what it finds and stores the accumulator plus the bias row, clamped below at zero, into the
  output's 512-column block. The accumulator is carried between the two points in the invariant.
-/
import proofs.«108305_j59700045414953_1_alg».proof.Proof.KI.Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The all-zero offsets of a two-axis rectangle, however spelt. -/
theorem hz1 : (![0, 0] : Fin 2 → ℕ) = fun _ => 0 := funext fun a => by fin_cases a <;> rfl

/-- The first conditional of the body: the reduction coordinate is zero. -/
abbrev cond1_1 (i : grid1.Coords) : Prop := (Scalar.cmpi .ne (Scalar.extui (Scalar.cmpi .eq (BitVec.ofNat 32 (i 1).val) 0#32)) 0#32) = 1#1

set_option maxHeartbeats 1000000 in
/-- At a point that opens a block's run and does not close it: the accumulator is zeroed and the point's product added;
    the output's staging buffer is not touched. -/
theorem sound_kernel1_A (c : Dev nD) (E : Set ℕ) (i : grid1.Coords)
    (arg2 : Memref sig .tc .vmem S64x4096 .f32) (harg2 : arg2.IsWhole) (arg3 : Memref sig .tc .vmem S512x4096 .f32) (harg3 : arg3.IsWhole)
    (arg4 : Memref sig .tc .vmem S512x4096 .f32) (harg4 : arg4.IsWhole) (arg5 : Memref sig .tc .vmem S1x512 .f32) (harg5 : arg5.IsWhole)
    (arg6 : Memref sig .tc .vmem S64x512 .f32) (harg6 : arg6.IsWhole) (arg7 : Memref sig .tc .vmem S64x512 .f32) (harg7 : arg7.IsWhole)
    (hc1 : cond1_1 i) (hc2 : ¬ k1_cond2 i = 1#1)
    (x0 : Vec F S64x4096 .f32) (x1 x2 : Vec F S512x4096 .f32) (x3 : Vec F S1x512 .f32) (xo : Vec F S64x512 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xo
            ∗ owns (c : Thread nD τ) arg7 fullShare (k1_pay2 x1 x2 x0 (k1_pay1 (F := F)))) -∗ K ⟨⟩))
      ⊢ wp frame (wpE (defs₀ (F := F)) Variants.none c none) E (cc1__masked_linear_relu_kernel i arg2 harg2 arg3 harg3 arg4 harg4 arg5 harg5 arg6 harg6 arg7 harg7) K := by
  simp only [cc1__masked_linear_relu_kernel_eq_skeleton]; unfold cc1__masked_linear_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := harg2.eq_unread hf0
  obtain rfl := harg3.eq_unread hf1
  obtain rfl := harg4.eq_unread hf2
  obtain rfl := harg5.eq_unread hf3
  obtain rfl := harg6.eq_unread hf4
  sl_exec (disch := first | exact hc1 | exact hc2)
  sl_step
  iapply Hk
  isplitl [H0]; · iexists _; isplitr; (· ipureintro; exact hf0); iexact H0
  isplitl [H1]; · iexists _; isplitr; (· ipureintro; exact hf1); iexact H1
  isplitl [H2]; · iexists _; isplitr; (· ipureintro; exact hf2); iexact H2
  isplitl [H3]; · iexists _; isplitr; (· ipureintro; exact hf3); iexact H3
  isplitl [H4]; · iexists _; isplitr; (· ipureintro; exact hf4); iexact H4
  iexists _; isplitr
  swap; · iexact H5
  ipureintro
  refine (read_writes_last_unit _ _ hz1 _ _ _).trans ?_
  sl_unfold_run_names
  rw [readAt_whole_unread arg3 harg3 x1 hz1, readAt_whole_unread arg4 harg4 x2 hz1, readAt_whole_unread arg2 harg2 x0 hz1,
    View.readCov_unit_zero _ hz1]

set_option maxHeartbeats 1000000 in
/-- At a point that continues a block's run and closes it: the point's product is added to the accumulator as found,
    and the output's staging buffer receives the accumulator plus the bias row, clamped below at zero. -/
theorem sound_kernel1_B (c : Dev nD) (E : Set ℕ) (i : grid1.Coords)
    (arg2 : Memref sig .tc .vmem S64x4096 .f32) (harg2 : arg2.IsWhole) (arg3 : Memref sig .tc .vmem S512x4096 .f32) (harg3 : arg3.IsWhole)
    (arg4 : Memref sig .tc .vmem S512x4096 .f32) (harg4 : arg4.IsWhole) (arg5 : Memref sig .tc .vmem S1x512 .f32) (harg5 : arg5.IsWhole)
    (arg6 : Memref sig .tc .vmem S64x512 .f32) (harg6 : arg6.IsWhole) (arg7 : Memref sig .tc .vmem S64x512 .f32) (harg7 : arg7.IsWhole)
    (hc1 : ¬ cond1_1 i) (hc2 : k1_cond2 i = 1#1)
    (x0 : Vec F S64x4096 .f32) (x1 x2 : Vec F S512x4096 .f32) (x3 : Vec F S1x512 .f32) (s : Vec F S64x512 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare s
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k1_pay3 (k1_pay2 x1 x2 x0 s) x3)
            ∗ owns (c : Thread nD τ) arg7 fullShare (k1_pay2 x1 x2 x0 s)) -∗ K ⟨⟩))
      ⊢ wp frame (wpE (defs₀ (F := F)) Variants.none c none) E (cc1__masked_linear_relu_kernel i arg2 harg2 arg3 harg3 arg4 harg4 arg5 harg5 arg6 harg6 arg7 harg7) K := by
  simp only [cc1__masked_linear_relu_kernel_eq_skeleton]; unfold cc1__masked_linear_relu_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  obtain rfl := harg2.eq_unread hf0
  obtain rfl := harg3.eq_unread hf1
  obtain rfl := harg4.eq_unread hf2
  obtain rfl := harg5.eq_unread hf3
  obtain rfl := harg7.eq_unread hf5
  sl_exec (disch := first | exact hc1 | exact hc2)
  sl_step
  iapply Hk
  isplitl [H0]; · iexists _; isplitr; (· ipureintro; exact hf0); iexact H0
  isplitl [H1]; · iexists _; isplitr; (· ipureintro; exact hf1); iexact H1
  isplitl [H2]; · iexists _; isplitr; (· ipureintro; exact hf2); iexact H2
  isplitl [H3]; · iexists _; isplitr; (· ipureintro; exact hf3); iexact H3
  isplitl [H4]
  · iexists _; isplitr
    swap; · iexact H4
    ipureintro
    refine (read_writes_last_unit _ _ hz1 _ _ _).trans ?_
    sl_unfold_run_names
    rw [View.readCov_unit_zero _ hz1, readAt_whole_unread arg3 harg3 x1 hz1, readAt_whole_unread arg4 harg4 x2 hz1,
      readAt_whole_unread arg2 harg2 x0 hz1, readAt_whole_unread arg7 harg7 s hz1, readAt_whole_unread arg5 harg5 x3 hz1]
  iexists _; isplitr
  swap; · iexact H5
  ipureintro
  refine (read_writes_last_unit _ _ hz1 _ _ _).trans ?_
  sl_unfold_run_names
  rw [readAt_whole_unread arg3 harg3 x1 hz1, readAt_whole_unread arg4 harg4 x2 hz1, readAt_whole_unread arg2 harg2 x0 hz1,
    readAt_whole_unread arg7 harg7 s hz1]

/-! # Region 1: the blocks, the accumulator carried in scratch, the proof data and the body obligation, at entry contents `V` -/

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: unfetched, its block
    index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: unfetched, its block
    index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: unfetched, its block
    index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not: unfetched, its block
    index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The point before `t` (the point itself at the first one). -/
def prev1 (t : Fin cfg1.N) : Fin cfg1.N := ⟨t.val - 1, Nat.lt_of_le_of_lt (Nat.sub_le _ _) t.isLt⟩

/-- The accumulator after the body at point `t`: the point's product added to zero when the point opens a block's run
    (even position), else to the product of the point before, itself added to zero. -/
def acc1 (c : Dev nD) (t : Fin cfg1.N) : Vec F S64x512 .f32 :=
  k1_pay2 (iblk1 V c 1 t) (iblk1 V c 2 t) (iblk1 V c 0 t)
    (if t.val % 2 = 0 then k1_pay1 (F := F)
     else k1_pay2 (iblk1 V c 1 (prev1 t)) (iblk1 V c 2 (prev1 t)) (iblk1 V c 0 (prev1 t)) (k1_pay1 (F := F)))

/-- What a closing point leaves in the output's staging buffer: the accumulator plus the bias row, clamped below at zero. -/
def out1 (c : Dev nD) (t : Fin cfg1.N) : Vec F S64x512 .f32 := k1_pay3 (acc1 V c t) (iblk1 V c 3 t)

/-- What is known of the scratch contents `s` before position `n`: after an opening point, the accumulator it left. -/
def Inv1 (c : Dev nD) (n : Fin (cfg1.N + 1)) (s : Vec F S64x512 .f32) : Prop :=
  ∀ (hlt : n.val - 1 < cfg1.N), 0 < n.val → (n.val - 1) % 2 = 0 → s = acc1 V c ⟨n.val - 1, hlt⟩

/-- The invariant between points: the scratch accumulator whole at contents satisfying `Inv1`, beside every other
    scoped buffer no window of this call stages. -/
def Φ1 (c : Dev nD) (n : Fin (cfg1.N + 1)) : sProp 𝕄 :=
  iprop((∃ s, ⌜Inv1 V c n s⌝ ∗ owns (c : Thread nD τ) (Memref.whole cc1_scratch0 : Memref sig .tc .vmem S64x512 .f32) fullShare s)
    ∗ Pipeline.scopedRestBut (Ix := Unit) (Name := ℕ) (U := UR sig nD τ) (Lvl := ℕ) (Val := Elt F) spec1 c [cc1_scratch0])

/-- The proof data: the arrays as the region finds them; after the body each input's buffer at its block and the output's
    at `out1`; the invariant `Φ1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 V c t
  Φ n := Φ1 V c n
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1 V c t := by dsimp only [dat1]
theorem Φ_eq1 (c : Dev nD) (n : Fin (cfg1.N + 1)) : (dat1 V c).Φ n = Φ1 V c n := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- The body's two conditionals in closed form over the grid: the first holds at the even positions, the second at the odd. -/
theorem hcond1_1 : ∀ t : Fin cfg1.N, cond1_1 (grid1.coords t) ↔ t.val % 2 = 0 :=
  (by decide +kernel : ∀ t : Fin grid1.N, cond1_1 (grid1.coords t) ↔ t.val % 2 = 0)
theorem hcond1_2 : ∀ t : Fin cfg1.N, k1_cond2 (grid1.coords t) = 1#1 ↔ t.val % 2 = 1 :=
  (by decide +kernel : ∀ t : Fin grid1.N, k1_cond2 (grid1.coords t) = 1#1 ↔ t.val % 2 = 1)
/-- The output window is idle exactly at the even positions. -/
theorem idle1_4 : ∀ t : Fin cfg1.N, cfg1.idle 4 (cfg1.grid.coords t) = true ↔ t.val % 2 = 0 :=
  (by decide +kernel : ∀ t : Fin grid1.N, idle1 4 (grid1.coords t) = true ↔ t.val % 2 = 0)

set_option maxHeartbeats 1000000 in
/-- The body at an opening point (even position): the inputs' buffers hold their blocks; the scratch ends at the point's
    accumulator; the output's buffer is handed back as found. -/
theorem sound_body1_A (c : Dev nD) (t : Fin cfg1.N) (h : t.val % 2 = 0) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d))
        ∗ (∃ d, owns (c : Thread nD τ) (st1_3 t) fullShare ((dat1 V c).before 3 t d))
        ∗ (∃ d, owns (c : Thread nD τ) (st1_4 t) fullShare ((dat1 V c).before 4 t d)))
      ⊢ wp frame (wpE (defs₀ (F := F)) Variants.none c none) Set.univ (bodyAt1 t) (fun _ =>
        iprop((dat1 V c).Φ t.succ ∗ (dat1 V c).owesAt () t.succ
          ∗ owns (c : Thread nD τ) (st1_0 t) fullShare ((dat1 V c).after 0 t)
          ∗ owns (c : Thread nD τ) (st1_1 t) fullShare ((dat1 V c).after 1 t)
          ∗ owns (c : Thread nD τ) (st1_2 t) fullShare ((dat1 V c).after 2 t)
          ∗ owns (c : Thread nD τ) (st1_3 t) fullShare ((dat1 V c).after 3 t)
          ∗ (∃ d, owns (c : Thread nD τ) (st1_4 t) fullShare ((dat1 V c).before 4 t d)))) := by
  unfold bodyAt1
  simp only [before1_0, before1_1, before1_2, before1_3]
  rw [show (dat1 V c).owesAt () t.succ = (dat1 V c).owesAt () t.castSucc from rfl,
    after1_0, after1_1, after1_2, after1_3, Φ_eq1, Φ_eq1]
  unfold Φ1
  iintro ⟨⟨⟨%s, -, Hs⟩, Hrest⟩, Ho, ⟨%d0, H0⟩, ⟨%d1, H1⟩, ⟨%d2, H2⟩, ⟨%d3, H3⟩, ⟨%d4, H4⟩⟩
  iapply (sound_kernel1_A c Set.univ (grid1.coords t) _ _ _ _ _ _ _ _ _ _ _ _ ((hcond1_1 t).mpr h)
    (fun hh => by have := (hcond1_2 t).mp hh; omega)
    (iblk1 V c 0 t) (iblk1 V c 1 t) (iblk1 V c 2 t) (iblk1 V c 3 t) ((dat1 V c).before 4 t d4) _)
  isplitl [H0]; · iexact H0
  isplitl [H1]; · iexact H1
  isplitl [H2]; · iexact H2
  isplitl [H3]; · iexact H3
  isplitl [H4]; · iexact H4
  isplitl [Hs]; · iexists s; iexact Hs
  iintro ⟨H0, H1, H2, H3, H4, H7⟩
  isplitl [H7 Hrest]
  · isplitl [H7]
    · iexists _; isplitr
      swap; · iexact H7
      ipureintro
      intro hlt _ _
      have e : (⟨t.succ.val - 1, hlt⟩ : Fin cfg1.N) = t := Fin.ext (by show t.val + 1 - 1 = t.val; omega)
      rw [e]; unfold acc1; rw [if_pos h]
    · iexact Hrest
  isplitl [Ho]; · iexact Ho
  isplitl [H0]; · iexact H0
  isplitl [H1]; · iexact H1
  isplitl [H2]; · iexact H2
  isplitl [H3]; · iexact H3
  iexists d4; iexact H4

set_option maxHeartbeats 1000000 in
/-- The body at a closing point (odd position): the scratch holds the accumulator the point before left, the point's
    product is added to it, and the output's buffer receives `out1`. -/
theorem sound_body1_B (c : Dev nD) (t : Fin cfg1.N) (h : ¬ t.val % 2 = 0) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d))
        ∗ (∃ d, owns (c : Thread nD τ) (st1_3 t) fullShare ((dat1 V c).before 3 t d))
        ∗ (∃ d, owns (c : Thread nD τ) (st1_4 t) fullShare ((dat1 V c).before 4 t d)))
      ⊢ wp frame (wpE (defs₀ (F := F)) Variants.none c none) Set.univ (bodyAt1 t) (fun _ =>
        iprop((dat1 V c).Φ t.succ ∗ (dat1 V c).owesAt () t.succ
          ∗ owns (c : Thread nD τ) (st1_0 t) fullShare ((dat1 V c).after 0 t)
          ∗ owns (c : Thread nD τ) (st1_1 t) fullShare ((dat1 V c).after 1 t)
          ∗ owns (c : Thread nD τ) (st1_2 t) fullShare ((dat1 V c).after 2 t)
          ∗ owns (c : Thread nD τ) (st1_3 t) fullShare ((dat1 V c).after 3 t)
          ∗ owns (c : Thread nD τ) (st1_4 t) fullShare ((dat1 V c).after 4 t))) := by
  unfold bodyAt1
  simp only [before1_0, before1_1, before1_2, before1_3]
  rw [show (dat1 V c).owesAt () t.succ = (dat1 V c).owesAt () t.castSucc from rfl,
    after1_0, after1_1, after1_2, after1_3, after1_4, Φ_eq1, Φ_eq1]
  unfold Φ1
  iintro ⟨⟨⟨%s, %hs, Hs⟩, Hrest⟩, Ho, ⟨%d0, H0⟩, ⟨%d1, H1⟩, ⟨%d2, H2⟩, ⟨%d3, H3⟩, ⟨%d4, H4⟩⟩
  have hN : t.val < 16 := lt_of_lt_of_eq t.isLt (show cfg1.N = 16 from N_1)
  have hs' : s = acc1 V c (prev1 t) := hs (Nat.lt_of_le_of_lt (Nat.sub_le _ _) t.isLt) (by show 0 < t.val; omega) (by show (t.val - 1) % 2 = 0; omega)
  have hp : (prev1 t).val % 2 = 0 := by show (t.val - 1) % 2 = 0; omega
  iapply (sound_kernel1_B c Set.univ (grid1.coords t) _ _ _ _ _ _ _ _ _ _ _ _ (fun hh => h ((hcond1_1 t).mp hh))
    ((hcond1_2 t).mpr (by omega))
    (iblk1 V c 0 t) (iblk1 V c 1 t) (iblk1 V c 2 t) (iblk1 V c 3 t) s _)
  isplitl [H0]; · iexact H0
  isplitl [H1]; · iexact H1
  isplitl [H2]; · iexact H2
  isplitl [H3]; · iexact H3
  isplitl [H4]; · iexists _; iexact H4
  isplitl [Hs]; · iexact Hs
  iintro ⟨H0, H1, H2, H3, H4, H7⟩
  have eacc : k1_pay2 (iblk1 V c 1 t) (iblk1 V c 2 t) (iblk1 V c 0 t) s = acc1 V c t := by
    rw [hs']; conv_rhs => unfold acc1; rw [if_neg h]
    unfold acc1; rw [if_pos hp]
  rw [eacc]
  isplitl [H7 Hrest]
  · isplitl [H7]
    · iexists _; isplitr
      swap; · iexact H7
      ipureintro
      intro hlt _ hm
      exfalso; have e : t.succ.val - 1 = t.val := by show t.val + 1 - 1 = t.val; omega
      omega
    · iexact Hrest
  isplitl [Ho]; · iexact Ho
  isplitl [H0]; · iexact H0
  isplitl [H1]; · iexact H1
  isplitl [H2]; · iexact H2
  isplitl [H3]; · iexact H3
  unfold out1; iexact H4

/-- The body obligation at every point: the output window is idle and not written back at the even positions, live at the odd. -/
theorem body_obligation1 (c : Dev nD) : BodyObligation (dat1 (F := F) V c) (defs₀ (F := F)) Variants.none () Set.univ := fun t => by
  rw [bigSep_W1, bigSep_W1]
  by_cases h : t.val % 2 = 0
  · have hi : cfg1.idle 4 (cfg1.grid.coords t) = true := (idle1_4 t).mpr h
    have hf : (cfg1.win 4).flush t = false := Bool.eq_false_iff.mpr fun hh => by have := (flush1_4 t).mp hh; omega
    refine (sound_body1_A V c t h).trans (wp_mono _ _ _ fun _ => ?_)
    refine sep_mono .rfl (sep_mono .rfl (sep_mono .rfl (sep_mono .rfl (sep_mono .rfl (sep_mono .rfl ?_)))))
    exact Entails.of_eq ((dat1 V c).leavesExact_idle 4 t hi hf).symm
  · have hi : cfg1.idle 4 (cfg1.grid.coords t) = false := Bool.eq_false_iff.mpr fun hh => h ((idle1_4 t).mp hh)
    refine (sound_body1_B V c t h).trans (wp_mono _ _ _ fun _ => ?_)
    refine sep_mono .rfl (sep_mono .rfl (sep_mono .rfl (sep_mono .rfl (sep_mono .rfl (sep_mono .rfl ?_)))))
    have e : (dat1 V c).leavesExact 4 t = owns (c : Thread nD τ) (st1_4 t) fullShare ((dat1 V c).after 4 t) := by
      unfold Dat.leavesExact; rw [hi]
    exact Entails.of_eq e.symm

end Region1

end Cert.KernelIdeal.Hand

end
-- ==== Proof.KI.R2.lean ====
/-
  Region 2 (layer 3: 8192 input features in two contraction blocks of 4096). Its 16 grid points run in pairs: the
  even point of a pair zeroes the scratch accumulator and adds the first feature block's product; the odd point adds the
  second block's product to what it finds and stores the accumulator plus the bias row, clamped below at zero, into the
  output's 512-column block. The accumulator is carried between the two points in the invariant.
-/
import proofs.«108305_j59700045414953_1_alg».proof.Proof.KI.Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The all-zero offsets of a two-axis rectangle, however spelt. -/
theorem hz2 : (![0, 0] : Fin 2 → ℕ) = fun _ => 0 := funext fun a => by fin_cases a <;> rfl

/-- The first conditional of the body: the reduction coordinate is zero. -/
abbrev cond2_1 (i : grid2.Coords) : Prop := (Scalar.cmpi .ne (Scalar.extui (Scalar.cmpi .eq (BitVec.ofNat 32 (i 1).val) 0#32)) 0#32) = 1#1

set_option maxHeartbeats 1000000 in
/-- At a point that opens a block's run and does not close it: the accumulator is zeroed and the point's product added;
    the output's staging buffer is not touched. -/
theorem sound_kernel2_A (c : Dev nD) (E : Set ℕ) (i : grid2.Coords)
    (arg2 : Memref sig .tc .vmem S64x4096 .f32) (harg2 : arg2.IsWhole) (arg3 : Memref sig .tc .vmem S512x4096 .f32) (harg3 : arg3.IsWhole)
    (arg4 : Memref sig .tc .vmem S512x4096 .f32) (harg4 : arg4.IsWhole) (arg5 : Memref sig .tc .vmem S1x512 .f32) (harg5 : arg5.IsWhole)
    (arg6 : Memref sig .tc .vmem S64x512 .f32) (harg6 : arg6.IsWhole) (arg7 : Memref sig .tc .vmem S64x512 .f32) (harg7 : arg7.IsWhole)
    (hc1 : cond2_1 i) (hc2 : ¬ k2_cond2 i = 1#1)
    (x0 : Vec F S64x4096 .f32) (x1 x2 : Vec F S512x4096 .f32) (x3 : Vec F S1x512 .f32) (xo : Vec F S64x512 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xo
            ∗ owns (c : Thread nD τ) arg7 fullShare (k2_pay2 x1 x2 x0 (k2_pay1 (F := F)))) -∗ K ⟨⟩))
      ⊢ wp frame (wpE (defs₀ (F := F)) Variants.none c none) E (cc2__masked_linear_relu_kernel i arg2 harg2 arg3 harg3 arg4 harg4 arg5 harg5 arg6 harg6 arg7 harg7) K := by
  simp only [cc2__masked_linear_relu_kernel_eq_skeleton]; unfold cc2__masked_linear_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := harg2.eq_unread hf0
  obtain rfl := harg3.eq_unread hf1
  obtain rfl := harg4.eq_unread hf2
  obtain rfl := harg5.eq_unread hf3
  obtain rfl := harg6.eq_unread hf4
  sl_exec (disch := first | exact hc1 | exact hc2)
  sl_step
  iapply Hk
  isplitl [H0]; · iexists _; isplitr; (· ipureintro; exact hf0); iexact H0
  isplitl [H1]; · iexists _; isplitr; (· ipureintro; exact hf1); iexact H1
  isplitl [H2]; · iexists _; isplitr; (· ipureintro; exact hf2); iexact H2
  isplitl [H3]; · iexists _; isplitr; (· ipureintro; exact hf3); iexact H3
  isplitl [H4]; · iexists _; isplitr; (· ipureintro; exact hf4); iexact H4
  iexists _; isplitr
  swap; · iexact H5
  ipureintro
  refine (read_writes_last_unit _ _ hz2 _ _ _).trans ?_
  sl_unfold_run_names
  rw [readAt_whole_unread arg3 harg3 x1 hz2, readAt_whole_unread arg4 harg4 x2 hz2, readAt_whole_unread arg2 harg2 x0 hz2,
    View.readCov_unit_zero _ hz2]

set_option maxHeartbeats 1000000 in
/-- At a point that continues a block's run and closes it: the point's product is added to the accumulator as found,
    and the output's staging buffer receives the accumulator plus the bias row, clamped below at zero. -/
theorem sound_kernel2_B (c : Dev nD) (E : Set ℕ) (i : grid2.Coords)
    (arg2 : Memref sig .tc .vmem S64x4096 .f32) (harg2 : arg2.IsWhole) (arg3 : Memref sig .tc .vmem S512x4096 .f32) (harg3 : arg3.IsWhole)
    (arg4 : Memref sig .tc .vmem S512x4096 .f32) (harg4 : arg4.IsWhole) (arg5 : Memref sig .tc .vmem S1x512 .f32) (harg5 : arg5.IsWhole)
    (arg6 : Memref sig .tc .vmem S64x512 .f32) (harg6 : arg6.IsWhole) (arg7 : Memref sig .tc .vmem S64x512 .f32) (harg7 : arg7.IsWhole)
    (hc1 : ¬ cond2_1 i) (hc2 : k2_cond2 i = 1#1)
    (x0 : Vec F S64x4096 .f32) (x1 x2 : Vec F S512x4096 .f32) (x3 : Vec F S1x512 .f32) (s : Vec F S64x512 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare s
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k2_pay3 (k2_pay2 x1 x2 x0 s) x3)
            ∗ owns (c : Thread nD τ) arg7 fullShare (k2_pay2 x1 x2 x0 s)) -∗ K ⟨⟩))
      ⊢ wp frame (wpE (defs₀ (F := F)) Variants.none c none) E (cc2__masked_linear_relu_kernel i arg2 harg2 arg3 harg3 arg4 harg4 arg5 harg5 arg6 harg6 arg7 harg7) K := by
  simp only [cc2__masked_linear_relu_kernel_eq_skeleton]; unfold cc2__masked_linear_relu_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  obtain rfl := harg2.eq_unread hf0
  obtain rfl := harg3.eq_unread hf1
  obtain rfl := harg4.eq_unread hf2
  obtain rfl := harg5.eq_unread hf3
  obtain rfl := harg7.eq_unread hf5
  sl_exec (disch := first | exact hc1 | exact hc2)
  sl_step
  iapply Hk
  isplitl [H0]; · iexists _; isplitr; (· ipureintro; exact hf0); iexact H0
  isplitl [H1]; · iexists _; isplitr; (· ipureintro; exact hf1); iexact H1
  isplitl [H2]; · iexists _; isplitr; (· ipureintro; exact hf2); iexact H2
  isplitl [H3]; · iexists _; isplitr; (· ipureintro; exact hf3); iexact H3
  isplitl [H4]
  · iexists _; isplitr
    swap; · iexact H4
    ipureintro
    refine (read_writes_last_unit _ _ hz2 _ _ _).trans ?_
    sl_unfold_run_names
    rw [View.readCov_unit_zero _ hz2, readAt_whole_unread arg3 harg3 x1 hz2, readAt_whole_unread arg4 harg4 x2 hz2,
      readAt_whole_unread arg2 harg2 x0 hz2, readAt_whole_unread arg7 harg7 s hz2, readAt_whole_unread arg5 harg5 x3 hz2]
  iexists _; isplitr
  swap; · iexact H5
  ipureintro
  refine (read_writes_last_unit _ _ hz2 _ _ _).trans ?_
  sl_unfold_run_names
  rw [readAt_whole_unread arg3 harg3 x1 hz2, readAt_whole_unread arg4 harg4 x2 hz2, readAt_whole_unread arg2 harg2 x0 hz2,
    readAt_whole_unread arg7 harg7 s hz2]

/-! # Region 2: the blocks, the accumulator carried in scratch, the proof data and the body obligation, at entry contents `V` -/

section Region2
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not: unfetched, its block
    index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not: unfetched, its block
    index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not: unfetched, its block
    index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not: unfetched, its block
    index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The point before `t` (the point itself at the first one). -/
def prev2 (t : Fin cfg2.N) : Fin cfg2.N := ⟨t.val - 1, Nat.lt_of_le_of_lt (Nat.sub_le _ _) t.isLt⟩

/-- The accumulator after the body at point `t`: the point's product added to zero when the point opens a block's run
    (even position), else to the product of the point before, itself added to zero. -/
def acc2 (c : Dev nD) (t : Fin cfg2.N) : Vec F S64x512 .f32 :=
  k2_pay2 (iblk2 V c 1 t) (iblk2 V c 2 t) (iblk2 V c 0 t)
    (if t.val % 2 = 0 then k2_pay1 (F := F)
     else k2_pay2 (iblk2 V c 1 (prev2 t)) (iblk2 V c 2 (prev2 t)) (iblk2 V c 0 (prev2 t)) (k2_pay1 (F := F)))

/-- What a closing point leaves in the output's staging buffer: the accumulator plus the bias row, clamped below at zero. -/
def out2 (c : Dev nD) (t : Fin cfg2.N) : Vec F S64x512 .f32 := k2_pay3 (acc2 V c t) (iblk2 V c 3 t)

/-- What is known of the scratch contents `s` before position `n`: after an opening point, the accumulator it left. -/
def Inv2 (c : Dev nD) (n : Fin (cfg2.N + 1)) (s : Vec F S64x512 .f32) : Prop :=
  ∀ (hlt : n.val - 1 < cfg2.N), 0 < n.val → (n.val - 1) % 2 = 0 → s = acc2 V c ⟨n.val - 1, hlt⟩

/-- The invariant between points: the scratch accumulator whole at contents satisfying `Inv2`, beside every other
    scoped buffer no window of this call stages. -/
def Φ2 (c : Dev nD) (n : Fin (cfg2.N + 1)) : sProp 𝕄 :=
  iprop((∃ s, ⌜Inv2 V c n s⌝ ∗ owns (c : Thread nD τ) (Memref.whole cc2_scratch0 : Memref sig .tc .vmem S64x512 .f32) fullShare s)
    ∗ Pipeline.scopedRestBut (Ix := Unit) (Name := ℕ) (U := UR sig nD τ) (Lvl := ℕ) (Val := Elt F) spec2 c [cc2_scratch0])

/-- The proof data: the arrays as the region finds them; after the body each input's buffer at its block and the output's
    at `out2`; the invariant `Φ2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2 V c t
  Φ n := Φ2 V c n
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2 V c t := by dsimp only [dat2]
theorem Φ_eq2 (c : Dev nD) (n : Fin (cfg2.N + 1)) : (dat2 V c).Φ n = Φ2 V c n := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- The body's two conditionals in closed form over the grid: the first holds at the even positions, the second at the odd. -/
theorem hcond2_1 : ∀ t : Fin cfg2.N, cond2_1 (grid2.coords t) ↔ t.val % 2 = 0 :=
  (by decide +kernel : ∀ t : Fin grid2.N, cond2_1 (grid2.coords t) ↔ t.val % 2 = 0)
theorem hcond2_2 : ∀ t : Fin cfg2.N, k2_cond2 (grid2.coords t) = 1#1 ↔ t.val % 2 = 1 :=
  (by decide +kernel : ∀ t : Fin grid2.N, k2_cond2 (grid2.coords t) = 1#1 ↔ t.val % 2 = 1)
/-- The output window is idle exactly at the even positions. -/
theorem idle2_4 : ∀ t : Fin cfg2.N, cfg2.idle 4 (cfg2.grid.coords t) = true ↔ t.val % 2 = 0 :=
  (by decide +kernel : ∀ t : Fin grid2.N, idle2 4 (grid2.coords t) = true ↔ t.val % 2 = 0)

set_option maxHeartbeats 1000000 in
/-- The body at an opening point (even position): the inputs' buffers hold their blocks; the scratch ends at the point's
    accumulator; the output's buffer is handed back as found. -/
theorem sound_body2_A (c : Dev nD) (t : Fin cfg2.N) (h : t.val % 2 = 0) :
    iprop((dat2 V c).Φ t.castSucc ∗ (dat2 V c).owesAt () t.castSucc
        ∗ (∃ d, owns (c : Thread nD τ) (st2_0 t) fullShare ((dat2 V c).before 0 t d))
        ∗ (∃ d, owns (c : Thread nD τ) (st2_1 t) fullShare ((dat2 V c).before 1 t d))
        ∗ (∃ d, owns (c : Thread nD τ) (st2_2 t) fullShare ((dat2 V c).before 2 t d))
        ∗ (∃ d, owns (c : Thread nD τ) (st2_3 t) fullShare ((dat2 V c).before 3 t d))
        ∗ (∃ d, owns (c : Thread nD τ) (st2_4 t) fullShare ((dat2 V c).before 4 t d)))
      ⊢ wp frame (wpE (defs₀ (F := F)) Variants.none c none) Set.univ (bodyAt2 t) (fun _ =>
        iprop((dat2 V c).Φ t.succ ∗ (dat2 V c).owesAt () t.succ
          ∗ owns (c : Thread nD τ) (st2_0 t) fullShare ((dat2 V c).after 0 t)
          ∗ owns (c : Thread nD τ) (st2_1 t) fullShare ((dat2 V c).after 1 t)
          ∗ owns (c : Thread nD τ) (st2_2 t) fullShare ((dat2 V c).after 2 t)
          ∗ owns (c : Thread nD τ) (st2_3 t) fullShare ((dat2 V c).after 3 t)
          ∗ (∃ d, owns (c : Thread nD τ) (st2_4 t) fullShare ((dat2 V c).before 4 t d)))) := by
  unfold bodyAt2
  simp only [before2_0, before2_1, before2_2, before2_3]
  rw [show (dat2 V c).owesAt () t.succ = (dat2 V c).owesAt () t.castSucc from rfl,
    after2_0, after2_1, after2_2, after2_3, Φ_eq2, Φ_eq2]
  unfold Φ2
  iintro ⟨⟨⟨%s, -, Hs⟩, Hrest⟩, Ho, ⟨%d0, H0⟩, ⟨%d1, H1⟩, ⟨%d2, H2⟩, ⟨%d3, H3⟩, ⟨%d4, H4⟩⟩
  iapply (sound_kernel2_A c Set.univ (grid2.coords t) _ _ _ _ _ _ _ _ _ _ _ _ ((hcond2_1 t).mpr h)
    (fun hh => by have := (hcond2_2 t).mp hh; omega)
    (iblk2 V c 0 t) (iblk2 V c 1 t) (iblk2 V c 2 t) (iblk2 V c 3 t) ((dat2 V c).before 4 t d4) _)
  isplitl [H0]; · iexact H0
  isplitl [H1]; · iexact H1
  isplitl [H2]; · iexact H2
  isplitl [H3]; · iexact H3
  isplitl [H4]; · iexact H4
  isplitl [Hs]; · iexists s; iexact Hs
  iintro ⟨H0, H1, H2, H3, H4, H7⟩
  isplitl [H7 Hrest]
  · isplitl [H7]
    · iexists _; isplitr
      swap; · iexact H7
      ipureintro
      intro hlt _ _
      have e : (⟨t.succ.val - 1, hlt⟩ : Fin cfg2.N) = t := Fin.ext (by show t.val + 1 - 1 = t.val; omega)
      rw [e]; unfold acc2; rw [if_pos h]
    · iexact Hrest
  isplitl [Ho]; · iexact Ho
  isplitl [H0]; · iexact H0
  isplitl [H1]; · iexact H1
  isplitl [H2]; · iexact H2
  isplitl [H3]; · iexact H3
  iexists d4; iexact H4

set_option maxHeartbeats 1000000 in
/-- The body at a closing point (odd position): the scratch holds the accumulator the point before left, the point's
    product is added to it, and the output's buffer receives `out2`. -/
theorem sound_body2_B (c : Dev nD) (t : Fin cfg2.N) (h : ¬ t.val % 2 = 0) :
    iprop((dat2 V c).Φ t.castSucc ∗ (dat2 V c).owesAt () t.castSucc
        ∗ (∃ d, owns (c : Thread nD τ) (st2_0 t) fullShare ((dat2 V c).before 0 t d))
        ∗ (∃ d, owns (c : Thread nD τ) (st2_1 t) fullShare ((dat2 V c).before 1 t d))
        ∗ (∃ d, owns (c : Thread nD τ) (st2_2 t) fullShare ((dat2 V c).before 2 t d))
        ∗ (∃ d, owns (c : Thread nD τ) (st2_3 t) fullShare ((dat2 V c).before 3 t d))
        ∗ (∃ d, owns (c : Thread nD τ) (st2_4 t) fullShare ((dat2 V c).before 4 t d)))
      ⊢ wp frame (wpE (defs₀ (F := F)) Variants.none c none) Set.univ (bodyAt2 t) (fun _ =>
        iprop((dat2 V c).Φ t.succ ∗ (dat2 V c).owesAt () t.succ
          ∗ owns (c : Thread nD τ) (st2_0 t) fullShare ((dat2 V c).after 0 t)
          ∗ owns (c : Thread nD τ) (st2_1 t) fullShare ((dat2 V c).after 1 t)
          ∗ owns (c : Thread nD τ) (st2_2 t) fullShare ((dat2 V c).after 2 t)
          ∗ owns (c : Thread nD τ) (st2_3 t) fullShare ((dat2 V c).after 3 t)
          ∗ owns (c : Thread nD τ) (st2_4 t) fullShare ((dat2 V c).after 4 t))) := by
  unfold bodyAt2
  simp only [before2_0, before2_1, before2_2, before2_3]
  rw [show (dat2 V c).owesAt () t.succ = (dat2 V c).owesAt () t.castSucc from rfl,
    after2_0, after2_1, after2_2, after2_3, after2_4, Φ_eq2, Φ_eq2]
  unfold Φ2
  iintro ⟨⟨⟨%s, %hs, Hs⟩, Hrest⟩, Ho, ⟨%d0, H0⟩, ⟨%d1, H1⟩, ⟨%d2, H2⟩, ⟨%d3, H3⟩, ⟨%d4, H4⟩⟩
  have hN : t.val < 16 := lt_of_lt_of_eq t.isLt (show cfg2.N = 16 from N_2)
  have hs' : s = acc2 V c (prev2 t) := hs (Nat.lt_of_le_of_lt (Nat.sub_le _ _) t.isLt) (by show 0 < t.val; omega) (by show (t.val - 1) % 2 = 0; omega)
  have hp : (prev2 t).val % 2 = 0 := by show (t.val - 1) % 2 = 0; omega
  iapply (sound_kernel2_B c Set.univ (grid2.coords t) _ _ _ _ _ _ _ _ _ _ _ _ (fun hh => h ((hcond2_1 t).mp hh))
    ((hcond2_2 t).mpr (by omega))
    (iblk2 V c 0 t) (iblk2 V c 1 t) (iblk2 V c 2 t) (iblk2 V c 3 t) s _)
  isplitl [H0]; · iexact H0
  isplitl [H1]; · iexact H1
  isplitl [H2]; · iexact H2
  isplitl [H3]; · iexact H3
  isplitl [H4]; · iexists _; iexact H4
  isplitl [Hs]; · iexact Hs
  iintro ⟨H0, H1, H2, H3, H4, H7⟩
  have eacc : k2_pay2 (iblk2 V c 1 t) (iblk2 V c 2 t) (iblk2 V c 0 t) s = acc2 V c t := by
    rw [hs']; conv_rhs => unfold acc2; rw [if_neg h]
    unfold acc2; rw [if_pos hp]
  rw [eacc]
  isplitl [H7 Hrest]
  · isplitl [H7]
    · iexists _; isplitr
      swap; · iexact H7
      ipureintro
      intro hlt _ hm
      exfalso; have e : t.succ.val - 1 = t.val := by show t.val + 1 - 1 = t.val; omega
      omega
    · iexact Hrest
  isplitl [Ho]; · iexact Ho
  isplitl [H0]; · iexact H0
  isplitl [H1]; · iexact H1
  isplitl [H2]; · iexact H2
  isplitl [H3]; · iexact H3
  unfold out2; iexact H4

/-- The body obligation at every point: the output window is idle and not written back at the even positions, live at the odd. -/
theorem body_obligation2 (c : Dev nD) : BodyObligation (dat2 (F := F) V c) (defs₀ (F := F)) Variants.none () Set.univ := fun t => by
  rw [bigSep_W2, bigSep_W2]
  by_cases h : t.val % 2 = 0
  · have hi : cfg2.idle 4 (cfg2.grid.coords t) = true := (idle2_4 t).mpr h
    have hf : (cfg2.win 4).flush t = false := Bool.eq_false_iff.mpr fun hh => by have := (flush2_4 t).mp hh; omega
    refine (sound_body2_A V c t h).trans (wp_mono _ _ _ fun _ => ?_)
    refine sep_mono .rfl (sep_mono .rfl (sep_mono .rfl (sep_mono .rfl (sep_mono .rfl (sep_mono .rfl ?_)))))
    exact Entails.of_eq ((dat2 V c).leavesExact_idle 4 t hi hf).symm
  · have hi : cfg2.idle 4 (cfg2.grid.coords t) = false := Bool.eq_false_iff.mpr fun hh => h ((idle2_4 t).mp hh)
    refine (sound_body2_B V c t h).trans (wp_mono _ _ _ fun _ => ?_)
    refine sep_mono .rfl (sep_mono .rfl (sep_mono .rfl (sep_mono .rfl (sep_mono .rfl (sep_mono .rfl ?_)))))
    have e : (dat2 V c).leavesExact 4 t = owns (c : Thread nD τ) (st2_4 t) fullShare ((dat2 V c).after 4 t) := by
      unfold Dat.leavesExact; rw [hi]
    exact Entails.of_eq e.symm

end Region2

end Cert.KernelIdeal.Hand

end
-- ==== Proof.KI.R3.lean ====
/-
  Region 3 (layer 4: 8192 input features in two contraction blocks of 4096). Its 16 grid points run in pairs: the
  even point of a pair zeroes the scratch accumulator and adds the first feature block's product; the odd point adds the
  second block's product to what it finds and stores the accumulator plus the bias row, clamped below at zero, into the
  output's 512-column block. The accumulator is carried between the two points in the invariant.
-/
import proofs.«108305_j59700045414953_1_alg».proof.Proof.KI.Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The all-zero offsets of a two-axis rectangle, however spelt. -/
theorem hz3 : (![0, 0] : Fin 2 → ℕ) = fun _ => 0 := funext fun a => by fin_cases a <;> rfl

/-- The first conditional of the body: the reduction coordinate is zero. -/
abbrev cond3_1 (i : grid3.Coords) : Prop := (Scalar.cmpi .ne (Scalar.extui (Scalar.cmpi .eq (BitVec.ofNat 32 (i 1).val) 0#32)) 0#32) = 1#1

set_option maxHeartbeats 1000000 in
/-- At a point that opens a block's run and does not close it: the accumulator is zeroed and the point's product added;
    the output's staging buffer is not touched. -/
theorem sound_kernel3_A (c : Dev nD) (E : Set ℕ) (i : grid3.Coords)
    (arg2 : Memref sig .tc .vmem S64x4096 .f32) (harg2 : arg2.IsWhole) (arg3 : Memref sig .tc .vmem S512x4096 .f32) (harg3 : arg3.IsWhole)
    (arg4 : Memref sig .tc .vmem S512x4096 .f32) (harg4 : arg4.IsWhole) (arg5 : Memref sig .tc .vmem S1x512 .f32) (harg5 : arg5.IsWhole)
    (arg6 : Memref sig .tc .vmem S64x512 .f32) (harg6 : arg6.IsWhole) (arg7 : Memref sig .tc .vmem S64x512 .f32) (harg7 : arg7.IsWhole)
    (hc1 : cond3_1 i) (hc2 : ¬ k3_cond2 i = 1#1)
    (x0 : Vec F S64x4096 .f32) (x1 x2 : Vec F S512x4096 .f32) (x3 : Vec F S1x512 .f32) (xo : Vec F S64x512 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xo
            ∗ owns (c : Thread nD τ) arg7 fullShare (k3_pay2 x1 x2 x0 (k3_pay1 (F := F)))) -∗ K ⟨⟩))
      ⊢ wp frame (wpE (defs₀ (F := F)) Variants.none c none) E (cc3__masked_linear_relu_kernel i arg2 harg2 arg3 harg3 arg4 harg4 arg5 harg5 arg6 harg6 arg7 harg7) K := by
  simp only [cc3__masked_linear_relu_kernel_eq_skeleton]; unfold cc3__masked_linear_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := harg2.eq_unread hf0
  obtain rfl := harg3.eq_unread hf1
  obtain rfl := harg4.eq_unread hf2
  obtain rfl := harg5.eq_unread hf3
  obtain rfl := harg6.eq_unread hf4
  sl_exec (disch := first | exact hc1 | exact hc2)
  sl_step
  iapply Hk
  isplitl [H0]; · iexists _; isplitr; (· ipureintro; exact hf0); iexact H0
  isplitl [H1]; · iexists _; isplitr; (· ipureintro; exact hf1); iexact H1
  isplitl [H2]; · iexists _; isplitr; (· ipureintro; exact hf2); iexact H2
  isplitl [H3]; · iexists _; isplitr; (· ipureintro; exact hf3); iexact H3
  isplitl [H4]; · iexists _; isplitr; (· ipureintro; exact hf4); iexact H4
  iexists _; isplitr
  swap; · iexact H5
  ipureintro
  refine (read_writes_last_unit _ _ hz3 _ _ _).trans ?_
  sl_unfold_run_names
  rw [readAt_whole_unread arg3 harg3 x1 hz3, readAt_whole_unread arg4 harg4 x2 hz3, readAt_whole_unread arg2 harg2 x0 hz3,
    View.readCov_unit_zero _ hz3]

set_option maxHeartbeats 1000000 in
/-- At a point that continues a block's run and closes it: the point's product is added to the accumulator as found,
    and the output's staging buffer receives the accumulator plus the bias row, clamped below at zero. -/
theorem sound_kernel3_B (c : Dev nD) (E : Set ℕ) (i : grid3.Coords)
    (arg2 : Memref sig .tc .vmem S64x4096 .f32) (harg2 : arg2.IsWhole) (arg3 : Memref sig .tc .vmem S512x4096 .f32) (harg3 : arg3.IsWhole)
    (arg4 : Memref sig .tc .vmem S512x4096 .f32) (harg4 : arg4.IsWhole) (arg5 : Memref sig .tc .vmem S1x512 .f32) (harg5 : arg5.IsWhole)
    (arg6 : Memref sig .tc .vmem S64x512 .f32) (harg6 : arg6.IsWhole) (arg7 : Memref sig .tc .vmem S64x512 .f32) (harg7 : arg7.IsWhole)
    (hc1 : ¬ cond3_1 i) (hc2 : k3_cond2 i = 1#1)
    (x0 : Vec F S64x4096 .f32) (x1 x2 : Vec F S512x4096 .f32) (x3 : Vec F S1x512 .f32) (s : Vec F S64x512 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare s
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k3_pay3 (k3_pay2 x1 x2 x0 s) x3)
            ∗ owns (c : Thread nD τ) arg7 fullShare (k3_pay2 x1 x2 x0 s)) -∗ K ⟨⟩))
      ⊢ wp frame (wpE (defs₀ (F := F)) Variants.none c none) E (cc3__masked_linear_relu_kernel i arg2 harg2 arg3 harg3 arg4 harg4 arg5 harg5 arg6 harg6 arg7 harg7) K := by
  simp only [cc3__masked_linear_relu_kernel_eq_skeleton]; unfold cc3__masked_linear_relu_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  obtain rfl := harg2.eq_unread hf0
  obtain rfl := harg3.eq_unread hf1
  obtain rfl := harg4.eq_unread hf2
  obtain rfl := harg5.eq_unread hf3
  obtain rfl := harg7.eq_unread hf5
  sl_exec (disch := first | exact hc1 | exact hc2)
  sl_step
  iapply Hk
  isplitl [H0]; · iexists _; isplitr; (· ipureintro; exact hf0); iexact H0
  isplitl [H1]; · iexists _; isplitr; (· ipureintro; exact hf1); iexact H1
  isplitl [H2]; · iexists _; isplitr; (· ipureintro; exact hf2); iexact H2
  isplitl [H3]; · iexists _; isplitr; (· ipureintro; exact hf3); iexact H3
  isplitl [H4]
  · iexists _; isplitr
    swap; · iexact H4
    ipureintro
    refine (read_writes_last_unit _ _ hz3 _ _ _).trans ?_
    sl_unfold_run_names
    rw [View.readCov_unit_zero _ hz3, readAt_whole_unread arg3 harg3 x1 hz3, readAt_whole_unread arg4 harg4 x2 hz3,
      readAt_whole_unread arg2 harg2 x0 hz3, readAt_whole_unread arg7 harg7 s hz3, readAt_whole_unread arg5 harg5 x3 hz3]
  iexists _; isplitr
  swap; · iexact H5
  ipureintro
  refine (read_writes_last_unit _ _ hz3 _ _ _).trans ?_
  sl_unfold_run_names
  rw [readAt_whole_unread arg3 harg3 x1 hz3, readAt_whole_unread arg4 harg4 x2 hz3, readAt_whole_unread arg2 harg2 x0 hz3,
    readAt_whole_unread arg7 harg7 s hz3]

/-! # Region 3: the blocks, the accumulator carried in scratch, the proof data and the body obligation, at entry contents `V` -/

section Region3
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not: unfetched, its block
    index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not: unfetched, its block
    index has not moved. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not: unfetched, its block
    index has not moved. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not: unfetched, its block
    index has not moved. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- The point before `t` (the point itself at the first one). -/
def prev3 (t : Fin cfg3.N) : Fin cfg3.N := ⟨t.val - 1, Nat.lt_of_le_of_lt (Nat.sub_le _ _) t.isLt⟩

/-- The accumulator after the body at point `t`: the point's product added to zero when the point opens a block's run
    (even position), else to the product of the point before, itself added to zero. -/
def acc3 (c : Dev nD) (t : Fin cfg3.N) : Vec F S64x512 .f32 :=
  k3_pay2 (iblk3 V c 1 t) (iblk3 V c 2 t) (iblk3 V c 0 t)
    (if t.val % 2 = 0 then k3_pay1 (F := F)
     else k3_pay2 (iblk3 V c 1 (prev3 t)) (iblk3 V c 2 (prev3 t)) (iblk3 V c 0 (prev3 t)) (k3_pay1 (F := F)))

/-- What a closing point leaves in the output's staging buffer: the accumulator plus the bias row, clamped below at zero. -/
def out3 (c : Dev nD) (t : Fin cfg3.N) : Vec F S64x512 .f32 := k3_pay3 (acc3 V c t) (iblk3 V c 3 t)

/-- What is known of the scratch contents `s` before position `n`: after an opening point, the accumulator it left. -/
def Inv3 (c : Dev nD) (n : Fin (cfg3.N + 1)) (s : Vec F S64x512 .f32) : Prop :=
  ∀ (hlt : n.val - 1 < cfg3.N), 0 < n.val → (n.val - 1) % 2 = 0 → s = acc3 V c ⟨n.val - 1, hlt⟩

/-- The invariant between points: the scratch accumulator whole at contents satisfying `Inv3`, beside every other
    scoped buffer no window of this call stages. -/
def Φ3 (c : Dev nD) (n : Fin (cfg3.N + 1)) : sProp 𝕄 :=
  iprop((∃ s, ⌜Inv3 V c n s⌝ ∗ owns (c : Thread nD τ) (Memref.whole cc3_scratch0 : Memref sig .tc .vmem S64x512 .f32) fullShare s)
    ∗ Pipeline.scopedRestBut (Ix := Unit) (Name := ℕ) (U := UR sig nD τ) (Lvl := ℕ) (Val := Elt F) spec3 c [cc3_scratch0])

/-- The proof data: the arrays as the region finds them; after the body each input's buffer at its block and the output's
    at `out3`; the invariant `Φ3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3 V c t
  Φ n := Φ3 V c n
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3 V c t := by dsimp only [dat3]
theorem Φ_eq3 (c : Dev nD) (n : Fin (cfg3.N + 1)) : (dat3 V c).Φ n = Φ3 V c n := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-- The body's two conditionals in closed form over the grid: the first holds at the even positions, the second at the odd. -/
theorem hcond3_1 : ∀ t : Fin cfg3.N, cond3_1 (grid3.coords t) ↔ t.val % 2 = 0 :=
  (by decide +kernel : ∀ t : Fin grid3.N, cond3_1 (grid3.coords t) ↔ t.val % 2 = 0)
theorem hcond3_2 : ∀ t : Fin cfg3.N, k3_cond2 (grid3.coords t) = 1#1 ↔ t.val % 2 = 1 :=
  (by decide +kernel : ∀ t : Fin grid3.N, k3_cond2 (grid3.coords t) = 1#1 ↔ t.val % 2 = 1)
/-- The output window is idle exactly at the even positions. -/
theorem idle3_4 : ∀ t : Fin cfg3.N, cfg3.idle 4 (cfg3.grid.coords t) = true ↔ t.val % 2 = 0 :=
  (by decide +kernel : ∀ t : Fin grid3.N, idle3 4 (grid3.coords t) = true ↔ t.val % 2 = 0)

set_option maxHeartbeats 1000000 in
/-- The body at an opening point (even position): the inputs' buffers hold their blocks; the scratch ends at the point's
    accumulator; the output's buffer is handed back as found. -/
theorem sound_body3_A (c : Dev nD) (t : Fin cfg3.N) (h : t.val % 2 = 0) :
    iprop((dat3 V c).Φ t.castSucc ∗ (dat3 V c).owesAt () t.castSucc
        ∗ (∃ d, owns (c : Thread nD τ) (st3_0 t) fullShare ((dat3 V c).before 0 t d))
        ∗ (∃ d, owns (c : Thread nD τ) (st3_1 t) fullShare ((dat3 V c).before 1 t d))
        ∗ (∃ d, owns (c : Thread nD τ) (st3_2 t) fullShare ((dat3 V c).before 2 t d))
        ∗ (∃ d, owns (c : Thread nD τ) (st3_3 t) fullShare ((dat3 V c).before 3 t d))
        ∗ (∃ d, owns (c : Thread nD τ) (st3_4 t) fullShare ((dat3 V c).before 4 t d)))
      ⊢ wp frame (wpE (defs₀ (F := F)) Variants.none c none) Set.univ (bodyAt3 t) (fun _ =>
        iprop((dat3 V c).Φ t.succ ∗ (dat3 V c).owesAt () t.succ
          ∗ owns (c : Thread nD τ) (st3_0 t) fullShare ((dat3 V c).after 0 t)
          ∗ owns (c : Thread nD τ) (st3_1 t) fullShare ((dat3 V c).after 1 t)
          ∗ owns (c : Thread nD τ) (st3_2 t) fullShare ((dat3 V c).after 2 t)
          ∗ owns (c : Thread nD τ) (st3_3 t) fullShare ((dat3 V c).after 3 t)
          ∗ (∃ d, owns (c : Thread nD τ) (st3_4 t) fullShare ((dat3 V c).before 4 t d)))) := by
  unfold bodyAt3
  simp only [before3_0, before3_1, before3_2, before3_3]
  rw [show (dat3 V c).owesAt () t.succ = (dat3 V c).owesAt () t.castSucc from rfl,
    after3_0, after3_1, after3_2, after3_3, Φ_eq3, Φ_eq3]
  unfold Φ3
  iintro ⟨⟨⟨%s, -, Hs⟩, Hrest⟩, Ho, ⟨%d0, H0⟩, ⟨%d1, H1⟩, ⟨%d2, H2⟩, ⟨%d3, H3⟩, ⟨%d4, H4⟩⟩
  iapply (sound_kernel3_A c Set.univ (grid3.coords t) _ _ _ _ _ _ _ _ _ _ _ _ ((hcond3_1 t).mpr h)
    (fun hh => by have := (hcond3_2 t).mp hh; omega)
    (iblk3 V c 0 t) (iblk3 V c 1 t) (iblk3 V c 2 t) (iblk3 V c 3 t) ((dat3 V c).before 4 t d4) _)
  isplitl [H0]; · iexact H0
  isplitl [H1]; · iexact H1
  isplitl [H2]; · iexact H2
  isplitl [H3]; · iexact H3
  isplitl [H4]; · iexact H4
  isplitl [Hs]; · iexists s; iexact Hs
  iintro ⟨H0, H1, H2, H3, H4, H7⟩
  isplitl [H7 Hrest]
  · isplitl [H7]
    · iexists _; isplitr
      swap; · iexact H7
      ipureintro
      intro hlt _ _
      have e : (⟨t.succ.val - 1, hlt⟩ : Fin cfg3.N) = t := Fin.ext (by show t.val + 1 - 1 = t.val; omega)
      rw [e]; unfold acc3; rw [if_pos h]
    · iexact Hrest
  isplitl [Ho]; · iexact Ho
  isplitl [H0]; · iexact H0
  isplitl [H1]; · iexact H1
  isplitl [H2]; · iexact H2
  isplitl [H3]; · iexact H3
  iexists d4; iexact H4

set_option maxHeartbeats 1000000 in
/-- The body at a closing point (odd position): the scratch holds the accumulator the point before left, the point's
    product is added to it, and the output's buffer receives `out3`. -/
theorem sound_body3_B (c : Dev nD) (t : Fin cfg3.N) (h : ¬ t.val % 2 = 0) :
    iprop((dat3 V c).Φ t.castSucc ∗ (dat3 V c).owesAt () t.castSucc
        ∗ (∃ d, owns (c : Thread nD τ) (st3_0 t) fullShare ((dat3 V c).before 0 t d))
        ∗ (∃ d, owns (c : Thread nD τ) (st3_1 t) fullShare ((dat3 V c).before 1 t d))
        ∗ (∃ d, owns (c : Thread nD τ) (st3_2 t) fullShare ((dat3 V c).before 2 t d))
        ∗ (∃ d, owns (c : Thread nD τ) (st3_3 t) fullShare ((dat3 V c).before 3 t d))
        ∗ (∃ d, owns (c : Thread nD τ) (st3_4 t) fullShare ((dat3 V c).before 4 t d)))
      ⊢ wp frame (wpE (defs₀ (F := F)) Variants.none c none) Set.univ (bodyAt3 t) (fun _ =>
        iprop((dat3 V c).Φ t.succ ∗ (dat3 V c).owesAt () t.succ
          ∗ owns (c : Thread nD τ) (st3_0 t) fullShare ((dat3 V c).after 0 t)
          ∗ owns (c : Thread nD τ) (st3_1 t) fullShare ((dat3 V c).after 1 t)
          ∗ owns (c : Thread nD τ) (st3_2 t) fullShare ((dat3 V c).after 2 t)
          ∗ owns (c : Thread nD τ) (st3_3 t) fullShare ((dat3 V c).after 3 t)
          ∗ owns (c : Thread nD τ) (st3_4 t) fullShare ((dat3 V c).after 4 t))) := by
  unfold bodyAt3
  simp only [before3_0, before3_1, before3_2, before3_3]
  rw [show (dat3 V c).owesAt () t.succ = (dat3 V c).owesAt () t.castSucc from rfl,
    after3_0, after3_1, after3_2, after3_3, after3_4, Φ_eq3, Φ_eq3]
  unfold Φ3
  iintro ⟨⟨⟨%s, %hs, Hs⟩, Hrest⟩, Ho, ⟨%d0, H0⟩, ⟨%d1, H1⟩, ⟨%d2, H2⟩, ⟨%d3, H3⟩, ⟨%d4, H4⟩⟩
  have hN : t.val < 16 := lt_of_lt_of_eq t.isLt (show cfg3.N = 16 from N_3)
  have hs' : s = acc3 V c (prev3 t) := hs (Nat.lt_of_le_of_lt (Nat.sub_le _ _) t.isLt) (by show 0 < t.val; omega) (by show (t.val - 1) % 2 = 0; omega)
  have hp : (prev3 t).val % 2 = 0 := by show (t.val - 1) % 2 = 0; omega
  iapply (sound_kernel3_B c Set.univ (grid3.coords t) _ _ _ _ _ _ _ _ _ _ _ _ (fun hh => h ((hcond3_1 t).mp hh))
    ((hcond3_2 t).mpr (by omega))
    (iblk3 V c 0 t) (iblk3 V c 1 t) (iblk3 V c 2 t) (iblk3 V c 3 t) s _)
  isplitl [H0]; · iexact H0
  isplitl [H1]; · iexact H1
  isplitl [H2]; · iexact H2
  isplitl [H3]; · iexact H3
  isplitl [H4]; · iexists _; iexact H4
  isplitl [Hs]; · iexact Hs
  iintro ⟨H0, H1, H2, H3, H4, H7⟩
  have eacc : k3_pay2 (iblk3 V c 1 t) (iblk3 V c 2 t) (iblk3 V c 0 t) s = acc3 V c t := by
    rw [hs']; conv_rhs => unfold acc3; rw [if_neg h]
    unfold acc3; rw [if_pos hp]
  rw [eacc]
  isplitl [H7 Hrest]
  · isplitl [H7]
    · iexists _; isplitr
      swap; · iexact H7
      ipureintro
      intro hlt _ hm
      exfalso; have e : t.succ.val - 1 = t.val := by show t.val + 1 - 1 = t.val; omega
      omega
    · iexact Hrest
  isplitl [Ho]; · iexact Ho
  isplitl [H0]; · iexact H0
  isplitl [H1]; · iexact H1
  isplitl [H2]; · iexact H2
  isplitl [H3]; · iexact H3
  unfold out3; iexact H4

/-- The body obligation at every point: the output window is idle and not written back at the even positions, live at the odd. -/
theorem body_obligation3 (c : Dev nD) : BodyObligation (dat3 (F := F) V c) (defs₀ (F := F)) Variants.none () Set.univ := fun t => by
  rw [bigSep_W3, bigSep_W3]
  by_cases h : t.val % 2 = 0
  · have hi : cfg3.idle 4 (cfg3.grid.coords t) = true := (idle3_4 t).mpr h
    have hf : (cfg3.win 4).flush t = false := Bool.eq_false_iff.mpr fun hh => by have := (flush3_4 t).mp hh; omega
    refine (sound_body3_A V c t h).trans (wp_mono _ _ _ fun _ => ?_)
    refine sep_mono .rfl (sep_mono .rfl (sep_mono .rfl (sep_mono .rfl (sep_mono .rfl (sep_mono .rfl ?_)))))
    exact Entails.of_eq ((dat3 V c).leavesExact_idle 4 t hi hf).symm
  · have hi : cfg3.idle 4 (cfg3.grid.coords t) = false := Bool.eq_false_iff.mpr fun hh => h ((idle3_4 t).mp hh)
    refine (sound_body3_B V c t h).trans (wp_mono _ _ _ fun _ => ?_)
    refine sep_mono .rfl (sep_mono .rfl (sep_mono .rfl (sep_mono .rfl (sep_mono .rfl (sep_mono .rfl ?_)))))
    have e : (dat3 V c).leavesExact 4 t = owns (c : Thread nD τ) (st3_4 t) fullShare ((dat3 V c).after 4 t) := by
      unfold Dat.leavesExact; rw [hi]
    exact Entails.of_eq e.symm

end Region3

end Cert.KernelIdeal.Hand

end
-- ==== Proof.KI.Run.lean ====
/-
  The run of @main: four host stretches (a reshape of the bias; the side-by-side joins feeding the later layers) and four
  kernel regions, from the launch to the return. Between segments every unscoped buffer is held at a named valuation;
  a region changes only its result's array (to what its write-backs leave) and a host stretch only what it computes, so
  every argument array ends as launched and the result array ends at what the last region's write-backs leave.
-/
import proofs.«108305_j59700045414953_1_alg».proof.Proof.KI.R0
import proofs.«108305_j59700045414953_1_alg».proof.Proof.KI.R1
import proofs.«108305_j59700045414953_1_alg».proof.Proof.KI.R2
import proofs.«108305_j59700045414953_1_alg».proof.Proof.KI.R3
import proofs.«108305_j59700045414953_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (RegionSeg)

variable (m : (ℓ : Loc nD τ sig) → Buf (Elt F) ℓ)

/-! # The run: @main's eight segments from the launch to the return

## The buffer contents at each segment boundary: a fold through @main -/

/-- Core `c`'s buffers at launch. -/
abbrev W0 : Dev nD → Valuation τ sig (Elt F) := fun c b => m (c, b)

/-- After the host stretch before region 0 (region 0's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- Region 0 changes only its result's buffer: an input window's array is never written, every other buffer bypasses it. -/
theorem W2_keep (c : Dev nD) (b : Ref sig .tc) (hb : b ≠ main_v1) :
    W2 m c (Proc.devRef .tc b) = W1 m c (Proc.devRef .tc b) := by
  by_cases h : ∃ w, Pipeline.arrRef spec0 w = b
  · obtain ⟨w, rfl⟩ := h
    have hw : (cfg0.win w).isOut = false := by
      fin_cases w
      · rfl
      · rfl
      · rfl
      · rfl
      · exact absurd rfl hb
    exact (W2_arr m c w).trans (((dat0 (V1 m) c).arrAt_in w hw _).trans (A_eq0 (V1 m) c w))
  · exact W2_of_ne m c b fun w e => h ⟨w, e⟩

/-- After the host stretch before region 1 (region 1's entry). -/
abbrev W3 : Dev nD → Valuation τ sig (Elt F) := fun c => StableHlo.after hostOps1 (W2 m c)
/-- The same read at the TensorCore's references. -/
abbrev V3 : (c : Dev nD) → (b : Ref sig .tc) → Buf (Elt F) ((c : Thread nD τ).loc b) := fun c b => W3 m c b
/-- At region 1's exit: its arrays at what the pipeline leaves, every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- Region 1 changes only its result's buffer: an input window's array is never written, every other buffer bypasses it. -/
theorem W4_keep (c : Dev nD) (b : Ref sig .tc) (hb : b ≠ main_v4) :
    W4 m c (Proc.devRef .tc b) = W3 m c (Proc.devRef .tc b) := by
  by_cases h : ∃ w, Pipeline.arrRef spec1 w = b
  · obtain ⟨w, rfl⟩ := h
    have hw : (cfg1.win w).isOut = false := by
      fin_cases w
      · rfl
      · rfl
      · rfl
      · rfl
      · exact absurd rfl hb
    exact (W4_arr m c w).trans (((dat1 (V3 m) c).arrAt_in w hw _).trans (A_eq1 (V3 m) c w))
  · exact W4_of_ne m c b fun w e => h ⟨w, e⟩

/-- After the host stretch before region 2 (region 2's entry). -/
abbrev W5 : Dev nD → Valuation τ sig (Elt F) := fun c => StableHlo.after hostOps2 (W4 m c)
/-- The same read at the TensorCore's references. -/
abbrev V5 : (c : Dev nD) → (b : Ref sig .tc) → Buf (Elt F) ((c : Thread nD τ).loc b) := fun c b => W5 m c b
/-- At region 2's exit: its arrays at what the pipeline leaves, every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)
/-- Region 2 changes only its result's buffer: an input window's array is never written, every other buffer bypasses it. -/
theorem W6_keep (c : Dev nD) (b : Ref sig .tc) (hb : b ≠ main_v7) :
    W6 m c (Proc.devRef .tc b) = W5 m c (Proc.devRef .tc b) := by
  by_cases h : ∃ w, Pipeline.arrRef spec2 w = b
  · obtain ⟨w, rfl⟩ := h
    have hw : (cfg2.win w).isOut = false := by
      fin_cases w
      · rfl
      · rfl
      · rfl
      · rfl
      · exact absurd rfl hb
    exact (W6_arr m c w).trans (((dat2 (V5 m) c).arrAt_in w hw _).trans (A_eq2 (V5 m) c w))
  · exact W6_of_ne m c b fun w e => h ⟨w, e⟩

/-- After the host stretch before region 3 (region 3's entry). -/
abbrev W7 : Dev nD → Valuation τ sig (Elt F) := fun c => StableHlo.after hostOps3 (W6 m c)
/-- The same read at the TensorCore's references. -/
abbrev V7 : (c : Dev nD) → (b : Ref sig .tc) → Buf (Elt F) ((c : Thread nD τ).loc b) := fun c b => W7 m c b
/-- At region 3's exit: its arrays at what the pipeline leaves, every other buffer as entered. -/
def W8 (c : Dev nD) : Valuation τ sig (Elt F) :=
  Pipeline.withArrays spec3 c (W7 m c) fun w => (dat3 (V7 m) c).arrAt w cfg3.N
theorem W8_arr (c : Dev nD) (w : Fin cfg3.W) :
    W8 m c (Proc.devRef .tc (Pipeline.arrRef spec3 w)) = (dat3 (V7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev V8 : (c : Dev nD) → (b : Ref sig .tc) → Buf (Elt F) ((c : Thread nD τ).loc b) := fun c b => W8 m c b
theorem hF3 (c : Dev nD) (w : Fin cfg3.W) : (dat3 (V7 m) c).arrAt w cfg3.N = V8 m c (Pipeline.arrRef spec3 w) :=
  (W8_arr m c w).symm
theorem hrest3 (c : Dev nD) : ∀ b, b ∉ Finset.univ.image (Pipeline.arrRef spec3) → V8 m c b = V7 m c b :=
  fun b hb => W8_of_ne m c b fun w e => hb (Finset.mem_image.mpr ⟨w, Finset.mem_univ _, e⟩)
/-- Region 3 changes only its result's buffer: an input window's array is never written, every other buffer bypasses it. -/
theorem W8_keep (c : Dev nD) (b : Ref sig .tc) (hb : b ≠ main_v10) :
    W8 m c (Proc.devRef .tc b) = W7 m c (Proc.devRef .tc b) := by
  by_cases h : ∃ w, Pipeline.arrRef spec3 w = b
  · obtain ⟨w, rfl⟩ := h
    have hw : (cfg3.win w).isOut = false := by
      fin_cases w
      · rfl
      · rfl
      · rfl
      · rfl
      · exact absurd rfl hb
    exact (W8_arr m c w).trans (((dat3 (V7 m) c).arrAt_in w hw _).trans (A_eq3 (V7 m) c w))
  · exact W8_of_ne m c b fun w e => h ⟨w, e⟩

/-- A buffer no host stretch writes and no region produces reaches the end as launched. -/
theorem W8_kept (c : Dev nD) (b : Ref sig .tc)
    (hb : b ∉ ([main_v0, main_v1, main_v2, main_v3, main_v4, main_v5, main_v6, main_v7, main_v8, main_v9, main_v10] : List (Ref sig .tc))) :
    W8 m c (Proc.devRef .tc b) = m ((c : Thread nD τ).loc b) := by
  simp only [List.mem_cons, List.mem_nil_iff, not_or, or_false] at hb
  obtain ⟨h0, h1, h2, h3, h4, h5, h6, h7, h8, h9, h10⟩ := hb
  calc W8 m c (Proc.devRef .tc b)
    _ = W7 m c (Proc.devRef .tc b) := W8_keep m c b h10
    _ = W6 m c (Proc.devRef .tc b) := StableHlo.after_of_writes_sub hostOps3 _ hostOps3_writes (by simp only [hostOps3_W, List.mem_cons, List.mem_nil_iff, not_or, or_false]; exact ⟨h8, h9⟩)
    _ = W5 m c (Proc.devRef .tc b) := W6_keep m c b h7
    _ = W4 m c (Proc.devRef .tc b) := StableHlo.after_of_writes_sub hostOps2 _ hostOps2_writes (by simp only [hostOps2_W, List.mem_cons, List.mem_nil_iff, not_or, or_false]; exact ⟨h5, h6⟩)
    _ = W3 m c (Proc.devRef .tc b) := W4_keep m c b h4
    _ = W2 m c (Proc.devRef .tc b) := StableHlo.after_of_writes_sub hostOps1 _ hostOps1_writes (by simp only [hostOps1_W, List.mem_cons, List.mem_nil_iff, not_or, or_false]; exact ⟨h2, h3⟩)
    _ = W1 m c (Proc.devRef .tc b) := W2_keep m c b h1
    _ = W0 m c (Proc.devRef .tc b) := StableHlo.after_of_writes_sub hostOps0 _ hostOps0_writes (by simp only [hostOps0_W, List.mem_cons, List.mem_nil_iff, not_or, or_false]; exact h0)
    _ = m ((c : Thread nD τ).loc b) := rfl

/-! ## The proof data family and the thread state -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register at some state. -/
abbrev Tₙ (c : Dev nD) : sProp 𝕄 := iprop(StableHlo.held (c : Thread nD τ) (Pipeline.ucRefs τ sig) (W8 m c) ∗ ∃ r, prngReg c r)

/-! ## The regions as segments -/

set_option backward.isDefEq.respectTransparency.types false in
/-- Region 0 over the thread state: entered from every unscoped buffer at `W1`, left at `W2`. Its arrays are
    split out of the unscoped buffers and put back at the exit contents; the scratch accumulator goes into the invariant
    out of the scoped rest and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X _ := BI.emp
  Y _ := BI.emp
  Z c := iprop(Pipeline.unscopedRest (Ix := Unit) (Name := ℕ) (U := UR sig nD τ) (Lvl := ℕ) spec0 c (V1 m c) ∗ ∃ r, prngReg c r)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 0 c).Φ 0 = Φ0 c 0 from rfl]; unfold Φ0
    have hs : (Pipeline.scopedRest (Ix := Unit) (Name := ℕ) (U := UR sig nD τ) (Lvl := ℕ) (Val := Elt F) (Pipeline.pin (pcfgs (F := F)) adm 0).spec c : sProp 𝕄) = _ :=
      scopedRest0_split c
    rw [hs]
    iintro ⟨-, -, ⟨%f, Hf⟩, Hr⟩
    isplitl [Hf]
    · iexists f; rw [owns_whole]; iexact Hf
    iexact Hr
  hout c := by
    rw [Pipeline.ownSems0_none, show (pdats m 0 c).Φ (Fin.last _) = Φ0 c (Fin.last _) from rfl]; unfold Φ0
    have hs : (Pipeline.scopedRest (Ix := Unit) (Name := ℕ) (U := UR sig nD τ) (Lvl := ℕ) (Val := Elt F) (Pipeline.pin (pcfgs (F := F)) adm 0).spec c : sProp 𝕄) = _ :=
      scopedRest0_split c
    rw [hs]
    iintro ⟨⟨%s, Hs⟩, Hr⟩
    isplitr; · iempintro
    isplitr; · iempintro
    isplitl [Hs]
    · iexists s; rw [← owns_whole]; iexact Hs
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are
    split out of the unscoped buffers and put back at the exit contents; the scratch accumulator goes into the invariant
    out of the scoped rest and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X _ := BI.emp
  Y _ := BI.emp
  Z c := iprop(Pipeline.unscopedRest (Ix := Unit) (Name := ℕ) (U := UR sig nD τ) (Lvl := ℕ) spec1 c (V3 m c) ∗ ∃ r, prngReg c r)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 1 c).Φ 0 = Φ1 (V3 m) c 0 from rfl]; unfold Φ1
    have hs : (Pipeline.scopedRest (Ix := Unit) (Name := ℕ) (U := UR sig nD τ) (Lvl := ℕ) (Val := Elt F) (Pipeline.pin (pcfgs (F := F)) adm 1).spec c : sProp 𝕄) = _ :=
      scopedRest1_split c
    rw [hs]
    iintro ⟨-, -, ⟨%f, Hf⟩, Hr⟩
    isplitl [Hf]
    · iexists f; isplitr; · ipureintro; exact fun _ h => absurd h (lt_irrefl 0)
      rw [owns_whole]; iexact Hf
    iexact Hr
  hout c := by
    rw [Pipeline.ownSems0_none, show (pdats m 1 c).Φ (Fin.last _) = Φ1 (V3 m) c (Fin.last _) from rfl]; unfold Φ1
    have hs : (Pipeline.scopedRest (Ix := Unit) (Name := ℕ) (U := UR sig nD τ) (Lvl := ℕ) (Val := Elt F) (Pipeline.pin (pcfgs (F := F)) adm 1).spec c : sProp 𝕄) = _ :=
      scopedRest1_split c
    rw [hs]
    iintro ⟨⟨%s, -, Hs⟩, Hr⟩
    isplitr; · iempintro
    isplitr; · iempintro
    isplitl [Hs]
    · iexists s; rw [← owns_whole]; iexact Hs
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are
    split out of the unscoped buffers and put back at the exit contents; the scratch accumulator goes into the invariant
    out of the scoped rest and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X _ := BI.emp
  Y _ := BI.emp
  Z c := iprop(Pipeline.unscopedRest (Ix := Unit) (Name := ℕ) (U := UR sig nD τ) (Lvl := ℕ) spec2 c (V5 m c) ∗ ∃ r, prngReg c r)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 2 c).Φ 0 = Φ2 (V5 m) c 0 from rfl]; unfold Φ2
    have hs : (Pipeline.scopedRest (Ix := Unit) (Name := ℕ) (U := UR sig nD τ) (Lvl := ℕ) (Val := Elt F) (Pipeline.pin (pcfgs (F := F)) adm 2).spec c : sProp 𝕄) = _ :=
      scopedRest2_split c
    rw [hs]
    iintro ⟨-, -, ⟨%f, Hf⟩, Hr⟩
    isplitl [Hf]
    · iexists f; isplitr; · ipureintro; exact fun _ h => absurd h (lt_irrefl 0)
      rw [owns_whole]; iexact Hf
    iexact Hr
  hout c := by
    rw [Pipeline.ownSems0_none, show (pdats m 2 c).Φ (Fin.last _) = Φ2 (V5 m) c (Fin.last _) from rfl]; unfold Φ2
    have hs : (Pipeline.scopedRest (Ix := Unit) (Name := ℕ) (U := UR sig nD τ) (Lvl := ℕ) (Val := Elt F) (Pipeline.pin (pcfgs (F := F)) adm 2).spec c : sProp 𝕄) = _ :=
      scopedRest2_split c
    rw [hs]
    iintro ⟨⟨%s, -, Hs⟩, Hr⟩
    isplitr; · iempintro
    isplitr; · iempintro
    isplitl [Hs]
    · iexists s; rw [← owns_whole]; iexact Hs
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

set_option backward.isDefEq.respectTransparency.types false in
/-- Region 3 over the thread state: entered from every unscoped buffer at `W7`, left at `W8`. Its arrays are
    split out of the unscoped buffers and put back at the exit contents; the scratch accumulator goes into the invariant
    out of the scoped rest and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(Tₙ m c ∗ ∃ W, owes (c : Thread nD τ) (0 : CellTallies nD τ sig Unit) W)
  X _ := BI.emp
  Y _ := BI.emp
  Z c := iprop(Pipeline.unscopedRest (Ix := Unit) (Name := ℕ) (U := UR sig nD τ) (Lvl := ℕ) spec3 c (V7 m c) ∗ ∃ r, prngReg c r)
  hentry c := by
    rw [Pipeline.ownSems0_none]
    have hsplit := Pipeline.arrays_of_unscopedBufs (p := 3) (pcfgs (F := F)) adm (pdats m) launch3.win launch3.arr_whole c
      ((pdats m 3 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 3 c).Φ 0 = Φ3 (V7 m) c 0 from rfl]; unfold Φ3
    have hs : (Pipeline.scopedRest (Ix := Unit) (Name := ℕ) (U := UR sig nD τ) (Lvl := ℕ) (Val := Elt F) (Pipeline.pin (pcfgs (F := F)) adm 3).spec c : sProp 𝕄) = _ :=
      scopedRest3_split c
    rw [hs]
    iintro ⟨-, -, ⟨%f, Hf⟩, Hr⟩
    isplitl [Hf]
    · iexists f; isplitr; · ipureintro; exact fun _ h => absurd h (lt_irrefl 0)
      rw [owns_whole]; iexact Hf
    iexact Hr
  hout c := by
    rw [Pipeline.ownSems0_none, show (pdats m 3 c).Φ (Fin.last _) = Φ3 (V7 m) c (Fin.last _) from rfl]; unfold Φ3
    have hs : (Pipeline.scopedRest (Ix := Unit) (Name := ℕ) (U := UR sig nD τ) (Lvl := ℕ) (Val := Elt F) (Pipeline.pin (pcfgs (F := F)) adm 3).spec c : sProp 𝕄) = _ :=
      scopedRest3_split c
    rw [hs]
    iintro ⟨⟨%s, -, Hs⟩, Hr⟩
    isplitr; · iempintro
    isplitr; · iempintro
    isplitl [Hs]
    · iexists s; rw [← owns_whole]; iexact Hs
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V7 m c) (V8 m c) ((pdats m 3 c).arrAt · cfg3.N) (hF3 m c) (hrest3 m c)
    rw [Pipeline.unscopedBufs_held] at hjoin
    iintro ⟨Ha, HO, -, Hrest, Hp⟩
    imodintro
    isplitl [Ha Hrest Hp]
    · isplitl [Ha Hrest]
      · iapply hjoin; isplitl [Ha] <;> iassumption
      iexact Hp
    unfold Pipeline.Dat.owesAt Pipeline.owesWithin
    icases HO with ⟨%W, -, HO⟩; iexists W; iexact HO

/-! ## @main as segments, and the launch -/

/-- @main's eight segments in order: a host segment per stretch from its boundary's contents, a region per pallas_call. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m) ]
/-- @main is the run of the segments. -/
theorem main_run (c : Dev nD) : main (F := F) c = Pipeline.Seg.run (segs m) := (main_chain c).trans (by chain_rfl)

set_option backward.isDefEq.respectTransparency.types false in
/-- THE RUN. At the compiled mesh, from any memory with zero counters, every weakly fair execution of @main terminates,
    nothing faulting, and every final state has every unscoped buffer at the last boundary's contents `W8`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

/-- The frame: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(h c _ (mem_uc main_arg0 (by decide))).trans (W8_kept m c main_arg0 (by decide)),
    (h c _ (mem_uc main_arg1 (by decide))).trans (W8_kept m c main_arg1 (by decide)),
    (h c _ (mem_uc main_arg2 (by decide))).trans (W8_kept m c main_arg2 (by decide)),
    (h c _ (mem_uc main_arg3 (by decide))).trans (W8_kept m c main_arg3 (by decide)),
    (h c _ (mem_uc main_arg4 (by decide))).trans (W8_kept m c main_arg4 (by decide)),
    (h c _ (mem_uc main_arg5 (by decide))).trans (W8_kept m c main_arg5 (by decide)),
    (h c _ (mem_uc main_arg6 (by decide))).trans (W8_kept m c main_arg6 (by decide)),
    (h c _ (mem_uc main_arg7 (by decide))).trans (W8_kept m c main_arg7 (by decide)),
    (h c _ (mem_uc main_arg8 (by decide))).trans (W8_kept m c main_arg8 (by decide)),
    (h c _ (mem_uc main_arg9 (by decide))).trans (W8_kept m c main_arg9 (by decide)),
    (h c _ (mem_uc main_arg10 (by decide))).trans (W8_kept m c main_arg10 (by decide)),
    (h c _ (mem_uc main_arg11 (by decide))).trans (W8_kept m c main_arg11 (by decide)),
    (h c _ (mem_uc main_arg12 (by decide))).trans (W8_kept m c main_arg12 (by decide))⟩) (run_all m ρ)

/-- The run with the result named: the result array ends at what region 3's write-backs leave, the arguments as launched. -/
theorem run_result (ρ : Dev nD → PrngReg) : θ_run defs (onTc (τ := τ) (main (F := F))) ⟨m, fun _ => 0, ρ⟩ (fun r => ∀ c : Dev nD,
      r.2.mem ((c.tc : Thread nD τ).loc main_v10) = (dat3 (V7 m) c).arrAt 4 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(h c _ (mem_uc main_v10 (by decide))).trans (W8_arr m c 4),
    (h c _ (mem_uc main_arg0 (by decide))).trans (W8_kept m c main_arg0 (by decide)),
    (h c _ (mem_uc main_arg1 (by decide))).trans (W8_kept m c main_arg1 (by decide)),
    (h c _ (mem_uc main_arg2 (by decide))).trans (W8_kept m c main_arg2 (by decide)),
    (h c _ (mem_uc main_arg3 (by decide))).trans (W8_kept m c main_arg3 (by decide)),
    (h c _ (mem_uc main_arg4 (by decide))).trans (W8_kept m c main_arg4 (by decide)),
    (h c _ (mem_uc main_arg5 (by decide))).trans (W8_kept m c main_arg5 (by decide)),
    (h c _ (mem_uc main_arg6 (by decide))).trans (W8_kept m c main_arg6 (by decide)),
    (h c _ (mem_uc main_arg7 (by decide))).trans (W8_kept m c main_arg7 (by decide)),
    (h c _ (mem_uc main_arg8 (by decide))).trans (W8_kept m c main_arg8 (by decide)),
    (h c _ (mem_uc main_arg9 (by decide))).trans (W8_kept m c main_arg9 (by decide)),
    (h c _ (mem_uc main_arg10 (by decide))).trans (W8_kept m c main_arg10 (by decide)),
    (h c _ (mem_uc main_arg11 (by decide))).trans (W8_kept m c main_arg11 (by decide)),
    (h c _ (mem_uc main_arg12 (by decide))).trans (W8_kept m c main_arg12 (by decide))⟩) (run_all m ρ)

end Cert.KernelIdeal.Hand

end
-- ==== Proof.LayerSpec.lean ====
/-
  One masked dense layer with a ReLU, as a function of whole arrays over the extended reals: for an input of 64 rows and
  K features, a weight and a 0/1 mask of 4096 rows and K columns, and a bias of 4096 entries, entry (p, q) of the
  result is  max (Σ_k inp[p,k] · (W[q,k] · M[q,k]) + b[q]) 0.  Both programs compute four such layers, the later ones on
  the side-by-side joins of earlier results.
-/
import Idealize.ShloMosaic.Lib.ValueIdx
import Idealize.ShloMosaic.PureOps.Ideal

noncomputable section

namespace Cert.Layer

open Idealize.ShloMosaic Idealize.ShloMosaic.ValueIdx

/-- Entry (p, q) of the layer. -/
def entry {K : ℕ} (inp : (⟨2, ![64, K]⟩ : Shape).Idx → EReal) (W M : (⟨2, ![4096, K]⟩ : Shape).Idx → EReal)
    (b : (⟨1, ![4096]⟩ : Shape).Idx → EReal) (p : Fin 64) (q : Fin 4096) : EReal :=
  max ((∑ k : Fin K, inp (ix2 p k) * (W (ix2 q k) * M (ix2 q k))) + b (ix1 q)) 0

/-- The layer as a whole array. -/
def layer {K : ℕ} (inp : (⟨2, ![64, K]⟩ : Shape).Idx → EReal) (W M : (⟨2, ![4096, K]⟩ : Shape).Idx → EReal)
    (b : (⟨1, ![4096]⟩ : Shape).Idx → EReal) : (⟨2, ![64, 4096]⟩ : Shape).Idx → EReal :=
  fun i => entry inp W M b ⟨(i 0).val, idx2_lt0 i⟩ ⟨(i 1).val, idx2_lt1 i⟩

theorem layer_ix2 {K : ℕ} (inp : (⟨2, ![64, K]⟩ : Shape).Idx → EReal) (W M : (⟨2, ![4096, K]⟩ : Shape).Idx → EReal)
    (b : (⟨1, ![4096]⟩ : Shape).Idx → EReal) (p : Fin 64) (q : Fin 4096) : layer inp W M b (ix2 p q) = entry inp W M b p q := rfl

/-- A sum over 8192 features is the sum over the first 4096 plus the sum over the last 4096. -/
theorem sum_halves {α : Type*} [AddCommMonoid α] (f : Fin 8192 → α) :
    ∑ k : Fin 8192, f k = (∑ k : Fin 4096, f ⟨k.val, by omega⟩) + ∑ k : Fin 4096, f ⟨4096 + k.val, by omega⟩ := by
  exact Fin.sum_univ_add (a := 4096) (b := 4096) (f : Fin (4096 + 4096) → α)

end Cert.Layer

end
-- ==== Proof.NetSpec.lean ====
/-
  The whole network as a function of the argument arrays over the extended reals: four masked dense layers with ReLU,
  the first on the input, each later one on the side-by-side join of two earlier results (the join is a parameter: both
  programs use the same one).
-/
import proofs.«108305_j59700045414953_1_alg».proof.Proof.LayerSpec

noncomputable section

namespace Cert.Layer

open Idealize.ShloMosaic Idealize.ShloMosaic.ValueIdx

/-- An array of 64 rows and 4096 columns, of 64 rows and 8192 columns, a weight or mask of 4096 rows, a bias. -/
abbrev A4 : Type := (⟨2, ![64, 4096]⟩ : Shape).Idx → EReal
abbrev A8 : Type := (⟨2, ![64, 8192]⟩ : Shape).Idx → EReal
abbrev Wt (K : ℕ) : Type := (⟨2, ![4096, K]⟩ : Shape).Idx → EReal
abbrev Bs : Type := (⟨1, ![4096]⟩ : Shape).Idx → EReal

/-- The network: layer 1 on the input; layer 2 on the input joined with layer 1's result; layer 3 on layer 1's result
    joined with layer 2's; layer 4 on layer 2's result joined with layer 3's. -/
def net (cat : A4 → A4 → A8) (x : A4) (W1 : Wt 4096) (b1 : Bs) (M1 : Wt 4096) (W2 : Wt 8192) (b2 : Bs) (M2 : Wt 8192)
    (W3 : Wt 8192) (b3 : Bs) (M3 : Wt 8192) (W4 : Wt 8192) (b4 : Bs) (M4 : Wt 8192) : A4 :=
  layer (cat (layer (cat x (layer x W1 M1 b1)) W2 M2 b2)
      (layer (cat (layer x W1 M1 b1) (layer (cat x (layer x W1 M1 b1)) W2 M2 b2)) W3 M3 b3)) W4 M4 b4

end Cert.Layer

end
-- ==== Proof.PayEntry.lean ====
/-
  The kernel's arithmetic at one entry of a block of 512 output columns, over the extended reals. A grid step of the
  first layer computes  max (Σ_k x[p,k] · (w[q,k] · m[q,k]) + b[0,q]) 0  at entry (p, q) of its block; a pair of grid steps
  of a later layer accumulates the two halves of the contraction and computes
  max ((Σ_k x0[p,k] · (w0[q,k] · m0[q,k]) + Σ_k x1[p,k] · (w1[q,k] · m1[q,k])) + b[0,q]) 0.
-/
import proofs.«108305_j59700045414953_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayEntry

open Cert.KernelIdeal Cert.KernelIdeal.Gen Idealize.ShloMosaic Idealize.ShloMosaic.ValueIdx

/-! ## The block product at an entry -/

/-- The left operand's index of the block product at output (p, q) and contraction index k has row p … -/
theorem lhs_0 (i : S64x512.Idx) (c : Cert.KernelIdeal.dot_S64x4096_S512x4096_S64x512_1_1_0_0_n_n.contr.Idx) :
    (Cert.KernelIdeal.dot_S64x4096_S512x4096_S64x512_1_1_0_0_n_n.lhsIdx i c 0).val = (i 0).val := by
  unfold DotDims.lhsIdx
  rw [dif_neg (show ¬(0 : Fin S64x4096.rank) ∈ Cert.KernelIdeal.dot_S64x4096_S512x4096_S64x512_1_1_0_0_n_n.lhsBatch by decide),
    dif_pos (show (0 : Fin S64x4096.rank) ∈ Cert.KernelIdeal.dot_S64x4096_S512x4096_S64x512_1_1_0_0_n_n.lhsNonContracting by decide)]
  rfl
/-- … and column k. -/
theorem lhs_1 (i : S64x512.Idx) (c : Cert.KernelIdeal.dot_S64x4096_S512x4096_S64x512_1_1_0_0_n_n.contr.Idx) :
    (Cert.KernelIdeal.dot_S64x4096_S512x4096_S64x512_1_1_0_0_n_n.lhsIdx i c 1).val = (c ⟨0, by decide⟩).val :=
  Cert.KernelIdeal.dot_S64x4096_S512x4096_S64x512_1_1_0_0_n_n.lhsIdx_val_of_single rfl i c
/-- The right operand's index has row q … -/
theorem rhs_0 (i : S64x512.Idx) (c : Cert.KernelIdeal.dot_S64x4096_S512x4096_S64x512_1_1_0_0_n_n.contr.Idx) :
    (Cert.KernelIdeal.dot_S64x4096_S512x4096_S64x512_1_1_0_0_n_n.rhsIdx i c 0).val = (i 1).val := by
  unfold DotDims.rhsIdx
  rw [dif_neg (show ¬(0 : Fin S512x4096.rank) ∈ Cert.KernelIdeal.dot_S64x4096_S512x4096_S64x512_1_1_0_0_n_n.rhsBatch by decide),
    dif_pos (show (0 : Fin S512x4096.rank) ∈ Cert.KernelIdeal.dot_S64x4096_S512x4096_S64x512_1_1_0_0_n_n.rhsNonContracting by decide)]
  rfl
/-- … and column k. -/
theorem rhs_1 (i : S64x512.Idx) (c : Cert.KernelIdeal.dot_S64x4096_S512x4096_S64x512_1_1_0_0_n_n.contr.Idx) :
    (Cert.KernelIdeal.dot_S64x4096_S512x4096_S64x512_1_1_0_0_n_n.rhsIdx i c 1).val = (c ⟨0, by decide⟩).val :=
  Cert.KernelIdeal.dot_S64x4096_S512x4096_S64x512_1_1_0_0_n_n.rhsIdx_val_of_single rfl i c

/-- The block product into the zero accumulator, at entry (p, q): Σ_k l[p,k] · r[q,k]. -/
theorem matmul_zero_entry {φ₁ φ₂ : FTy} (l : FVec Ideal S64x4096 φ₁) (r : FVec Ideal S512x4096 φ₂) (p : Fin 64) (q : Fin 512) :
    matmul (F := Ideal) Cert.KernelIdeal.dot_S64x4096_S512x4096_S64x512_1_1_0_0_n_n none l r (constant S64x512 .f32 0x00000000#32) (ix2 p q)
      = ∑ k : Fin 4096, l (ix2 p k) * r (ix2 q k) := by
  show FloatOps.matmul Cert.KernelIdeal.dot_S64x4096_S512x4096_S64x512_1_1_0_0_n_n none l r (constant S64x512 .f32 0x00000000#32) (ix2 p q) = _
  rw [Ideal.matmul_constant_zero_apply,
    ← Equiv.sum_comp (contrEquiv1 Cert.KernelIdeal.dot_S64x4096_S512x4096_S64x512_1_1_0_0_n_n 4096 rfl rfl).symm]
  refine Finset.sum_congr rfl fun k _ => ?_
  have hk := contrEquiv1_symm_val Cert.KernelIdeal.dot_S64x4096_S512x4096_S64x512_1_1_0_0_n_n 4096 rfl rfl k
  have el : Cert.KernelIdeal.dot_S64x4096_S512x4096_S64x512_1_1_0_0_n_n.lhsIdx (ix2 p q)
      ((contrEquiv1 Cert.KernelIdeal.dot_S64x4096_S512x4096_S64x512_1_1_0_0_n_n 4096 rfl rfl).symm k) = ix2 p k :=
    funext fun a => Fin.ext (by
      match a with
      | ⟨0, _⟩ => exact lhs_0 _ _
      | ⟨1, _⟩ => exact (lhs_1 _ _).trans hk)
  have er : Cert.KernelIdeal.dot_S64x4096_S512x4096_S64x512_1_1_0_0_n_n.rhsIdx (ix2 p q)
      ((contrEquiv1 Cert.KernelIdeal.dot_S64x4096_S512x4096_S64x512_1_1_0_0_n_n 4096 rfl rfl).symm k) = ix2 q k :=
    funext fun a => Fin.ext (by
      match a with
      | ⟨0, _⟩ => exact rhs_0 _ _
      | ⟨1, _⟩ => exact (rhs_1 _ _).trans hk)
  rw [el, er]

/-! ## The three payloads of a grid step, at an entry -/

/-- The scalar zero of the program is the extended real 0. -/
theorem scalar_zero : Scalar.ofBits (F := Ideal) .f32 0x00000000#32 = (0 : EReal) := Ideal.ofBits_zero_f32

/-- The fresh accumulator is 0 at every entry. -/
theorem k0_pay1_apply (i : S64x512.Idx) : k0_pay1 (F := Ideal) i = (0 : EReal) := by
  unfold k0_pay1
  rw [shapeCast_self]
  exact scalar_zero

/-- One accumulation step adds Σ_k x[p,k] · (w[q,k] · m[q,k]) to the accumulator's entry (p, q). -/
theorem k0_pay2_apply (w m : FVec Ideal S512x4096 .f32) (x : FVec Ideal S64x4096 .f32) (acc : FVec Ideal S64x512 .f32)
    (p : Fin 64) (q : Fin 512) :
    k0_pay2 (F := Ideal) w m x acc (ix2 p q)
      = acc (ix2 p q) + ∑ k : Fin 4096, x (ix2 p k) * (w (ix2 q k) * m (ix2 q k)) := by
  unfold k0_pay2
  rw [shapeCast_self]
  refine (addf_apply _ _ _).trans ?_
  rw [matmul_zero_entry]
  rfl

/-- The last step adds the bias row and takes the maximum with 0. -/
theorem k0_pay3_apply (acc : FVec Ideal S64x512 .f32) (b : FVec Ideal S1x512 .f32) (p : Fin 64) (q : Fin 512) :
    k0_pay3 (F := Ideal) acc b (ix2 p q) = max (acc (ix2 p q) + b (ix2 0 q)) 0 := by
  unfold k0_pay3
  rw [shapeCast_self]
  refine (maximumf_apply _ _ _).trans ?_
  rw [addf_apply, broadcastTo_1b_ab_apply, broadcast_apply, scalar_zero]

/-- A grid step of the first layer at entry (p, q). -/
theorem pay0_entry (x : FVec Ideal S64x4096 .f32) (w m : FVec Ideal S512x4096 .f32) (b : FVec Ideal S1x512 .f32) (p : Fin 64) (q : Fin 512) :
    k0_pay3 (F := Ideal) (k0_pay2 (F := Ideal) w m x (k0_pay1 (F := Ideal))) b (ix2 p q)
      = max ((∑ k : Fin 4096, x (ix2 p k) * (w (ix2 q k) * m (ix2 q k))) + b (ix2 0 q)) 0 := by
  rw [k0_pay3_apply, k0_pay2_apply, k0_pay1_apply, zero_add]

/-! ## Layer 2: two accumulation steps -/

/-- The fresh accumulator is 0 at every entry. -/
theorem k1_pay1_apply (i : S64x512.Idx) : k1_pay1 (F := Ideal) i = (0 : EReal) := by
  unfold k1_pay1
  rw [shapeCast_self]
  exact scalar_zero

/-- One accumulation step adds Σ_k x[p,k] · (w[q,k] · m[q,k]) to the accumulator's entry (p, q). -/
theorem k1_pay2_apply (w m : FVec Ideal S512x4096 .f32) (x : FVec Ideal S64x4096 .f32) (acc : FVec Ideal S64x512 .f32)
    (p : Fin 64) (q : Fin 512) :
    k1_pay2 (F := Ideal) w m x acc (ix2 p q)
      = acc (ix2 p q) + ∑ k : Fin 4096, x (ix2 p k) * (w (ix2 q k) * m (ix2 q k)) := by
  unfold k1_pay2
  rw [shapeCast_self, shapeCast_self]
  refine (addf_apply _ _ _).trans ?_
  rw [matmul_zero_entry]
  rfl

/-- The last step adds the bias row and takes the maximum with 0. -/
theorem k1_pay3_apply (acc : FVec Ideal S64x512 .f32) (b : FVec Ideal S1x512 .f32) (p : Fin 64) (q : Fin 512) :
    k1_pay3 (F := Ideal) acc b (ix2 p q) = max (acc (ix2 p q) + b (ix2 0 q)) 0 := by
  unfold k1_pay3
  rw [shapeCast_self]
  refine (maximumf_apply _ _ _).trans ?_
  rw [addf_apply, broadcastTo_1b_ab_apply, broadcast_apply, scalar_zero]

/-- The two grid steps of one block of layer 2 at entry (p, q): the two halves of the contraction, the bias, the maximum with 0. -/
theorem pay1_entry (x0 x1 : FVec Ideal S64x4096 .f32) (w0 m0 w1 m1 : FVec Ideal S512x4096 .f32) (b : FVec Ideal S1x512 .f32)
    (p : Fin 64) (q : Fin 512) :
    k1_pay3 (F := Ideal) (k1_pay2 (F := Ideal) w1 m1 x1 (k1_pay2 (F := Ideal) w0 m0 x0 (k1_pay1 (F := Ideal)))) b (ix2 p q)
      = max (((∑ k : Fin 4096, x0 (ix2 p k) * (w0 (ix2 q k) * m0 (ix2 q k)))
          + ∑ k : Fin 4096, x1 (ix2 p k) * (w1 (ix2 q k) * m1 (ix2 q k))) + b (ix2 0 q)) 0 := by
  rw [k1_pay3_apply, k1_pay2_apply, k1_pay2_apply, k1_pay1_apply, zero_add]

/-! ## Layer 3: two accumulation steps -/

/-- The fresh accumulator is 0 at every entry. -/
theorem k2_pay1_apply (i : S64x512.Idx) : k2_pay1 (F := Ideal) i = (0 : EReal) := by
  unfold k2_pay1
  rw [shapeCast_self]
  exact scalar_zero

/-- One accumulation step adds Σ_k x[p,k] · (w[q,k] · m[q,k]) to the accumulator's entry (p, q). -/
theorem k2_pay2_apply (w m : FVec Ideal S512x4096 .f32) (x : FVec Ideal S64x4096 .f32) (acc : FVec Ideal S64x512 .f32)
    (p : Fin 64) (q : Fin 512) :
    k2_pay2 (F := Ideal) w m x acc (ix2 p q)
      = acc (ix2 p q) + ∑ k : Fin 4096, x (ix2 p k) * (w (ix2 q k) * m (ix2 q k)) := by
  unfold k2_pay2
  rw [shapeCast_self, shapeCast_self]
  refine (addf_apply _ _ _).trans ?_
  rw [matmul_zero_entry]
  rfl

/-- The last step adds the bias row and takes the maximum with 0. -/
theorem k2_pay3_apply (acc : FVec Ideal S64x512 .f32) (b : FVec Ideal S1x512 .f32) (p : Fin 64) (q : Fin 512) :
    k2_pay3 (F := Ideal) acc b (ix2 p q) = max (acc (ix2 p q) + b (ix2 0 q)) 0 := by
  unfold k2_pay3
  rw [shapeCast_self]
  refine (maximumf_apply _ _ _).trans ?_
  rw [addf_apply, broadcastTo_1b_ab_apply, broadcast_apply, scalar_zero]

/-- The two grid steps of one block of layer 3 at entry (p, q): the two halves of the contraction, the bias, the maximum with 0. -/
theorem pay2_entry (x0 x1 : FVec Ideal S64x4096 .f32) (w0 m0 w1 m1 : FVec Ideal S512x4096 .f32) (b : FVec Ideal S1x512 .f32)
    (p : Fin 64) (q : Fin 512) :
    k2_pay3 (F := Ideal) (k2_pay2 (F := Ideal) w1 m1 x1 (k2_pay2 (F := Ideal) w0 m0 x0 (k2_pay1 (F := Ideal)))) b (ix2 p q)
      = max (((∑ k : Fin 4096, x0 (ix2 p k) * (w0 (ix2 q k) * m0 (ix2 q k)))
          + ∑ k : Fin 4096, x1 (ix2 p k) * (w1 (ix2 q k) * m1 (ix2 q k))) + b (ix2 0 q)) 0 := by
  rw [k2_pay3_apply, k2_pay2_apply, k2_pay2_apply, k2_pay1_apply, zero_add]

/-! ## Layer 4: two accumulation steps -/

/-- The fresh accumulator is 0 at every entry. -/
theorem k3_pay1_apply (i : S64x512.Idx) : k3_pay1 (F := Ideal) i = (0 : EReal) := by
  unfold k3_pay1
  rw [shapeCast_self]
  exact scalar_zero

/-- One accumulation step adds Σ_k x[p,k] · (w[q,k] · m[q,k]) to the accumulator's entry (p, q). -/
theorem k3_pay2_apply (w m : FVec Ideal S512x4096 .f32) (x : FVec Ideal S64x4096 .f32) (acc : FVec Ideal S64x512 .f32)
    (p : Fin 64) (q : Fin 512) :
    k3_pay2 (F := Ideal) w m x acc (ix2 p q)
      = acc (ix2 p q) + ∑ k : Fin 4096, x (ix2 p k) * (w (ix2 q k) * m (ix2 q k)) := by
  unfold k3_pay2
  rw [shapeCast_self, shapeCast_self]
  refine (addf_apply _ _ _).trans ?_
  rw [matmul_zero_entry]
  rfl

/-- The last step adds the bias row and takes the maximum with 0. -/
theorem k3_pay3_apply (acc : FVec Ideal S64x512 .f32) (b : FVec Ideal S1x512 .f32) (p : Fin 64) (q : Fin 512) :
    k3_pay3 (F := Ideal) acc b (ix2 p q) = max (acc (ix2 p q) + b (ix2 0 q)) 0 := by
  unfold k3_pay3
  rw [shapeCast_self]
  refine (maximumf_apply _ _ _).trans ?_
  rw [addf_apply, broadcastTo_1b_ab_apply, broadcast_apply, scalar_zero]

/-- The two grid steps of one block of layer 4 at entry (p, q): the two halves of the contraction, the bias, the maximum with 0. -/
theorem pay3_entry (x0 x1 : FVec Ideal S64x4096 .f32) (w0 m0 w1 m1 : FVec Ideal S512x4096 .f32) (b : FVec Ideal S1x512 .f32)
    (p : Fin 64) (q : Fin 512) :
    k3_pay3 (F := Ideal) (k3_pay2 (F := Ideal) w1 m1 x1 (k3_pay2 (F := Ideal) w0 m0 x0 (k3_pay1 (F := Ideal)))) b (ix2 p q)
      = max (((∑ k : Fin 4096, x0 (ix2 p k) * (w0 (ix2 q k) * m0 (ix2 q k)))
          + ∑ k : Fin 4096, x1 (ix2 p k) * (w1 (ix2 q k) * m1 (ix2 q k))) + b (ix2 0 q)) 0 := by
  rw [k3_pay3_apply, k3_pay2_apply, k3_pay2_apply, k3_pay1_apply, zero_add]

end Cert.KernelIdeal.PayEntry

end
-- ==== Proof.KI.Final0.lean ====
/-
  Layer 1, from blocks to the array: after the region's run its output array is the masked dense layer with a ReLU,
  max (Σ_k inp[p,k] · (W[q,k] · M[q,k]) + b[q]) 0 over the 4096 features, of the arrays the region found. Grid point d of
  the eight works on output columns 512·d … 512·d + 511 with the whole feature range and writes its block back. Each
  block read is a read of the whole array at block index × block size + the coordinate inside the block; the eight
  written blocks tile the 4096 output columns.
-/
import proofs.«108305_j59700045414953_1_alg».proof.Proof.KI.R0
import proofs.«108305_j59700045414953_1_alg».proof.Proof.PayEntry
import proofs.«108305_j59700045414953_1_alg».proof.Proof.LayerSpec
import Idealize.ShloMosaic.Lib.Pipeline.Value
import Idealize.ShloMosaic.Lib.ValueIdx

set_option maxRecDepth 16384

noncomputable section

namespace Cert.KernelIdeal.Final0

open Cert.KernelIdeal Cert.KernelIdeal.Gen Cert.KernelIdeal.Hand
open Idealize.ShloMosaic Idealize.ShloMosaic.TcCoe Idealize.ShloMosaic.ValueIdx Idealize.ShloMosaic.Pipeline

variable (V : (c : Dev nD) → (b : Ref sig .tc) → Buf (Elt Ideal) ((c : Thread nD τ).loc b))

/-- The block index maps over the 8 grid points: point t works on output column block t and on the one feature block. -/
theorem idx_facts : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = t.val
    ∧ win0_4.index t (0 : Fin 2) = 0 ∧ win0_4.index t (1 : Fin 2) = t.val :=
  (by decide +kernel : ∀ t : Fin grid0.N, _)

/-- The input's block at every point is the whole input. -/
theorem inp_read (c : Dev nD) (t : Fin cfg0.N) (p : Fin 64) (k : Fin 4096) :
    iblk0 V c 0 t (ix2 p k) = V c main_arg0 (ix2 p k) := by
  obtain ⟨e0, e1, -⟩ := idx_facts t
  unfold iblk0
  show V c main_arg0 (((cfg0.win 0).blk t).view.emb (ix2 p k)) = _
  refine congrArg (V c main_arg0) ?_
  funext a; apply Fin.ext
  match a with
  | ⟨0, _⟩ => show win0_0.index t (0 : Fin 2) * 64 + 1 * p.val = p.val; omega
  | ⟨1, _⟩ => show win0_0.index t (1 : Fin 2) * 4096 + 1 * k.val = k.val; omega

/-- The weight's block at point t holds rows 512·t … 512·t + 511, all features. -/
theorem wgt_read (c : Dev nD) (t : Fin cfg0.N) (r : Fin 512) (k : Fin 4096) (r' : Fin 4096)
    (hr : r'.val = 512 * t.val + r.val) :
    iblk0 V c 1 t (ix2 r k) = V c main_arg1 (ix2 r' k) := by
  obtain ⟨-, -, e0, e1, -⟩ := idx_facts t
  unfold iblk0
  show V c main_arg1 (((cfg0.win 1).blk t).view.emb (ix2 r k)) = _
  refine congrArg (V c main_arg1) ?_
  funext a; apply Fin.ext
  match a with
  | ⟨0, _⟩ => show win0_1.index t (0 : Fin 2) * 512 + 1 * r.val = r'.val; omega
  | ⟨1, _⟩ => show win0_1.index t (1 : Fin 2) * 4096 + 1 * k.val = k.val; omega

/-- … and the mask's block the same rows of the mask. -/
theorem msk_read (c : Dev nD) (t : Fin cfg0.N) (r : Fin 512) (k : Fin 4096) (r' : Fin 4096)
    (hr : r'.val = 512 * t.val + r.val) :
    iblk0 V c 2 t (ix2 r k) = V c main_arg3 (ix2 r' k) := by
  obtain ⟨-, -, -, -, e0, e1, -⟩ := idx_facts t
  unfold iblk0
  show V c main_arg3 (((cfg0.win 2).blk t).view.emb (ix2 r k)) = _
  refine congrArg (V c main_arg3) ?_
  funext a; apply Fin.ext
  match a with
  | ⟨0, _⟩ => show win0_2.index t (0 : Fin 2) * 512 + 1 * r.val = r'.val; omega
  | ⟨1, _⟩ => show win0_2.index t (1 : Fin 2) * 4096 + 1 * k.val = k.val; omega

/-- The bias row's block at point t holds entries 512·t … 512·t + 511 of the row. -/
theorem bias_read (c : Dev nD) (t : Fin cfg0.N) (r : Fin 512) (r' : Fin 4096) (hr : r'.val = 512 * t.val + r.val) :
    iblk0 V c 3 t (ix2 0 r) = V c main_v0 (ix2 0 r') := by
  obtain ⟨-, -, -, -, -, -, e0, e1, -⟩ := idx_facts t
  unfold iblk0
  show V c main_v0 (((cfg0.win 3).blk t).view.emb (ix2 0 r)) = _
  refine congrArg (V c main_v0) ?_
  funext a; apply Fin.ext
  match a with
  | ⟨0, _⟩ => show win0_3.index t (0 : Fin 2) * 1 + 1 * 0 = 0; omega
  | ⟨1, _⟩ => show win0_3.index t (1 : Fin 2) * 512 + 1 * r.val = r'.val; omega

/-- The layer's whole output as a function of the arrays the region finds: the masked dense layer with a ReLU of the
    64 × 4096 input, the 4096 × 4096 weight and mask, and the bias row. -/
def G (c : Dev nD) : (⟨2, ![64, 4096]⟩ : Shape).Idx → EReal :=
  Cert.Layer.layer (K := 4096) (V c main_arg0) (V c main_arg1) (V c main_arg3) (fun j => V c main_v0 (ix2 0 (j 0)))

/-- What point t writes back is block t of the layer's output. -/
theorem flushed_eq (c : Dev nD) (t : Fin cfg0.N) (hf : (cfg0.win 4).flush t = true) :
    (dat0 (F := Ideal) V c).flushed 4 t = ((cfg0.win 4).blk t).view.read (Elt Ideal) (G V c) := by
  have hN : t.val < 8 := lt_of_lt_of_eq t.isLt (show cfg0.N = 8 from N_0)
  obtain ⟨-, -, -, -, -, -, -, -, e0, e1⟩ := idx_facts t
  show (cfg0.win 4).cut (grid0.coords t) ((dat0 (F := Ideal) V c).after 4 t) = _
  rw [after0_4]
  unfold out0 acc0
  funext j
  obtain ⟨p, q, rfl⟩ : ∃ (p : Fin 64) (q : Fin 512), j = ix2 p q := ⟨j 0, j 1, eq_ix2 j⟩
  refine (PayEntry.pay0_entry (iblk0 V c 0 t) (iblk0 V c 1 t) (iblk0 V c 2 t) (iblk0 V c 3 t) p q).trans ?_
  have hemb : ((cfg0.win 4).blk t).view.emb (ix2 p q) = (ix2 p ⟨512 * t.val + q.val, by omega⟩ : S64x4096.Idx) := by
    funext a; apply Fin.ext
    match a with
    | ⟨0, _⟩ => show win0_4.index t (0 : Fin 2) * 64 + 1 * p.val = p.val; omega
    | ⟨1, _⟩ => show win0_4.index t (1 : Fin 2) * 512 + 1 * q.val = 512 * t.val + q.val; omega
  show _ = G V c (((cfg0.win 4).blk t).view.emb (ix2 p q))
  rw [hemb]
  unfold G
  rw [Cert.Layer.layer_ix2]
  unfold Cert.Layer.entry
  refine congrArg (fun x => max x 0) ?_
  refine congrArg₂ (· + ·) (Finset.sum_congr rfl fun k _ => ?_) ?_
  · exact congrArg₂ (· * ·) (inp_read V c t p k)
      (congrArg₂ (· * ·) (wgt_read V c t q k _ (by show 512 * t.val + q.val = 512 * t.val + q.val; rfl))
        (msk_read V c t q k _ (by show 512 * t.val + q.val = 512 * t.val + q.val; rfl)))
  · exact bias_read V c t q _ (by show 512 * t.val + q.val = 512 * t.val + q.val; rfl)

/-- An index of the output array is in point t's block iff each coordinate is in the block's range on its axis. -/
theorem mem_blk (t : Fin cfg0.N) (i : S64x4096.Idx) :
    i ∈ ((cfg0.win 4).blk t).view.set ↔ ∀ a : Fin 2, win0_4.index t a * S64x512.size a ≤ (i a).val
      ∧ (i a).val < win0_4.index t a * S64x512.size a + S64x512.size a := by
  show i ∈ ((View.whole main_v1).slice (win0_4.rect t)).set ↔ _
  rw [View.set_slice_whole, Rect.mem_set_unit]
  exact Iff.rfl

/-- Every entry of the output array is written back by some point: column q by point q / 512. -/
theorem cover (i : S64x4096.Idx) : ∃ t : Fin cfg0.N, (cfg0.win 4).flush t = true ∧ i ∈ ((cfg0.win 4).blk t).view.set := by
  have hi0 : (i 0).val < 64 := (i 0).isLt
  have hi1 : (i 1).val < 4096 := (i 1).isLt
  have hN : cfg0.N = 8 := N_0
  obtain ⟨t, ht⟩ : ∃ t : Fin cfg0.N, t.val = (i 1).val / 512 :=
    ⟨⟨(i 1).val / 512, lt_of_lt_of_eq (by omega) hN.symm⟩, rfl⟩
  obtain ⟨-, -, -, -, -, -, -, -, e0, e1⟩ := idx_facts t
  refine ⟨t, flush0_4 t, ?_⟩
  rw [mem_blk]
  intro a
  match a with
  | ⟨0, _⟩ => show win0_4.index t (0 : Fin 2) * 64 ≤ (i 0).val ∧ (i 0).val < win0_4.index t (0 : Fin 2) * 64 + 64; omega
  | ⟨1, _⟩ => show win0_4.index t (1 : Fin 2) * 512 ≤ (i 1).val ∧ (i 1).val < win0_4.index t (1 : Fin 2) * 512 + 512; omega

/-- The output array after the region's run is the layer of the arrays the region found. -/
theorem final0 (c : Dev nD) :
    (dat0 (F := Ideal) V c).arrAt 4 cfg0.N
      = Cert.Layer.layer (K := 4096) (V c main_arg0) (V c main_arg1) (V c main_arg3) (fun j => V c main_v0 (ix2 0 (j 0))) :=
  (dat0 (F := Ideal) V c).arrAt_eq_of_cover 4 (G V c) (fun t hf => flushed_eq V c t hf) cover

end Cert.KernelIdeal.Final0

end
-- ==== Proof.KI.Final1.lean ====
/-
  Layer 2, from blocks to the array: after the region's run its output array is the masked dense layer with a ReLU,
  max (Σ_k inp[p,k] · (W[q,k] · M[q,k]) + b[q]) 0 over all 8192 features, of the arrays the region found. The 16 grid points
  run in pairs; pair d works on output columns 512·d … 512·d + 511, its first point on features 0 … 4095 and its second on
  features 4096 … 8191, and the second point writes the block back. Each block read is a read of the whole array at
  block index × block size + the coordinate inside the block; the two partial sums are the two halves of the full sum;
  the eight written blocks tile the 4096 output columns.
-/
import proofs.«108305_j59700045414953_1_alg».proof.Proof.KI.R1
import proofs.«108305_j59700045414953_1_alg».proof.Proof.PayEntry
import proofs.«108305_j59700045414953_1_alg».proof.Proof.LayerSpec
import Idealize.ShloMosaic.Lib.Pipeline.Value
import Idealize.ShloMosaic.Lib.ValueIdx

set_option maxRecDepth 16384

noncomputable section

namespace Cert.KernelIdeal.Final1

open Cert.KernelIdeal Cert.KernelIdeal.Gen Cert.KernelIdeal.Hand
open Idealize.ShloMosaic Idealize.ShloMosaic.TcCoe Idealize.ShloMosaic.ValueIdx Idealize.ShloMosaic.Pipeline

variable (V : (c : Dev nD) → (b : Ref sig .tc) → Buf (Elt Ideal) ((c : Thread nD τ).loc b))

/-- The block index maps over the 16 grid points: point t works on output column block t / 2 and on feature block t % 2. -/
theorem idx_facts : ∀ t : Fin cfg1.N, win1_0.index t (0 : Fin 2) = 0 ∧ win1_0.index t (1 : Fin 2) = t.val % 2
    ∧ win1_1.index t (0 : Fin 2) = t.val / 2 ∧ win1_1.index t (1 : Fin 2) = t.val % 2
    ∧ win1_2.index t (0 : Fin 2) = t.val / 2 ∧ win1_2.index t (1 : Fin 2) = t.val % 2
    ∧ win1_3.index t (0 : Fin 2) = 0 ∧ win1_3.index t (1 : Fin 2) = t.val / 2
    ∧ win1_4.index t (0 : Fin 2) = 0 ∧ win1_4.index t (1 : Fin 2) = t.val / 2 :=
  (by decide +kernel : ∀ t : Fin grid1.N, _)

/-- The input's block at point t holds all 64 rows of features 4096·(t % 2) … 4096·(t % 2) + 4095. -/
theorem inp_read (c : Dev nD) (t : Fin cfg1.N) (p : Fin 64) (k : Fin 4096) (k' : Fin 8192)
    (hk : k'.val = 4096 * (t.val % 2) + k.val) :
    iblk1 V c 0 t (ix2 p k) = V c main_v2 (ix2 p k') := by
  obtain ⟨e0, e1, -⟩ := idx_facts t
  unfold iblk1
  show V c main_v2 (((cfg1.win 0).blk t).view.emb (ix2 p k)) = _
  refine congrArg (V c main_v2) ?_
  funext a; apply Fin.ext
  match a with
  | ⟨0, _⟩ => show win1_0.index t (0 : Fin 2) * 64 + 1 * p.val = p.val; omega
  | ⟨1, _⟩ => show win1_0.index t (1 : Fin 2) * 4096 + 1 * k.val = k'.val; omega

/-- The weight's block at point t holds rows 512·(t / 2) … of features 4096·(t % 2) … -/
theorem wgt_read (c : Dev nD) (t : Fin cfg1.N) (r : Fin 512) (k : Fin 4096) (r' : Fin 4096) (k' : Fin 8192)
    (hr : r'.val = 512 * (t.val / 2) + r.val) (hk : k'.val = 4096 * (t.val % 2) + k.val) :
    iblk1 V c 1 t (ix2 r k) = V c main_arg4 (ix2 r' k') := by
  obtain ⟨-, -, e0, e1, -⟩ := idx_facts t
  unfold iblk1
  show V c main_arg4 (((cfg1.win 1).blk t).view.emb (ix2 r k)) = _
  refine congrArg (V c main_arg4) ?_
  funext a; apply Fin.ext
  match a with
  | ⟨0, _⟩ => show win1_1.index t (0 : Fin 2) * 512 + 1 * r.val = r'.val; omega
  | ⟨1, _⟩ => show win1_1.index t (1 : Fin 2) * 4096 + 1 * k.val = k'.val; omega

/-- … and the mask's block the same rows and features of the mask. -/
theorem msk_read (c : Dev nD) (t : Fin cfg1.N) (r : Fin 512) (k : Fin 4096) (r' : Fin 4096) (k' : Fin 8192)
    (hr : r'.val = 512 * (t.val / 2) + r.val) (hk : k'.val = 4096 * (t.val % 2) + k.val) :
    iblk1 V c 2 t (ix2 r k) = V c main_arg6 (ix2 r' k') := by
  obtain ⟨-, -, -, -, e0, e1, -⟩ := idx_facts t
  unfold iblk1
  show V c main_arg6 (((cfg1.win 2).blk t).view.emb (ix2 r k)) = _
  refine congrArg (V c main_arg6) ?_
  funext a; apply Fin.ext
  match a with
  | ⟨0, _⟩ => show win1_2.index t (0 : Fin 2) * 512 + 1 * r.val = r'.val; omega
  | ⟨1, _⟩ => show win1_2.index t (1 : Fin 2) * 4096 + 1 * k.val = k'.val; omega

/-- The bias row's block at point t holds entries 512·(t / 2) … of the row. -/
theorem bias_read (c : Dev nD) (t : Fin cfg1.N) (r : Fin 512) (r' : Fin 4096) (hr : r'.val = 512 * (t.val / 2) + r.val) :
    iblk1 V c 3 t (ix2 0 r) = V c main_v3 (ix2 0 r') := by
  obtain ⟨-, -, -, -, -, -, e0, e1, -⟩ := idx_facts t
  unfold iblk1
  show V c main_v3 (((cfg1.win 3).blk t).view.emb (ix2 0 r)) = _
  refine congrArg (V c main_v3) ?_
  funext a; apply Fin.ext
  match a with
  | ⟨0, _⟩ => show win1_3.index t (0 : Fin 2) * 1 + 1 * 0 = 0; omega
  | ⟨1, _⟩ => show win1_3.index t (1 : Fin 2) * 512 + 1 * r.val = r'.val; omega

/-- The layer's whole output as a function of the arrays the region finds: the masked dense layer with a ReLU of the
    64 × 8192 input, the 4096 × 8192 weight and mask, and the bias row. -/
def G (c : Dev nD) : (⟨2, ![64, 4096]⟩ : Shape).Idx → EReal :=
  Cert.Layer.layer (K := 8192) (V c main_v2) (V c main_arg4) (V c main_arg6) (fun j => V c main_v3 (ix2 0 (j 0)))

/-- What a closing point t (odd) writes back is block t / 2 of the layer's output: its accumulator holds the first
    feature block's products, left by the point before, plus the second's, which are the two halves of the sum over
    all 8192 features. -/
theorem flushed_eq (c : Dev nD) (t : Fin cfg1.N) (hf : (cfg1.win 4).flush t = true) :
    (dat1 (F := Ideal) V c).flushed 4 t = ((cfg1.win 4).blk t).view.read (Elt Ideal) (G V c) := by
  have hN : t.val < 16 := lt_of_lt_of_eq t.isLt (show cfg1.N = 16 from N_1)
  have hodd : t.val % 2 = 1 := (flush1_4 t).mp hf
  obtain ⟨-, -, -, -, -, -, -, -, e0, e1⟩ := idx_facts t
  show (cfg1.win 4).cut (grid1.coords t) ((dat1 (F := Ideal) V c).after 4 t) = _
  rw [after1_4]
  unfold out1 acc1
  rw [if_neg (by omega)]
  funext j
  obtain ⟨p, q, rfl⟩ : ∃ (p : Fin 64) (q : Fin 512), j = ix2 p q := ⟨j 0, j 1, eq_ix2 j⟩
  refine (PayEntry.pay1_entry (iblk1 V c 0 (prev1 t)) (iblk1 V c 0 t) (iblk1 V c 1 (prev1 t)) (iblk1 V c 2 (prev1 t))
    (iblk1 V c 1 t) (iblk1 V c 2 t) (iblk1 V c 3 t) p q).trans ?_
  have hemb : ((cfg1.win 4).blk t).view.emb (ix2 p q) = (ix2 p ⟨512 * (t.val / 2) + q.val, by omega⟩ : S64x4096.Idx) := by
    funext a; apply Fin.ext
    match a with
    | ⟨0, _⟩ => show win1_4.index t (0 : Fin 2) * 64 + 1 * p.val = p.val; omega
    | ⟨1, _⟩ => show win1_4.index t (1 : Fin 2) * 512 + 1 * q.val = 512 * (t.val / 2) + q.val; omega
  show _ = G V c (((cfg1.win 4).blk t).view.emb (ix2 p q))
  rw [hemb]
  unfold G
  rw [Cert.Layer.layer_ix2]
  unfold Cert.Layer.entry
  rw [Cert.Layer.sum_halves]
  refine congrArg (fun x => max x 0) ?_
  refine congrArg₂ (· + ·) (congrArg₂ (· + ·) (Finset.sum_congr rfl fun k _ => ?_) (Finset.sum_congr rfl fun k _ => ?_)) ?_
  · exact congrArg₂ (· * ·)
      (inp_read V c (prev1 t) p k _ (by show k.val = 4096 * ((t.val - 1) % 2) + k.val; omega))
      (congrArg₂ (· * ·)
        (wgt_read V c (prev1 t) q k _ _ (by show 512 * (t.val / 2) + q.val = 512 * ((t.val - 1) / 2) + q.val; omega)
          (by show k.val = 4096 * ((t.val - 1) % 2) + k.val; omega))
        (msk_read V c (prev1 t) q k _ _ (by show 512 * (t.val / 2) + q.val = 512 * ((t.val - 1) / 2) + q.val; omega)
          (by show k.val = 4096 * ((t.val - 1) % 2) + k.val; omega)))
  · exact congrArg₂ (· * ·)
      (inp_read V c t p k _ (by show 4096 + k.val = 4096 * (t.val % 2) + k.val; omega))
      (congrArg₂ (· * ·)
        (wgt_read V c t q k _ _ (by show 512 * (t.val / 2) + q.val = 512 * (t.val / 2) + q.val; rfl)
          (by show 4096 + k.val = 4096 * (t.val % 2) + k.val; omega))
        (msk_read V c t q k _ _ (by show 512 * (t.val / 2) + q.val = 512 * (t.val / 2) + q.val; rfl)
          (by show 4096 + k.val = 4096 * (t.val % 2) + k.val; omega)))
  · exact bias_read V c t q _ (by show 512 * (t.val / 2) + q.val = 512 * (t.val / 2) + q.val; rfl)

/-- An index of the output array is in point t's block iff each coordinate is in the block's range on its axis. -/
theorem mem_blk (t : Fin cfg1.N) (i : S64x4096.Idx) :
    i ∈ ((cfg1.win 4).blk t).view.set ↔ ∀ a : Fin 2, win1_4.index t a * S64x512.size a ≤ (i a).val
      ∧ (i a).val < win1_4.index t a * S64x512.size a + S64x512.size a := by
  show i ∈ ((View.whole main_v4).slice (win1_4.rect t)).set ↔ _
  rw [View.set_slice_whole, Rect.mem_set_unit]
  exact Iff.rfl

/-- Every entry of the output array is written back by a closing point: column q by point 2·(q / 512) + 1. -/
theorem cover (i : S64x4096.Idx) : ∃ t : Fin cfg1.N, (cfg1.win 4).flush t = true ∧ i ∈ ((cfg1.win 4).blk t).view.set := by
  have hi0 : (i 0).val < 64 := (i 0).isLt
  have hi1 : (i 1).val < 4096 := (i 1).isLt
  have hN : cfg1.N = 16 := N_1
  obtain ⟨t, ht⟩ : ∃ t : Fin cfg1.N, t.val = 2 * ((i 1).val / 512) + 1 :=
    ⟨⟨2 * ((i 1).val / 512) + 1, lt_of_lt_of_eq (by omega) hN.symm⟩, rfl⟩
  obtain ⟨-, -, -, -, -, -, -, -, e0, e1⟩ := idx_facts t
  refine ⟨t, (flush1_4 t).mpr (by omega), ?_⟩
  rw [mem_blk]
  intro a
  match a with
  | ⟨0, _⟩ => show win1_4.index t (0 : Fin 2) * 64 ≤ (i 0).val ∧ (i 0).val < win1_4.index t (0 : Fin 2) * 64 + 64; omega
  | ⟨1, _⟩ => show win1_4.index t (1 : Fin 2) * 512 ≤ (i 1).val ∧ (i 1).val < win1_4.index t (1 : Fin 2) * 512 + 512; omega

/-- The output array after the region's run is the layer of the arrays the region found. -/
theorem final1 (c : Dev nD) :
    (dat1 (F := Ideal) V c).arrAt 4 cfg1.N
      = Cert.Layer.layer (K := 8192) (V c main_v2) (V c main_arg4) (V c main_arg6) (fun j => V c main_v3 (ix2 0 (j 0))) :=
  (dat1 (F := Ideal) V c).arrAt_eq_of_cover 4 (G V c) (fun t hf => flushed_eq V c t hf) cover

end Cert.KernelIdeal.Final1

end
-- ==== Proof.KI.Final2.lean ====
/-
  Layer 3, from blocks to the array: after the region's run its output array is the masked dense layer with a ReLU,
  max (Σ_k inp[p,k] · (W[q,k] · M[q,k]) + b[q]) 0 over all 8192 features, of the arrays the region found. The 16 grid points
  run in pairs; pair d works on output columns 512·d … 512·d + 511, its first point on features 0 … 4095 and its second on
  features 4096 … 8191, and the second point writes the block back. Each block read is a read of the whole array at
  block index × block size + the coordinate inside the block; the two partial sums are the two halves of the full sum;
  the eight written blocks tile the 4096 output columns.
-/
import proofs.«108305_j59700045414953_1_alg».proof.Proof.KI.R2
import proofs.«108305_j59700045414953_1_alg».proof.Proof.PayEntry
import proofs.«108305_j59700045414953_1_alg».proof.Proof.LayerSpec
import Idealize.ShloMosaic.Lib.Pipeline.Value
import Idealize.ShloMosaic.Lib.ValueIdx

set_option maxRecDepth 16384

noncomputable section

namespace Cert.KernelIdeal.Final2

open Cert.KernelIdeal Cert.KernelIdeal.Gen Cert.KernelIdeal.Hand
open Idealize.ShloMosaic Idealize.ShloMosaic.TcCoe Idealize.ShloMosaic.ValueIdx Idealize.ShloMosaic.Pipeline

variable (V : (c : Dev nD) → (b : Ref sig .tc) → Buf (Elt Ideal) ((c : Thread nD τ).loc b))

/-- The block index maps over the 16 grid points: point t works on output column block t / 2 and on feature block t % 2. -/
theorem idx_facts : ∀ t : Fin cfg2.N, win2_0.index t (0 : Fin 2) = 0 ∧ win2_0.index t (1 : Fin 2) = t.val % 2
    ∧ win2_1.index t (0 : Fin 2) = t.val / 2 ∧ win2_1.index t (1 : Fin 2) = t.val % 2
    ∧ win2_2.index t (0 : Fin 2) = t.val / 2 ∧ win2_2.index t (1 : Fin 2) = t.val % 2
    ∧ win2_3.index t (0 : Fin 2) = 0 ∧ win2_3.index t (1 : Fin 2) = t.val / 2
    ∧ win2_4.index t (0 : Fin 2) = 0 ∧ win2_4.index t (1 : Fin 2) = t.val / 2 :=
  (by decide +kernel : ∀ t : Fin grid2.N, _)

/-- The input's block at point t holds all 64 rows of features 4096·(t % 2) … 4096·(t % 2) + 4095. -/
theorem inp_read (c : Dev nD) (t : Fin cfg2.N) (p : Fin 64) (k : Fin 4096) (k' : Fin 8192)
    (hk : k'.val = 4096 * (t.val % 2) + k.val) :
    iblk2 V c 0 t (ix2 p k) = V c main_v5 (ix2 p k') := by
  obtain ⟨e0, e1, -⟩ := idx_facts t
  unfold iblk2
  show V c main_v5 (((cfg2.win 0).blk t).view.emb (ix2 p k)) = _
  refine congrArg (V c main_v5) ?_
  funext a; apply Fin.ext
  match a with
  | ⟨0, _⟩ => show win2_0.index t (0 : Fin 2) * 64 + 1 * p.val = p.val; omega
  | ⟨1, _⟩ => show win2_0.index t (1 : Fin 2) * 4096 + 1 * k.val = k'.val; omega

/-- The weight's block at point t holds rows 512·(t / 2) … of features 4096·(t % 2) … -/
theorem wgt_read (c : Dev nD) (t : Fin cfg2.N) (r : Fin 512) (k : Fin 4096) (r' : Fin 4096) (k' : Fin 8192)
    (hr : r'.val = 512 * (t.val / 2) + r.val) (hk : k'.val = 4096 * (t.val % 2) + k.val) :
    iblk2 V c 1 t (ix2 r k) = V c main_arg7 (ix2 r' k') := by
  obtain ⟨-, -, e0, e1, -⟩ := idx_facts t
  unfold iblk2
  show V c main_arg7 (((cfg2.win 1).blk t).view.emb (ix2 r k)) = _
  refine congrArg (V c main_arg7) ?_
  funext a; apply Fin.ext
  match a with
  | ⟨0, _⟩ => show win2_1.index t (0 : Fin 2) * 512 + 1 * r.val = r'.val; omega
  | ⟨1, _⟩ => show win2_1.index t (1 : Fin 2) * 4096 + 1 * k.val = k'.val; omega

/-- … and the mask's block the same rows and features of the mask. -/
theorem msk_read (c : Dev nD) (t : Fin cfg2.N) (r : Fin 512) (k : Fin 4096) (r' : Fin 4096) (k' : Fin 8192)
    (hr : r'.val = 512 * (t.val / 2) + r.val) (hk : k'.val = 4096 * (t.val % 2) + k.val) :
    iblk2 V c 2 t (ix2 r k) = V c main_arg9 (ix2 r' k') := by
  obtain ⟨-, -, -, -, e0, e1, -⟩ := idx_facts t
  unfold iblk2
  show V c main_arg9 (((cfg2.win 2).blk t).view.emb (ix2 r k)) = _
  refine congrArg (V c main_arg9) ?_
  funext a; apply Fin.ext
  match a with
  | ⟨0, _⟩ => show win2_2.index t (0 : Fin 2) * 512 + 1 * r.val = r'.val; omega
  | ⟨1, _⟩ => show win2_2.index t (1 : Fin 2) * 4096 + 1 * k.val = k'.val; omega

/-- The bias row's block at point t holds entries 512·(t / 2) … of the row. -/
theorem bias_read (c : Dev nD) (t : Fin cfg2.N) (r : Fin 512) (r' : Fin 4096) (hr : r'.val = 512 * (t.val / 2) + r.val) :
    iblk2 V c 3 t (ix2 0 r) = V c main_v6 (ix2 0 r') := by
  obtain ⟨-, -, -, -, -, -, e0, e1, -⟩ := idx_facts t
  unfold iblk2
  show V c main_v6 (((cfg2.win 3).blk t).view.emb (ix2 0 r)) = _
  refine congrArg (V c main_v6) ?_
  funext a; apply Fin.ext
  match a with
  | ⟨0, _⟩ => show win2_3.index t (0 : Fin 2) * 1 + 1 * 0 = 0; omega
  | ⟨1, _⟩ => show win2_3.index t (1 : Fin 2) * 512 + 1 * r.val = r'.val; omega

/-- The layer's whole output as a function of the arrays the region finds: the masked dense layer with a ReLU of the
    64 × 8192 input, the 4096 × 8192 weight and mask, and the bias row. -/
def G (c : Dev nD) : (⟨2, ![64, 4096]⟩ : Shape).Idx → EReal :=
  Cert.Layer.layer (K := 8192) (V c main_v5) (V c main_arg7) (V c main_arg9) (fun j => V c main_v6 (ix2 0 (j 0)))

/-- What a closing point t (odd) writes back is block t / 2 of the layer's output: its accumulator holds the first
    feature block's products, left by the point before, plus the second's, which are the two halves of the sum over
    all 8192 features. -/
theorem flushed_eq (c : Dev nD) (t : Fin cfg2.N) (hf : (cfg2.win 4).flush t = true) :
    (dat2 (F := Ideal) V c).flushed 4 t = ((cfg2.win 4).blk t).view.read (Elt Ideal) (G V c) := by
  have hN : t.val < 16 := lt_of_lt_of_eq t.isLt (show cfg2.N = 16 from N_2)
  have hodd : t.val % 2 = 1 := (flush2_4 t).mp hf
  obtain ⟨-, -, -, -, -, -, -, -, e0, e1⟩ := idx_facts t
  show (cfg2.win 4).cut (grid2.coords t) ((dat2 (F := Ideal) V c).after 4 t) = _
  rw [after2_4]
  unfold out2 acc2
  rw [if_neg (by omega)]
  funext j
  obtain ⟨p, q, rfl⟩ : ∃ (p : Fin 64) (q : Fin 512), j = ix2 p q := ⟨j 0, j 1, eq_ix2 j⟩
  refine (PayEntry.pay2_entry (iblk2 V c 0 (prev2 t)) (iblk2 V c 0 t) (iblk2 V c 1 (prev2 t)) (iblk2 V c 2 (prev2 t))
    (iblk2 V c 1 t) (iblk2 V c 2 t) (iblk2 V c 3 t) p q).trans ?_
  have hemb : ((cfg2.win 4).blk t).view.emb (ix2 p q) = (ix2 p ⟨512 * (t.val / 2) + q.val, by omega⟩ : S64x4096.Idx) := by
    funext a; apply Fin.ext
    match a with
    | ⟨0, _⟩ => show win2_4.index t (0 : Fin 2) * 64 + 1 * p.val = p.val; omega
    | ⟨1, _⟩ => show win2_4.index t (1 : Fin 2) * 512 + 1 * q.val = 512 * (t.val / 2) + q.val; omega
  show _ = G V c (((cfg2.win 4).blk t).view.emb (ix2 p q))
  rw [hemb]
  unfold G
  rw [Cert.Layer.layer_ix2]
  unfold Cert.Layer.entry
  rw [Cert.Layer.sum_halves]
  refine congrArg (fun x => max x 0) ?_
  refine congrArg₂ (· + ·) (congrArg₂ (· + ·) (Finset.sum_congr rfl fun k _ => ?_) (Finset.sum_congr rfl fun k _ => ?_)) ?_
  · exact congrArg₂ (· * ·)
      (inp_read V c (prev2 t) p k _ (by show k.val = 4096 * ((t.val - 1) % 2) + k.val; omega))
      (congrArg₂ (· * ·)
        (wgt_read V c (prev2 t) q k _ _ (by show 512 * (t.val / 2) + q.val = 512 * ((t.val - 1) / 2) + q.val; omega)
          (by show k.val = 4096 * ((t.val - 1) % 2) + k.val; omega))
        (msk_read V c (prev2 t) q k _ _ (by show 512 * (t.val / 2) + q.val = 512 * ((t.val - 1) / 2) + q.val; omega)
          (by show k.val = 4096 * ((t.val - 1) % 2) + k.val; omega)))
  · exact congrArg₂ (· * ·)
      (inp_read V c t p k _ (by show 4096 + k.val = 4096 * (t.val % 2) + k.val; omega))
      (congrArg₂ (· * ·)
        (wgt_read V c t q k _ _ (by show 512 * (t.val / 2) + q.val = 512 * (t.val / 2) + q.val; rfl)
          (by show 4096 + k.val = 4096 * (t.val % 2) + k.val; omega))
        (msk_read V c t q k _ _ (by show 512 * (t.val / 2) + q.val = 512 * (t.val / 2) + q.val; rfl)
          (by show 4096 + k.val = 4096 * (t.val % 2) + k.val; omega)))
  · exact bias_read V c t q _ (by show 512 * (t.val / 2) + q.val = 512 * (t.val / 2) + q.val; rfl)

/-- An index of the output array is in point t's block iff each coordinate is in the block's range on its axis. -/
theorem mem_blk (t : Fin cfg2.N) (i : S64x4096.Idx) :
    i ∈ ((cfg2.win 4).blk t).view.set ↔ ∀ a : Fin 2, win2_4.index t a * S64x512.size a ≤ (i a).val
      ∧ (i a).val < win2_4.index t a * S64x512.size a + S64x512.size a := by
  show i ∈ ((View.whole main_v7).slice (win2_4.rect t)).set ↔ _
  rw [View.set_slice_whole, Rect.mem_set_unit]
  exact Iff.rfl

/-- Every entry of the output array is written back by a closing point: column q by point 2·(q / 512) + 1. -/
theorem cover (i : S64x4096.Idx) : ∃ t : Fin cfg2.N, (cfg2.win 4).flush t = true ∧ i ∈ ((cfg2.win 4).blk t).view.set := by
  have hi0 : (i 0).val < 64 := (i 0).isLt
  have hi1 : (i 1).val < 4096 := (i 1).isLt
  have hN : cfg2.N = 16 := N_2
  obtain ⟨t, ht⟩ : ∃ t : Fin cfg2.N, t.val = 2 * ((i 1).val / 512) + 1 :=
    ⟨⟨2 * ((i 1).val / 512) + 1, lt_of_lt_of_eq (by omega) hN.symm⟩, rfl⟩
  obtain ⟨-, -, -, -, -, -, -, -, e0, e1⟩ := idx_facts t
  refine ⟨t, (flush2_4 t).mpr (by omega), ?_⟩
  rw [mem_blk]
  intro a
  match a with
  | ⟨0, _⟩ => show win2_4.index t (0 : Fin 2) * 64 ≤ (i 0).val ∧ (i 0).val < win2_4.index t (0 : Fin 2) * 64 + 64; omega
  | ⟨1, _⟩ => show win2_4.index t (1 : Fin 2) * 512 ≤ (i 1).val ∧ (i 1).val < win2_4.index t (1 : Fin 2) * 512 + 512; omega

/-- The output array after the region's run is the layer of the arrays the region found. -/
theorem final2 (c : Dev nD) :
    (dat2 (F := Ideal) V c).arrAt 4 cfg2.N
      = Cert.Layer.layer (K := 8192) (V c main_v5) (V c main_arg7) (V c main_arg9) (fun j => V c main_v6 (ix2 0 (j 0))) :=
  (dat2 (F := Ideal) V c).arrAt_eq_of_cover 4 (G V c) (fun t hf => flushed_eq V c t hf) cover

end Cert.KernelIdeal.Final2

end
-- ==== Proof.KI.Final3.lean ====
/-
  Layer 4, from blocks to the array: after the region's run its output array is the masked dense layer with a ReLU,
  max (Σ_k inp[p,k] · (W[q,k] · M[q,k]) + b[q]) 0 over all 8192 features, of the arrays the region found. The 16 grid points
  run in pairs; pair d works on output columns 512·d … 512·d + 511, its first point on features 0 … 4095 and its second on
  features 4096 … 8191, and the second point writes the block back. Each block read is a read of the whole array at
  block index × block size + the coordinate inside the block; the two partial sums are the two halves of the full sum;
  the eight written blocks tile the 4096 output columns.
-/
import proofs.«108305_j59700045414953_1_alg».proof.Proof.KI.R3
import proofs.«108305_j59700045414953_1_alg».proof.Proof.PayEntry
import proofs.«108305_j59700045414953_1_alg».proof.Proof.LayerSpec
import Idealize.ShloMosaic.Lib.Pipeline.Value
import Idealize.ShloMosaic.Lib.ValueIdx

set_option maxRecDepth 16384

noncomputable section

namespace Cert.KernelIdeal.Final3

open Cert.KernelIdeal Cert.KernelIdeal.Gen Cert.KernelIdeal.Hand
open Idealize.ShloMosaic Idealize.ShloMosaic.TcCoe Idealize.ShloMosaic.ValueIdx Idealize.ShloMosaic.Pipeline

variable (V : (c : Dev nD) → (b : Ref sig .tc) → Buf (Elt Ideal) ((c : Thread nD τ).loc b))

/-- The block index maps over the 16 grid points: point t works on output column block t / 2 and on feature block t % 2. -/
theorem idx_facts : ∀ t : Fin cfg3.N, win3_0.index t (0 : Fin 2) = 0 ∧ win3_0.index t (1 : Fin 2) = t.val % 2
    ∧ win3_1.index t (0 : Fin 2) = t.val / 2 ∧ win3_1.index t (1 : Fin 2) = t.val % 2
    ∧ win3_2.index t (0 : Fin 2) = t.val / 2 ∧ win3_2.index t (1 : Fin 2) = t.val % 2
    ∧ win3_3.index t (0 : Fin 2) = 0 ∧ win3_3.index t (1 : Fin 2) = t.val / 2
    ∧ win3_4.index t (0 : Fin 2) = 0 ∧ win3_4.index t (1 : Fin 2) = t.val / 2 :=
  (by decide +kernel : ∀ t : Fin grid3.N, _)

/-- The input's block at point t holds all 64 rows of features 4096·(t % 2) … 4096·(t % 2) + 4095. -/
theorem inp_read (c : Dev nD) (t : Fin cfg3.N) (p : Fin 64) (k : Fin 4096) (k' : Fin 8192)
    (hk : k'.val = 4096 * (t.val % 2) + k.val) :
    iblk3 V c 0 t (ix2 p k) = V c main_v8 (ix2 p k') := by
  obtain ⟨e0, e1, -⟩ := idx_facts t
  unfold iblk3
  show V c main_v8 (((cfg3.win 0).blk t).view.emb (ix2 p k)) = _
  refine congrArg (V c main_v8) ?_
  funext a; apply Fin.ext
  match a with
  | ⟨0, _⟩ => show win3_0.index t (0 : Fin 2) * 64 + 1 * p.val = p.val; omega
  | ⟨1, _⟩ => show win3_0.index t (1 : Fin 2) * 4096 + 1 * k.val = k'.val; omega

/-- The weight's block at point t holds rows 512·(t / 2) … of features 4096·(t % 2) … -/
theorem wgt_read (c : Dev nD) (t : Fin cfg3.N) (r : Fin 512) (k : Fin 4096) (r' : Fin 4096) (k' : Fin 8192)
    (hr : r'.val = 512 * (t.val / 2) + r.val) (hk : k'.val = 4096 * (t.val % 2) + k.val) :
    iblk3 V c 1 t (ix2 r k) = V c main_arg10 (ix2 r' k') := by
  obtain ⟨-, -, e0, e1, -⟩ := idx_facts t
  unfold iblk3
  show V c main_arg10 (((cfg3.win 1).blk t).view.emb (ix2 r k)) = _
  refine congrArg (V c main_arg10) ?_
  funext a; apply Fin.ext
  match a with
  | ⟨0, _⟩ => show win3_1.index t (0 : Fin 2) * 512 + 1 * r.val = r'.val; omega
  | ⟨1, _⟩ => show win3_1.index t (1 : Fin 2) * 4096 + 1 * k.val = k'.val; omega

/-- … and the mask's block the same rows and features of the mask. -/
theorem msk_read (c : Dev nD) (t : Fin cfg3.N) (r : Fin 512) (k : Fin 4096) (r' : Fin 4096) (k' : Fin 8192)
    (hr : r'.val = 512 * (t.val / 2) + r.val) (hk : k'.val = 4096 * (t.val % 2) + k.val) :
    iblk3 V c 2 t (ix2 r k) = V c main_arg12 (ix2 r' k') := by
  obtain ⟨-, -, -, -, e0, e1, -⟩ := idx_facts t
  unfold iblk3
  show V c main_arg12 (((cfg3.win 2).blk t).view.emb (ix2 r k)) = _
  refine congrArg (V c main_arg12) ?_
  funext a; apply Fin.ext
  match a with
  | ⟨0, _⟩ => show win3_2.index t (0 : Fin 2) * 512 + 1 * r.val = r'.val; omega
  | ⟨1, _⟩ => show win3_2.index t (1 : Fin 2) * 4096 + 1 * k.val = k'.val; omega

/-- The bias row's block at point t holds entries 512·(t / 2) … of the row. -/
theorem bias_read (c : Dev nD) (t : Fin cfg3.N) (r : Fin 512) (r' : Fin 4096) (hr : r'.val = 512 * (t.val / 2) + r.val) :
    iblk3 V c 3 t (ix2 0 r) = V c main_v9 (ix2 0 r') := by
  obtain ⟨-, -, -, -, -, -, e0, e1, -⟩ := idx_facts t
  unfold iblk3
  show V c main_v9 (((cfg3.win 3).blk t).view.emb (ix2 0 r)) = _
  refine congrArg (V c main_v9) ?_
  funext a; apply Fin.ext
  match a with
  | ⟨0, _⟩ => show win3_3.index t (0 : Fin 2) * 1 + 1 * 0 = 0; omega
  | ⟨1, _⟩ => show win3_3.index t (1 : Fin 2) * 512 + 1 * r.val = r'.val; omega

/-- The layer's whole output as a function of the arrays the region finds: the masked dense layer with a ReLU of the
    64 × 8192 input, the 4096 × 8192 weight and mask, and the bias row. -/
def G (c : Dev nD) : (⟨2, ![64, 4096]⟩ : Shape).Idx → EReal :=
  Cert.Layer.layer (K := 8192) (V c main_v8) (V c main_arg10) (V c main_arg12) (fun j => V c main_v9 (ix2 0 (j 0)))

/-- What a closing point t (odd) writes back is block t / 2 of the layer's output: its accumulator holds the first
    feature block's products, left by the point before, plus the second's, which are the two halves of the sum over
    all 8192 features. -/
theorem flushed_eq (c : Dev nD) (t : Fin cfg3.N) (hf : (cfg3.win 4).flush t = true) :
    (dat3 (F := Ideal) V c).flushed 4 t = ((cfg3.win 4).blk t).view.read (Elt Ideal) (G V c) := by
  have hN : t.val < 16 := lt_of_lt_of_eq t.isLt (show cfg3.N = 16 from N_3)
  have hodd : t.val % 2 = 1 := (flush3_4 t).mp hf
  obtain ⟨-, -, -, -, -, -, -, -, e0, e1⟩ := idx_facts t
  show (cfg3.win 4).cut (grid3.coords t) ((dat3 (F := Ideal) V c).after 4 t) = _
  rw [after3_4]
  unfold out3 acc3
  rw [if_neg (by omega)]
  funext j
  obtain ⟨p, q, rfl⟩ : ∃ (p : Fin 64) (q : Fin 512), j = ix2 p q := ⟨j 0, j 1, eq_ix2 j⟩
  refine (PayEntry.pay3_entry (iblk3 V c 0 (prev3 t)) (iblk3 V c 0 t) (iblk3 V c 1 (prev3 t)) (iblk3 V c 2 (prev3 t))
    (iblk3 V c 1 t) (iblk3 V c 2 t) (iblk3 V c 3 t) p q).trans ?_
  have hemb : ((cfg3.win 4).blk t).view.emb (ix2 p q) = (ix2 p ⟨512 * (t.val / 2) + q.val, by omega⟩ : S64x4096.Idx) := by
    funext a; apply Fin.ext
    match a with
    | ⟨0, _⟩ => show win3_4.index t (0 : Fin 2) * 64 + 1 * p.val = p.val; omega
    | ⟨1, _⟩ => show win3_4.index t (1 : Fin 2) * 512 + 1 * q.val = 512 * (t.val / 2) + q.val; omega
  show _ = G V c (((cfg3.win 4).blk t).view.emb (ix2 p q))
  rw [hemb]
  unfold G
  rw [Cert.Layer.layer_ix2]
  unfold Cert.Layer.entry
  rw [Cert.Layer.sum_halves]
  refine congrArg (fun x => max x 0) ?_
  refine congrArg₂ (· + ·) (congrArg₂ (· + ·) (Finset.sum_congr rfl fun k _ => ?_) (Finset.sum_congr rfl fun k _ => ?_)) ?_
  · exact congrArg₂ (· * ·)
      (inp_read V c (prev3 t) p k _ (by show k.val = 4096 * ((t.val - 1) % 2) + k.val; omega))
      (congrArg₂ (· * ·)
        (wgt_read V c (prev3 t) q k _ _ (by show 512 * (t.val / 2) + q.val = 512 * ((t.val - 1) / 2) + q.val; omega)
          (by show k.val = 4096 * ((t.val - 1) % 2) + k.val; omega))
        (msk_read V c (prev3 t) q k _ _ (by show 512 * (t.val / 2) + q.val = 512 * ((t.val - 1) / 2) + q.val; omega)
          (by show k.val = 4096 * ((t.val - 1) % 2) + k.val; omega)))
  · exact congrArg₂ (· * ·)
      (inp_read V c t p k _ (by show 4096 + k.val = 4096 * (t.val % 2) + k.val; omega))
      (congrArg₂ (· * ·)
        (wgt_read V c t q k _ _ (by show 512 * (t.val / 2) + q.val = 512 * (t.val / 2) + q.val; rfl)
          (by show 4096 + k.val = 4096 * (t.val % 2) + k.val; omega))
        (msk_read V c t q k _ _ (by show 512 * (t.val / 2) + q.val = 512 * (t.val / 2) + q.val; rfl)
          (by show 4096 + k.val = 4096 * (t.val % 2) + k.val; omega)))
  · exact bias_read V c t q _ (by show 512 * (t.val / 2) + q.val = 512 * (t.val / 2) + q.val; rfl)

/-- An index of the output array is in point t's block iff each coordinate is in the block's range on its axis. -/
theorem mem_blk (t : Fin cfg3.N) (i : S64x4096.Idx) :
    i ∈ ((cfg3.win 4).blk t).view.set ↔ ∀ a : Fin 2, win3_4.index t a * S64x512.size a ≤ (i a).val
      ∧ (i a).val < win3_4.index t a * S64x512.size a + S64x512.size a := by
  show i ∈ ((View.whole main_v10).slice (win3_4.rect t)).set ↔ _
  rw [View.set_slice_whole, Rect.mem_set_unit]
  exact Iff.rfl

/-- Every entry of the output array is written back by a closing point: column q by point 2·(q / 512) + 1. -/
theorem cover (i : S64x4096.Idx) : ∃ t : Fin cfg3.N, (cfg3.win 4).flush t = true ∧ i ∈ ((cfg3.win 4).blk t).view.set := by
  have hi0 : (i 0).val < 64 := (i 0).isLt
  have hi1 : (i 1).val < 4096 := (i 1).isLt
  have hN : cfg3.N = 16 := N_3
  obtain ⟨t, ht⟩ : ∃ t : Fin cfg3.N, t.val = 2 * ((i 1).val / 512) + 1 :=
    ⟨⟨2 * ((i 1).val / 512) + 1, lt_of_lt_of_eq (by omega) hN.symm⟩, rfl⟩
  obtain ⟨-, -, -, -, -, -, -, -, e0, e1⟩ := idx_facts t
  refine ⟨t, (flush3_4 t).mpr (by omega), ?_⟩
  rw [mem_blk]
  intro a
  match a with
  | ⟨0, _⟩ => show win3_4.index t (0 : Fin 2) * 64 ≤ (i 0).val ∧ (i 0).val < win3_4.index t (0 : Fin 2) * 64 + 64; omega
  | ⟨1, _⟩ => show win3_4.index t (1 : Fin 2) * 512 ≤ (i 1).val ∧ (i 1).val < win3_4.index t (1 : Fin 2) * 512 + 512; omega

/-- The output array after the region's run is the layer of the arrays the region found. -/
theorem final3 (c : Dev nD) :
    (dat3 (F := Ideal) V c).arrAt 4 cfg3.N
      = Cert.Layer.layer (K := 8192) (V c main_v8) (V c main_arg10) (V c main_arg12) (fun j => V c main_v9 (ix2 0 (j 0))) :=
  (dat3 (F := Ideal) V c).arrAt_eq_of_cover 4 (G V c) (fun t hf => flushed_eq V c t hf) cover

end Cert.KernelIdeal.Final3

end
-- ==== Proof.BiasRow.lean ====
/-
  The bias as a row. The program reshapes each bias of 4096 entries to an array of one row and 4096 columns before a
  layer's kernel reads it; entry (0, j) of that row is entry j of the bias, so reading the row back along its one row
  gives the bias again.
-/
import proofs.«108305_j59700045414953_1_alg».proof.KernelIdeal
import Idealize.ShloMosaic.Lib.ValueIdx
import Idealize.ShloMosaic.Lib.ValueLayout
import Idealize.ShloMosaic.Lib.Pipeline.Value

noncomputable section

namespace Cert.KernelIdeal.BiasRow

open Cert.KernelIdeal Idealize.ShloMosaic Idealize.ShloMosaic.ValueIdx

/-- Entry (0, i) of the bias reshaped to one row is entry i of the bias. -/
theorem row_apply {α : Type} (b : S4096.Idx → α) (h : S4096.ShapeCasts S1x4096) (i : Fin 4096) :
    shapeCast S1x4096 b h (ix2 0 i) = b (ix1 i) :=
  shapeCast_a_1a_apply b h 0 i

/-- The bias reshaped to one row, read back along that row, is the bias. -/
theorem row_reshape {α : Type} (b : S4096.Idx → α) (h : S4096.ShapeCasts S1x4096) :
    (fun j : S4096.Idx => shapeCast S1x4096 b h (ix2 0 (j 0))) = b := by
  funext j
  obtain ⟨i, rfl⟩ : ∃ i : Fin 4096, j = ix1 i := ⟨j 0, eq_ix1 j⟩
  exact row_apply b h i

end Cert.KernelIdeal.BiasRow

end
-- ==== Proof.KI.Value.lean ====
/-
  What the kernel program's result array holds at the exact instance, in the launch memory's terms. Reading the run's
  fold of valuations backwards: an argument array is never written, so every region finds it as launched; each host
  stretch reshapes a bias into a row and joins two earlier results side by side; each region's write-backs leave one
  masked dense layer with ReLU of the arrays it found. Composed, the result array is the four-layer network of the
  launch arrays.
-/
import proofs.«108305_j59700045414953_1_alg».proof.Proof.KI.Run
import proofs.«108305_j59700045414953_1_alg».proof.Proof.NetSpec
import proofs.«108305_j59700045414953_1_alg».proof.Proof.KI.Final0
import proofs.«108305_j59700045414953_1_alg».proof.Proof.KI.Final1
import proofs.«108305_j59700045414953_1_alg».proof.Proof.KI.Final2
import proofs.«108305_j59700045414953_1_alg».proof.Proof.KI.Final3
import proofs.«108305_j59700045414953_1_alg».proof.Proof.BiasRow
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.NetValue

open Cert.KernelIdeal Cert.KernelIdeal.Gen Cert.KernelIdeal.Hand Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

theorem W1_kept (c : Dev nD) (b : Ref sig .tc) (hb : b ∉ ([main_v0] : List (Ref sig .tc))) :
    W1 m c (Proc.devRef .tc b) = m ((c : Thread nD τ).loc b) := by
  simp only [List.mem_cons, List.mem_nil_iff, not_or, or_false] at hb
  have h0 := hb
  exact (StableHlo.after_of_writes_sub hostOps0 _ hostOps0_writes (by simp only [hostOps0_W, List.mem_cons, List.mem_nil_iff, not_or, or_false]; exact h0)).trans (rfl)

theorem W2_kept (c : Dev nD) (b : Ref sig .tc) (hb : b ∉ ([main_v0, main_v1] : List (Ref sig .tc))) :
    W2 m c (Proc.devRef .tc b) = m ((c : Thread nD τ).loc b) := by
  simp only [List.mem_cons, List.mem_nil_iff, not_or, or_false] at hb
  obtain ⟨h0, h1⟩ := hb
  exact (W2_keep m c b h1).trans (W1_kept m c b (by simp only [List.mem_cons, List.mem_nil_iff, not_or, or_false]; exact h0))

theorem W3_kept (c : Dev nD) (b : Ref sig .tc) (hb : b ∉ ([main_v0, main_v1, main_v2, main_v3] : List (Ref sig .tc))) :
    W3 m c (Proc.devRef .tc b) = m ((c : Thread nD τ).loc b) := by
  simp only [List.mem_cons, List.mem_nil_iff, not_or, or_false] at hb
  obtain ⟨h0, h1, h2, h3⟩ := hb
  exact (StableHlo.after_of_writes_sub hostOps1 _ hostOps1_writes (by simp only [hostOps1_W, List.mem_cons, List.mem_nil_iff, not_or, or_false]; exact ⟨h2, h3⟩)).trans (W2_kept m c b (by simp only [List.mem_cons, List.mem_nil_iff, not_or, or_false]; exact ⟨h0, h1⟩))

theorem W4_kept (c : Dev nD) (b : Ref sig .tc) (hb : b ∉ ([main_v0, main_v1, main_v2, main_v3, main_v4] : List (Ref sig .tc))) :
    W4 m c (Proc.devRef .tc b) = m ((c : Thread nD τ).loc b) := by
  simp only [List.mem_cons, List.mem_nil_iff, not_or, or_false] at hb
  obtain ⟨h0, h1, h2, h3, h4⟩ := hb
  exact (W4_keep m c b h4).trans (W3_kept m c b (by simp only [List.mem_cons, List.mem_nil_iff, not_or, or_false]; exact ⟨h0, h1, h2, h3⟩))

theorem W5_kept (c : Dev nD) (b : Ref sig .tc) (hb : b ∉ ([main_v0, main_v1, main_v2, main_v3, main_v4, main_v5, main_v6] : List (Ref sig .tc))) :
    W5 m c (Proc.devRef .tc b) = m ((c : Thread nD τ).loc b) := by
  simp only [List.mem_cons, List.mem_nil_iff, not_or, or_false] at hb
  obtain ⟨h0, h1, h2, h3, h4, h5, h6⟩ := hb
  exact (StableHlo.after_of_writes_sub hostOps2 _ hostOps2_writes (by simp only [hostOps2_W, List.mem_cons, List.mem_nil_iff, not_or, or_false]; exact ⟨h5, h6⟩)).trans (W4_kept m c b (by simp only [List.mem_cons, List.mem_nil_iff, not_or, or_false]; exact ⟨h0, h1, h2, h3, h4⟩))

theorem W6_kept (c : Dev nD) (b : Ref sig .tc) (hb : b ∉ ([main_v0, main_v1, main_v2, main_v3, main_v4, main_v5, main_v6, main_v7] : List (Ref sig .tc))) :
    W6 m c (Proc.devRef .tc b) = m ((c : Thread nD τ).loc b) := by
  simp only [List.mem_cons, List.mem_nil_iff, not_or, or_false] at hb
  obtain ⟨h0, h1, h2, h3, h4, h5, h6, h7⟩ := hb
  exact (W6_keep m c b h7).trans (W5_kept m c b (by simp only [List.mem_cons, List.mem_nil_iff, not_or, or_false]; exact ⟨h0, h1, h2, h3, h4, h5, h6⟩))

theorem W7_kept (c : Dev nD) (b : Ref sig .tc) (hb : b ∉ ([main_v0, main_v1, main_v2, main_v3, main_v4, main_v5, main_v6, main_v7, main_v8, main_v9] : List (Ref sig .tc))) :
    W7 m c (Proc.devRef .tc b) = m ((c : Thread nD τ).loc b) := by
  simp only [List.mem_cons, List.mem_nil_iff, not_or, or_false] at hb
  obtain ⟨h0, h1, h2, h3, h4, h5, h6, h7, h8, h9⟩ := hb
  exact (StableHlo.after_of_writes_sub hostOps3 _ hostOps3_writes (by simp only [hostOps3_W, List.mem_cons, List.mem_nil_iff, not_or, or_false]; exact ⟨h8, h9⟩)).trans (W6_kept m c b (by simp only [List.mem_cons, List.mem_nil_iff, not_or, or_false]; exact ⟨h0, h1, h2, h3, h4, h5, h6, h7⟩))

/-- The side-by-side join of two arrays of 4096 columns. -/
abbrev cat (a b : FVec Ideal S64x4096 .f32) : FVec Ideal S64x8192 .f32 :=
  concatenate S64x8192 1 [⟨S64x4096, a⟩, ⟨S64x4096, b⟩] concatenates_S64x4096_S64x4096_S64x8192_d1

theorem W1_v0 (c : Dev nD) : (W1 m c (Proc.devRef .tc main_v0) : S1x4096.Idx → EReal)
    = shapeCast S1x4096 (W0 m c (Proc.devRef .tc main_arg2)) shapeCasts_S4096_S1x4096 := by
  show StableHlo.after hostOps0 _ (Proc.devRef .tc main_v0) = _
  after_results
  rfl
theorem W3_v2 (c : Dev nD) : (W3 m c (Proc.devRef .tc main_v2) : S64x8192.Idx → EReal)
    = cat (W2 m c (Proc.devRef .tc main_arg0)) (W2 m c (Proc.devRef .tc main_v1)) := by
  show StableHlo.after hostOps1 _ (Proc.devRef .tc main_v2) = _
  after_results
theorem W3_v3 (c : Dev nD) : (W3 m c (Proc.devRef .tc main_v3) : S1x4096.Idx → EReal)
    = shapeCast S1x4096 (W2 m c (Proc.devRef .tc main_arg5)) shapeCasts_S4096_S1x4096 := by
  show StableHlo.after hostOps1 _ (Proc.devRef .tc main_v3) = _
  after_results
  rfl

theorem W5_v5 (c : Dev nD) : (W5 m c (Proc.devRef .tc main_v5) : S64x8192.Idx → EReal)
    = cat (W4 m c (Proc.devRef .tc main_v1)) (W4 m c (Proc.devRef .tc main_v4)) := by
  show StableHlo.after hostOps2 _ (Proc.devRef .tc main_v5) = _
  after_results
theorem W5_v6 (c : Dev nD) : (W5 m c (Proc.devRef .tc main_v6) : S1x4096.Idx → EReal)
    = shapeCast S1x4096 (W4 m c (Proc.devRef .tc main_arg8)) shapeCasts_S4096_S1x4096 := by
  show StableHlo.after hostOps2 _ (Proc.devRef .tc main_v6) = _
  after_results
  rfl
theorem W7_v8 (c : Dev nD) : (W7 m c (Proc.devRef .tc main_v8) : S64x8192.Idx → EReal)
    = cat (W6 m c (Proc.devRef .tc main_v4)) (W6 m c (Proc.devRef .tc main_v7)) := by
  show StableHlo.after hostOps3 _ (Proc.devRef .tc main_v8) = _
  after_results
theorem W7_v9 (c : Dev nD) : (W7 m c (Proc.devRef .tc main_v9) : S1x4096.Idx → EReal)
    = shapeCast S1x4096 (W6 m c (Proc.devRef .tc main_arg11)) shapeCasts_S4096_S1x4096 := by
  show StableHlo.after hostOps3 _ (Proc.devRef .tc main_v9) = _
  after_results
  rfl

/-- A layer is a function of its four arrays. -/
theorem layer_congr {K : ℕ} {a a' : (⟨2, ![64, K]⟩ : Shape).Idx → EReal} {W W' M M' : (⟨2, ![4096, K]⟩ : Shape).Idx → EReal}
    {b b' : (⟨1, ![4096]⟩ : Shape).Idx → EReal} (ha : a = a') (hW : W = W') (hM : M = M') (hb : b = b') :
    Cert.Layer.layer a W M b = Cert.Layer.layer a' W' M' b' := by subst ha hW hM hb; rfl

/-- A reshaped bias read back along its row is the bias. -/
theorem row_eq (r : S1x4096.Idx → EReal) (b : S4096.Idx → EReal) (h : r = shapeCast S1x4096 b shapeCasts_S4096_S1x4096) :
    (fun j : S4096.Idx => r (ix2 0 (j 0))) = b := by
  subst h; exact Cert.KernelIdeal.BiasRow.row_reshape b _

/-! ## The four layers' results, in the launch memory's terms -/

/-- Layer 1's result. -/
abbrev Y1 (c : Dev nD) : Cert.Layer.A4 := Cert.Layer.layer (K := 4096) (m ((c : Thread nD τ).loc main_arg0)) (m ((c : Thread nD τ).loc main_arg1)) (m ((c : Thread nD τ).loc main_arg3)) (m ((c : Thread nD τ).loc main_arg2))
/-- Layer 2's result. -/
abbrev Y2 (c : Dev nD) : Cert.Layer.A4 := Cert.Layer.layer (K := 8192) (cat (m ((c : Thread nD τ).loc main_arg0)) (Y1 m c)) (m ((c : Thread nD τ).loc main_arg4)) (m ((c : Thread nD τ).loc main_arg6)) (m ((c : Thread nD τ).loc main_arg5))
/-- Layer 3's result. -/
abbrev Y3 (c : Dev nD) : Cert.Layer.A4 := Cert.Layer.layer (K := 8192) (cat (Y1 m c) (Y2 m c)) (m ((c : Thread nD τ).loc main_arg7)) (m ((c : Thread nD τ).loc main_arg9)) (m ((c : Thread nD τ).loc main_arg8))
/-- Layer 4's result. -/
abbrev Y4 (c : Dev nD) : Cert.Layer.A4 := Cert.Layer.layer (K := 8192) (cat (Y2 m c) (Y3 m c)) (m ((c : Thread nD τ).loc main_arg10)) (m ((c : Thread nD τ).loc main_arg12)) (m ((c : Thread nD τ).loc main_arg11))

/-- Region 0 leaves layer 1's result in its output array: its arrays are the launch contents and the reshaped bias. -/
theorem y1_eq (c : Dev nD) : W2 m c (Proc.devRef .tc main_v1) = Y1 m c := by
  refine (W2_arr m c 4).trans ((Cert.KernelIdeal.Final0.final0 (V1 m) c).trans (layer_congr ?_ ?_ ?_ ?_))
  · exact W1_kept m c main_arg0 (by decide)
  · exact W1_kept m c main_arg1 (by decide)
  · exact W1_kept m c main_arg3 (by decide)
  · exact row_eq _ _ (W1_v0 m c)

/-- Region 1 leaves layer 2's result: its input is the launch input joined with layer 1's result. -/
theorem y2_eq (c : Dev nD) : W4 m c (Proc.devRef .tc main_v4) = Y2 m c := by
  refine (W4_arr m c 4).trans ((Cert.KernelIdeal.Final1.final1 (V3 m) c).trans (layer_congr ?_ ?_ ?_ ?_))
  · exact (W3_v2 m c).trans (by rw [W2_kept m c main_arg0 (by decide), y1_eq])
  · exact W3_kept m c main_arg4 (by decide)
  · exact W3_kept m c main_arg6 (by decide)
  · exact row_eq _ _ ((W3_v3 m c).trans (by rw [W2_kept m c main_arg5 (by decide)]))

/-- Layer 1's result is still in its array when region 2 is entered. -/
theorem W4_v1 (c : Dev nD) : W4 m c (Proc.devRef .tc main_v1) = Y1 m c :=
  (W4_keep m c main_v1 (by decide)).trans ((StableHlo.after_of_writes_sub hostOps1 _ hostOps1_writes (by decide)).trans (y1_eq m c))

/-- Region 2 leaves layer 3's result. -/
theorem y3_eq (c : Dev nD) : W6 m c (Proc.devRef .tc main_v7) = Y3 m c := by
  refine (W6_arr m c 4).trans ((Cert.KernelIdeal.Final2.final2 (V5 m) c).trans (layer_congr ?_ ?_ ?_ ?_))
  · exact (W5_v5 m c).trans (by rw [W4_v1, y2_eq])
  · exact W5_kept m c main_arg7 (by decide)
  · exact W5_kept m c main_arg9 (by decide)
  · exact row_eq _ _ ((W5_v6 m c).trans (by rw [W4_kept m c main_arg8 (by decide)]))

/-- Layer 2's result is still in its array when region 3 is entered. -/
theorem W6_v4 (c : Dev nD) : W6 m c (Proc.devRef .tc main_v4) = Y2 m c :=
  (W6_keep m c main_v4 (by decide)).trans ((StableHlo.after_of_writes_sub hostOps2 _ hostOps2_writes (by decide)).trans (y2_eq m c))

/-- Region 3's write-backs leave layer 4's result, the whole network's. -/
theorem y4_eq (c : Dev nD) : (dat3 (F := Ideal) (V7 m) c).arrAt 4 cfg3.N = Y4 m c := by
  refine (Cert.KernelIdeal.Final3.final3 (V7 m) c).trans (layer_congr ?_ ?_ ?_ ?_)
  · exact (W7_v8 m c).trans (by rw [W6_v4, y3_eq])
  · exact W7_kept m c main_arg10 (by decide)
  · exact W7_kept m c main_arg12 (by decide)
  · exact row_eq _ _ ((W7_v9 m c).trans (by rw [W6_kept m c main_arg11 (by decide)]))

/-- THE KERNEL'S RUN, READ: the result array ends at the network of the launch arrays; the arguments end as launched. -/
theorem run_net (ρ : Dev nD → PrngReg) : θ_run (defs (F := Ideal)) (onTc (τ := τ) (main (F := Ideal))) ⟨m, fun _ => 0, ρ⟩ (fun r => ∀ c : Dev nD,
      r.2.mem ((c.tc : Thread nD τ).loc main_v10) = Cert.Layer.net cat (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(h c).1.trans (y4_eq m c), (h c).2⟩) (run_result m ρ)

end Cert.KernelIdeal.NetValue

end
-- ==== Proof.RefLayer.lean ====
/-
  One layer of the reference, as a whole array over the extended reals: the reference's term for a layer — the product of
  the input with the transpose of the masked weight, plus the bias broadcast over the rows, the maximum with the zero
  array — is the layer function  (p, q) ↦ max (Σ_k inp[p,k] · (W[q,k] · M[q,k]) + b[q]) 0.  Stated once for the first
  layer (4096 features) and once for the later ones (8192 features).
-/
import proofs.«108305_j59700045414953_1_alg».proof.Proof.Gen.ReferenceIdeal.Read
import proofs.«108305_j59700045414953_1_alg».proof.Proof.LayerSpec
import Idealize.ShloMosaic.Lib.ValueIdx
import Idealize.ShloMosaic.Lib.Pipeline.Value
import Idealize.ShloMosaic.PureOps.Ideal.Laws

noncomputable section

namespace Cert.ReferenceIdeal.RefLayer

open Cert.ReferenceIdeal Cert.ReferenceIdeal.Gen Idealize.ShloMosaic Idealize.ShloMosaic.ValueIdx

/-! ## The two products at an entry -/

/-- The reference's product of 64 × 4096 by the transpose of 4096 × 4096, at entry (p, q): Σ_k l[p,k] · r[q,k]. -/
theorem dotA_apply (l : FVec Ideal S64x4096 .f32) (r : FVec Ideal S4096x4096 .f32) (p : Fin 64) (q : Fin 4096) :
    Host.dotGeneral (F := Ideal) dot_S64x4096_S4096x4096_S64x4096_1_1_0_0_n_n none l r (ix2 p q) = ∑ k : Fin 4096, l (ix2 p k) * r (ix2 q k) := by
  simp only [Host.dotGeneral]
  rw [Ideal.dotGeneral_apply, ← Equiv.sum_comp (contrEquiv1 dot_S64x4096_S4096x4096_S64x4096_1_1_0_0_n_n 4096 rfl rfl).symm]
  refine Finset.sum_congr rfl fun k _ => ?_
  have hk := contrEquiv1_symm_val dot_S64x4096_S4096x4096_S64x4096_1_1_0_0_n_n 4096 rfl rfl k
  have el : dot_S64x4096_S4096x4096_S64x4096_1_1_0_0_n_n.lhsIdx (ix2 p q) ((contrEquiv1 dot_S64x4096_S4096x4096_S64x4096_1_1_0_0_n_n 4096 rfl rfl).symm k) = ix2 p k :=
    funext fun a => Fin.ext (by
      match a with
      | ⟨0, _⟩ => exact Read.lhs_main_v1_0 _ _
      | ⟨1, _⟩ => exact (Read.lhs_main_v1_1 _ _).trans hk)
  have er : dot_S64x4096_S4096x4096_S64x4096_1_1_0_0_n_n.rhsIdx (ix2 p q) ((contrEquiv1 dot_S64x4096_S4096x4096_S64x4096_1_1_0_0_n_n 4096 rfl rfl).symm k) = ix2 q k :=
    funext fun a => Fin.ext (by
      match a with
      | ⟨0, _⟩ => exact Read.rhs_main_v1_0 _ _
      | ⟨1, _⟩ => exact (Read.rhs_main_v1_1 _ _).trans hk)
  rw [el, er]

/-- The reference's product of 64 × 8192 by the transpose of 4096 × 8192, at entry (p, q): Σ_k l[p,k] · r[q,k]. -/
theorem dotB_apply (l : FVec Ideal S64x8192 .f32) (r : FVec Ideal S4096x8192 .f32) (p : Fin 64) (q : Fin 4096) :
    Host.dotGeneral (F := Ideal) dot_S64x8192_S4096x8192_S64x4096_1_1_0_0_n_n none l r (ix2 p q) = ∑ k : Fin 8192, l (ix2 p k) * r (ix2 q k) := by
  simp only [Host.dotGeneral]
  rw [Ideal.dotGeneral_apply, ← Equiv.sum_comp (contrEquiv1 dot_S64x8192_S4096x8192_S64x4096_1_1_0_0_n_n 8192 rfl rfl).symm]
  refine Finset.sum_congr rfl fun k _ => ?_
  have hk := contrEquiv1_symm_val dot_S64x8192_S4096x8192_S64x4096_1_1_0_0_n_n 8192 rfl rfl k
  have el : dot_S64x8192_S4096x8192_S64x4096_1_1_0_0_n_n.lhsIdx (ix2 p q) ((contrEquiv1 dot_S64x8192_S4096x8192_S64x4096_1_1_0_0_n_n 8192 rfl rfl).symm k) = ix2 p k :=
    funext fun a => Fin.ext (by
      match a with
      | ⟨0, _⟩ => exact Read.lhs_main_v8_0 _ _
      | ⟨1, _⟩ => exact (Read.lhs_main_v8_1 _ _).trans hk)
  have er : dot_S64x8192_S4096x8192_S64x4096_1_1_0_0_n_n.rhsIdx (ix2 p q) ((contrEquiv1 dot_S64x8192_S4096x8192_S64x4096_1_1_0_0_n_n 8192 rfl rfl).symm k) = ix2 q k :=
    funext fun a => Fin.ext (by
      match a with
      | ⟨0, _⟩ => exact Read.rhs_main_v8_0 _ _
      | ⟨1, _⟩ => exact (Read.rhs_main_v8_1 _ _).trans hk)
  rw [el, er]

/-! ## The bias and the zero at an entry -/

/-- The bias, made a row and then repeated over the 64 rows, reads b[q] at entry (p, q). -/
theorem bias_apply (b : FVec Ideal S4096 .f32) (p : Fin 64) (q : Fin 4096) :
    broadcastInDim S64x4096 ![0, 1] bcast_S1x4096_S64x4096_0_1 (broadcastInDim S1x4096 ![1] bcast_S4096_S1x4096_1 b) (ix2 p q)
      = b (ix1 q) := by
  refine (broadcastInDim_apply _ bcast_S1x4096_S64x4096_0_1 _ (ix2 p q) (ix2 (0 : Fin 1) q) (fun a => match a with
    | ⟨0, _⟩ => by show 0 = if (1 : Nat) = 1 then 0 else p.val; rw [if_pos rfl]
    | ⟨1, _⟩ => by show q.val = if (4096 : Nat) = 1 then 0 else q.val; rw [if_neg (by decide)])).trans ?_
  exact broadcastInDim_apply _ bcast_S4096_S1x4096_1 b (ix2 (0 : Fin 1) q) (ix1 q) (fun a => match a with
    | ⟨0, _⟩ => by show q.val = if (4096 : Nat) = 1 then 0 else q.val; rw [if_neg (by decide)])

/-- The scalar zero repeated over the array reads 0 at every entry. -/
theorem zero_apply (i : S64x4096.Idx) :
    broadcastInDim S64x4096 ![] bcast_S_S64x4096 (constant (F := Ideal) S_ .f32 0x00000000#32) i = (0 : EReal) := by
  refine (broadcastInDim_apply _ bcast_S_S64x4096 _ i ix0 (fun a => a.elim0)).trans ?_
  exact Ideal.ofBits_zero_f32

/-! ## A layer of the reference is the layer function -/

theorem ref_layerA (x : FVec Ideal S64x4096 .f32) (W M : FVec Ideal S4096x4096 .f32) (b : FVec Ideal S4096 .f32) :
    maximumf (addf (Host.dotGeneral (F := Ideal) dot_S64x4096_S4096x4096_S64x4096_1_1_0_0_n_n none x (mulf W M))
        (broadcastInDim S64x4096 ![0, 1] bcast_S1x4096_S64x4096_0_1 (broadcastInDim S1x4096 ![1] bcast_S4096_S1x4096_1 b)))
      (broadcastInDim S64x4096 ![] bcast_S_S64x4096 (constant (F := Ideal) S_ .f32 0x00000000#32))
    = Cert.Layer.layer x W M b := by
  funext i
  obtain ⟨p, q, rfl⟩ : ∃ (p : Fin 64) (q : Fin 4096), i = ix2 p q := ⟨i 0, i 1, eq_ix2 i⟩
  rw [Cert.Layer.layer_ix2]
  unfold Cert.Layer.entry
  refine (maximumf_apply _ _ _).trans ?_
  rw [addf_apply, dotA_apply, bias_apply, zero_apply]
  rfl

theorem ref_layerB (inp : FVec Ideal S64x8192 .f32) (W M : FVec Ideal S4096x8192 .f32) (b : FVec Ideal S4096 .f32) :
    maximumf (addf (Host.dotGeneral (F := Ideal) dot_S64x8192_S4096x8192_S64x4096_1_1_0_0_n_n none inp (mulf W M))
        (broadcastInDim S64x4096 ![0, 1] bcast_S1x4096_S64x4096_0_1 (broadcastInDim S1x4096 ![1] bcast_S4096_S1x4096_1 b)))
      (broadcastInDim S64x4096 ![] bcast_S_S64x4096 (constant (F := Ideal) S_ .f32 0x00000000#32))
    = Cert.Layer.layer inp W M b := by
  funext i
  obtain ⟨p, q, rfl⟩ : ∃ (p : Fin 64) (q : Fin 4096), i = ix2 p q := ⟨i 0, i 1, eq_ix2 i⟩
  rw [Cert.Layer.layer_ix2]
  unfold Cert.Layer.entry
  refine (maximumf_apply _ _ _).trans ?_
  rw [addf_apply, dotB_apply, bias_apply, zero_apply]
  rfl

end Cert.ReferenceIdeal.RefLayer

end
-- ==== Proof.RefNet.lean ====
/-
  The reference as a whole: its run ends with the result array equal to the network function of the argument arrays —
  four masked dense layers with ReLU, the later ones on the side-by-side joins of earlier results — and the arguments
  unchanged. The reference's result term is the four per-layer terms nested; each is the layer function.
-/
import proofs.«108305_j59700045414953_1_alg».proof.Proof.RefLayer
import proofs.«108305_j59700045414953_1_alg».proof.Proof.NetSpec
import proofs.«108305_j59700045414953_1_alg».proof.Proof.Gen.ReferenceIdeal.Run

noncomputable section

namespace Cert.ReferenceIdeal.RefNet

open Cert.ReferenceIdeal Cert.ReferenceIdeal.Gen Idealize.ShloMosaic Idealize.ShloMosaic.TcCoe Idealize.SL.Sem Idealize.ShloMosaic.StableHlo

/-- The side-by-side join of two arrays of 4096 columns into one of 8192 columns: the join both programs use. -/
abbrev cat (a b : FVec Ideal S64x4096 .f32) : FVec Ideal S64x8192 .f32 :=
  concatenate S64x8192 1 [⟨S64x4096, a⟩, ⟨S64x4096, b⟩] concatenates_S64x4096_S64x4096_S64x8192_d1

/-- The reference's term for a layer on 4096 features. -/
abbrev termA (x : FVec Ideal S64x4096 .f32) (W M : FVec Ideal S4096x4096 .f32) (b : FVec Ideal S4096 .f32) : FVec Ideal S64x4096 .f32 :=
  maximumf (addf (Host.dotGeneral (F := Ideal) dot_S64x4096_S4096x4096_S64x4096_1_1_0_0_n_n none x (mulf W M))
      (broadcastInDim S64x4096 ![0, 1] bcast_S1x4096_S64x4096_0_1 (broadcastInDim S1x4096 ![1] bcast_S4096_S1x4096_1 b)))
    (broadcastInDim S64x4096 ![] bcast_S_S64x4096 (constant (F := Ideal) S_ .f32 0x00000000#32))

/-- The reference's term for a layer on 8192 features. -/
abbrev termB (inp : FVec Ideal S64x8192 .f32) (W M : FVec Ideal S4096x8192 .f32) (b : FVec Ideal S4096 .f32) : FVec Ideal S64x4096 .f32 :=
  maximumf (addf (Host.dotGeneral (F := Ideal) dot_S64x8192_S4096x8192_S64x4096_1_1_0_0_n_n none inp (mulf W M))
      (broadcastInDim S64x4096 ![0, 1] bcast_S1x4096_S64x4096_0_1 (broadcastInDim S1x4096 ![1] bcast_S4096_S1x4096_1 b)))
    (broadcastInDim S64x4096 ![] bcast_S_S64x4096 (constant (F := Ideal) S_ .f32 0x00000000#32))

theorem termA_eq (x : FVec Ideal S64x4096 .f32) (W M : FVec Ideal S4096x4096 .f32) (b : FVec Ideal S4096 .f32) :
    termA x W M b = Cert.Layer.layer x W M b := RefLayer.ref_layerA x W M b

theorem termB_eq (inp : FVec Ideal S64x8192 .f32) (W M : FVec Ideal S4096x8192 .f32) (b : FVec Ideal S4096 .f32) :
    termB inp W M b = Cert.Layer.layer inp W M b := RefLayer.ref_layerB inp W M b

/-- The four nested per-layer terms are the network. -/
theorem term_eq_net (x : FVec Ideal S64x4096 .f32) (W1 : FVec Ideal S4096x4096 .f32) (b1 : FVec Ideal S4096 .f32)
    (M1 : FVec Ideal S4096x4096 .f32) (W2 : FVec Ideal S4096x8192 .f32) (b2 : FVec Ideal S4096 .f32) (M2 : FVec Ideal S4096x8192 .f32)
    (W3 : FVec Ideal S4096x8192 .f32) (b3 : FVec Ideal S4096 .f32) (M3 : FVec Ideal S4096x8192 .f32)
    (W4 : FVec Ideal S4096x8192 .f32) (b4 : FVec Ideal S4096 .f32) (M4 : FVec Ideal S4096x8192 .f32) :
    termB (cat (termB (cat x (termA x W1 M1 b1)) W2 M2 b2)
        (termB (cat (termA x W1 M1 b1) (termB (cat x (termA x W1 M1 b1)) W2 M2 b2)) W3 M3 b3)) W4 M4 b4
      = Cert.Layer.net cat x W1 b1 M1 W2 b2 M2 W3 b3 M3 W4 b4 M4 := by
  unfold Cert.Layer.net
  rw [termA_eq, termB_eq, termB_eq, termB_eq]

/-- Every weakly fair execution of the reference terminates with its result the network function of the arguments,
    and the arguments unchanged. -/
theorem run_net (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v26) = Cert.Layer.net cat (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c).1.trans (term_eq_net _ _ _ _ _ _ _ _ _ _ _ _ _), (h c).2⟩)
    (Cert.ReferenceIdeal.Value.run (F := Ideal) m ρ)

end Cert.ReferenceIdeal.RefNet

end
-- ==== Proof.lean ====
/-
  The claim: the Pallas program (four masked dense layers with ReLU, each a pallas_call that tiles 512 output columns per
  grid step and accumulates the contraction in blocks of 4096 features in a scratch buffer) against its jnp reference.

  Frames. Each kernel program's @main is four host stretches and four kernel regions; a region's body is run through in each of its control cases, the accumulator carried between grid points in the region's invariant,
  and the eight segments are chained from the launch to the return (Proof/K/*, Proof/KI/*): every weakly fair execution
  terminates, nothing faults, the argument arrays end as launched. The reference has no kernel: its frame is its run with
  the result dropped.

  Preserves. The idealization rewrote nothing: the conjunct is `True`.

  Algebraic. At the exact instance a change of float format is the identity and a matrix product into a zero accumulator
  is the plain sum of products, so each region's write-backs leave  max (Σ_k inp[p,k]·(W[q,k]·M[q,k]) + b[q]) 0  — the
  sum over 8192 features as the sum over the first 4096 plus the sum over the last 4096, which needs only that addition
  on the extended reals is associative and commutative, so the precondition (finite inputs) is never opened. The
  reference's dot_general, broadcasts and maximum with zero are the same function (Proof/RefLayer.lean); both programs join
  the same earlier results side by side, so both results are one network of the launch arrays (Proof/NetSpec.lean).
-/
import proofs.«108305_j59700045414953_1_alg».proof.Defs
import proofs.«108305_j59700045414953_1_alg».proof.Proof.Gen.Kernel
import proofs.«108305_j59700045414953_1_alg».proof.Proof.Gen.KernelIdeal
import proofs.«108305_j59700045414953_1_alg».proof.Proof.Gen.ReferenceIdeal
import proofs.«108305_j59700045414953_1_alg».proof.Proof.Gen.ReferenceIdeal.Run
import proofs.«108305_j59700045414953_1_alg».proof.Proof.Gen.ReferenceIdeal.Read
import proofs.«108305_j59700045414953_1_alg».proof.Proof.Gen.Pre_finite_inputs
import proofs.«108305_j59700045414953_1_alg».proof.Proof.K.Run
import proofs.«108305_j59700045414953_1_alg».proof.Proof.KI.Run
import proofs.«108305_j59700045414953_1_alg».proof.Proof.KI.Value
import proofs.«108305_j59700045414953_1_alg».proof.Proof.RefNet
import Idealize.ShloMosaic.Adequacy
import Idealize.ShloMosaic.Init

noncomputable section

namespace Cert.Proof

open Idealize.ShloMosaic Idealize.SL.Sem

/-- The word-level program's frame: the run of its eight segments, read at the argument arrays. -/
theorem frame_k : Cert.frame_Kernel (hKernel := Cert.Kernel.Gen.facts) (hPre_finite_inputs := Cert.Pre_finite_inputs.Gen.facts) :=
  fun m ρ _ => Cert.Kernel.Hand.frame (F := Bits) m ρ

/-- The idealized program's frame: the same run at the exact instance. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference's frame: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with the four-layer network of the argument arrays in their result array; the memories agree on
    the arguments, and the two joins are the same function. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Layer.net Cert.KernelIdeal.NetValue.cat (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), Cert.KernelIdeal.NetValue.run_net m ρ, ?_⟩
  refine (θ_run Cert.ReferenceIdeal.defs _ _).mono (fun _ h c => ⟨(h c).1.trans ?_, (h c).2⟩) (Cert.ReferenceIdeal.RefNet.run_net m' ρ')
  obtain ⟨e0, e1, e2, e3, e4, e5, e6, e7, e8, e9, e10, e11, e12⟩ := hagree c
  rw [e0, e1, e2, e3, e4, e5, e6, e7, e8, e9, e10, e11, e12]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
